-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v182)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v182) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S25000x256 : Shape := ⟨2, ![25000, 256]⟩
abbrev S2x3x256x256 : Shape := ⟨4, ![2, 3, 256, 256]⟩
abbrev S2x3x256 : Shape := ⟨3, ![2, 3, 256]⟩
abbrev S300000 : Shape := ⟨1, ![300000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S25000x256 : S_.BroadcastsInDim S25000x256 (![] : Fin 0 → Fin S25000x256.rank)
  reducesTo_S25000x256_S_d0_1 : S25000x256.ReducesTo [0, 1] S_
  bcast_S_S2x3x256x256 : S_.BroadcastsInDim S2x3x256x256 (![] : Fin 0 → Fin S2x3x256x256.rank)
  reducesTo_S2x3x256x256_S_d0_1_2_3 : S2x3x256x256.ReducesTo [0, 1, 2, 3] S_
  bcast_S_S2x3x256 : S_.BroadcastsInDim S2x3x256 (![] : Fin 0 → Fin S2x3x256.rank)
  reducesTo_S2x3x256_S_d0_1_2 : S2x3x256.ReducesTo [0, 1, 2] S_

variable [Facts]

def fn_part1 {F : FTy → Type} [FloatOps F] (main_arg4 : FVec F S2x3x256 .f32) (main_v13 : IVec S_ 1) (main_v16 : IVec S2x3x256x256 1) : IVec S_ 1 :=
  let main_c_5 : IVec S_ 1 := constantI S_ 1 1#1
  let main_v17 : IVec S_ 1 := (fun x v => Host.reduce IntOp.andi x v reducesTo_S2x3x256x256_S_d0_1_2_3 h_S_) main_v16 main_c_5
  let main_v18 : IVec S_ 1 := andi main_v13 main_v17
  let main_v19 : FVec F S2x3x256 .f32 := Host.absf main_arg4
  let main_cst_6 : FVec F S_ .f32 := constant S_ .f32 0x7F800000#32
  let main_v20 : FVec F S2x3x256 .f32 := broadcastInDim S2x3x256 ![] bcast_S_S2x3x256 main_cst_6
  let main_v21 : IVec S2x3x256 1 := cmpf .olt main_v19 main_v20
  let main_c_7 : IVec S_ 1 := constantI S_ 1 1#1
  let main_v22 : IVec S_ 1 := (fun x v => Host.reduce IntOp.andi x v reducesTo_S2x3x256_S_d0_1_2 h_S_) main_v21 main_c_7
  let main_v23 : IVec S_ 1 := andi main_v18 main_v22
  main_v23

def fn {F : FTy → Type} [FloatOps F] (main_arg0 : FVec F S50000x256 .f32) (main_arg1 : FVec F S25000x256 .f32) (main_arg2 : FVec F S2x3x256x256 .f32) (main_arg3 : FVec F S2x3x256x256 .f32) (main_arg4 : FVec F S2x3x256 .f32) (main_arg5 : IVec S300000 32) (main_arg6 : IVec S300000 32) (main_arg7 : IVec S300000 32) (main_arg8 : IVec S300000 32) (main_arg9 : IVec S300000 32) (main_arg10 : IVec S300000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S25000x256 .f32 := Host.absf main_arg1
  let main_cst_0 : FVec F S_ .f32 := constant S_ .f32 0x7F800000#32
  let main_v5 : FVec F S25000x256 .f32 := broadcastInDim S25000x256 ![] bcast_S_S25000x256 main_cst_0
  let main_v6 : IVec S25000x256 1 := cmpf .olt main_v4 main_v5
  let main_c_1 : IVec S_ 1 := constantI S_ 1 1#1
  let main_v7 : IVec S_ 1 := (fun x v => Host.reduce IntOp.andi x v reducesTo_S25000x256_S_d0_1 h_S_) main_v6 main_c_1
  let main_v8 : IVec S_ 1 := andi main_v3 main_v7
  let main_v9 : FVec F S2x3x256x256 .f32 := Host.absf main_arg2
  let main_cst_2 : FVec F S_ .f32 := constant S_ .f32 0x7F800000#32
  let main_v10 : FVec F S2x3x256x256 .f32 := broadcastInDim S2x3x256x256 ![] bcast_S_S2x3x256x256 main_cst_2
  let main_v11 : IVec S2x3x256x256 1 := cmpf .olt main_v9 main_v10
  let main_c_3 : IVec S_ 1 := constantI S_ 1 1#1
  let main_v12 : IVec S_ 1 := (fun x v => Host.reduce IntOp.andi x v reducesTo_S2x3x256x256_S_d0_1_2_3 h_S_) main_v11 main_c_3
  let main_v13 : IVec S_ 1 := andi main_v8 main_v12
  let main_v14 : FVec F S2x3x256x256 .f32 := Host.absf main_arg3
  let main_cst_4 : FVec F S_ .f32 := constant S_ .f32 0x7F800000#32
  let main_v15 : FVec F S2x3x256x256 .f32 := broadcastInDim S2x3x256x256 ![] bcast_S_S2x3x256x256 main_cst_4
  let main_v16 : IVec S2x3x256x256 1 := cmpf .olt main_v14 main_v15
  fn_part1 (F := F) main_arg4 main_v13 main_v16
-- ==== Kernel.lean ====
abbrev S50000x256 : Shape := ⟨2, ![50000, 256]⟩
abbrev S25000x256 : Shape := ⟨2, ![25000, 256]⟩
abbrev S2x3x256x256 : Shape := ⟨4, ![2, 3, 256, 256]⟩
abbrev S2x3x256 : Shape := ⟨3, ![2, 3, 256]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S25000 : Shape := ⟨1, ![25000]⟩
abbrev S25000x1 : Shape := ⟨2, ![25000, 1]⟩
abbrev S50000 : Shape := ⟨1, ![50000]⟩
abbrev S50000x1 : Shape := ⟨2, ![50000, 1]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S1x256 : Shape := ⟨2, ![1, 256]⟩
abbrev S1000x256 : Shape := ⟨2, ![1000, 256]⟩
abbrev S2000x256 : Shape := ⟨2, ![2000, 256]⟩
abbrev S75000x256 : Shape := ⟨2, ![75000, 256]⟩

abbrev nBuf : Space → Nat
  | .hbm => 230
  | .vmem => 42
  | .smem => 0
  | _ => 0

abbrev hbmTy0_0 (i : Nat) : BufTy := match i % 128 with
  | 0 => ⟨S50000x256, .f32⟩
  | 1 => ⟨S25000x256, .f32⟩
  | 2 => ⟨S2x3x256x256, .f32⟩
  | 3 => ⟨S2x3x256x256, .f32⟩
  | 4 => ⟨S2x3x256, .f32⟩
  | 5 => ⟨S300000, .i32⟩
  | 6 => ⟨S300000, .i32⟩
  | 7 => ⟨S300000, .i32⟩
  | 8 => ⟨S300000, .i32⟩
  | 9 => ⟨S300000, .i32⟩
  | 10 => ⟨S300000, .i32⟩
  | 11 => ⟨S_, .i32⟩
  | 12 => ⟨S300000, .i32⟩
  | 13 => ⟨S300000, .i1⟩
  | 14 => ⟨S_, .i32⟩
  | 15 => ⟨S300000, .i32⟩
  | 16 => ⟨S300000, .i32⟩
  | 17 => ⟨S300000, .i32⟩
  | 18 => ⟨S300000x1, .i32⟩
  | 19 => ⟨S300000x256, .f32⟩
  | 20 => ⟨S_, .f32⟩
  | 21 => ⟨S25000x256, .f32⟩
  | 22 => ⟨S300000x1, .i32⟩
  | 23 => ⟨S25000x256, .f32⟩
  | 24 => ⟨S_, .f32⟩
  | 25 => ⟨S300000, .f32⟩
  | 26 => ⟨S_, .f32⟩
  | 27 => ⟨S25000, .f32⟩
  | 28 => ⟨S300000x1, .i32⟩
  | 29 => ⟨S25000, .f32⟩
  | 30 => ⟨S_, .f32⟩
  | 31 => ⟨S25000, .f32⟩
  | 32 => ⟨S25000, .f32⟩
  | 33 => ⟨S25000x1, .f32⟩
  | 34 => ⟨S25000x256, .f32⟩
  | 35 => ⟨S25000x256, .f32⟩
  | 36 => ⟨S_, .i32⟩
  | 37 => ⟨S300000, .i32⟩
  | 38 => ⟨S300000, .i1⟩
  | 39 => ⟨S_, .i32⟩
  | 40 => ⟨S300000, .i32⟩
  | 41 => ⟨S300000, .i32⟩
  | 42 => ⟨S300000, .i32⟩
  | 43 => ⟨S300000x1, .i32⟩
  | 44 => ⟨S300000x256, .f32⟩
  | 45 => ⟨S_, .f32⟩
  | 46 => ⟨S50000x256, .f32⟩
  | 47 => ⟨S300000x1, .i32⟩
  | 48 => ⟨S50000x256, .f32⟩
  | 49 => ⟨S_, .f32⟩
  | 50 => ⟨S300000, .f32⟩
  | 51 => ⟨S_, .f32⟩
  | 52 => ⟨S50000, .f32⟩
  | 53 => ⟨S300000x1, .i32⟩
  | 54 => ⟨S50000, .f32⟩
  | 55 => ⟨S_, .f32⟩
  | 56 => ⟨S50000, .f32⟩
  | 57 => ⟨S50000, .f32⟩
  | 58 => ⟨S50000x1, .f32⟩
  | 59 => ⟨S50000x256, .f32⟩
  | 60 => ⟨S50000x256, .f32⟩
  | 61 => ⟨S_, .i32⟩
  | 62 => ⟨S300000, .i32⟩
  | 63 => ⟨S300000, .i1⟩
  | 64 => ⟨S_, .i32⟩
  | 65 => ⟨S300000, .i32⟩
  | 66 => ⟨S300000, .i32⟩
  | 67 => ⟨S300000, .i32⟩
  | 68 => ⟨S300000x1, .i32⟩
  | 69 => ⟨S300000x256, .f32⟩
  | 70 => ⟨S_, .f32⟩
  | 71 => ⟨S50000x256, .f32⟩
  | 72 => ⟨S300000x1, .i32⟩
  | 73 => ⟨S50000x256, .f32⟩
  | 74 => ⟨S_, .f32⟩
  | 75 => ⟨S300000, .f32⟩
  | 76 => ⟨S_, .f32⟩
  | 77 => ⟨S50000, .f32⟩
  | 78 => ⟨S300000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x256, .f32⟩
  | 85 => ⟨S50000x256, .f32⟩
  | 86 => ⟨S1x1x256x256, .f32⟩
  | 87 => ⟨S256x256, .f32⟩
  | 88 => ⟨S1x1x256x256, .f32⟩
  | 89 => ⟨S256x256, .f32⟩
  | 90 => ⟨S1x1x256, .f32⟩
  | 91 => ⟨S256, .f32⟩
  | 92 => ⟨S1x1x256x256, .f32⟩
  | 93 => ⟨S256x256, .f32⟩
  | 94 => ⟨S1x1x256x256, .f32⟩
  | 95 => ⟨S256x256, .f32⟩
  | 96 => ⟨S1x1x256x256, .f32⟩
  | 97 => ⟨S256x256, .f32⟩
  | 98 => ⟨S1x1x256x256, .f32⟩
  | 99 => ⟨S256x256, .f32⟩
  | 100 => ⟨S256x256, .f32⟩
  | 101 => ⟨S1x1x256, .f32⟩
  | 102 => ⟨S256, .f32⟩
  | 103 => ⟨S1x1x256, .f32⟩
  | 104 => ⟨S256, .f32⟩
  | 105 => ⟨S256, .f32⟩
  | 106 => ⟨S25000x256, .bf16⟩
  | 107 => ⟨S25000x256, .bf16⟩
  | 108 => ⟨S256x256, .bf16⟩
  | 109 => ⟨S256x256, .bf16⟩
  | 110 => ⟨S1x256, .f32⟩
  | 111 => ⟨S25000x256, .f32⟩
  | 112 => ⟨S50000x256, .bf16⟩
  | 113 => ⟨S50000x256, .bf16⟩
  | 114 => ⟨S50000x256, .bf16⟩
  | 115 => ⟨S256x256, .bf16⟩
  | 116 => ⟨S256x256, .bf16⟩
  | 117 => ⟨S256x256, .bf16⟩
  | 118 => ⟨S1x256, .f32⟩
  | 119 => ⟨S50000x256, .f32⟩
  | 120 => ⟨S_, .i32⟩
  | 121 => ⟨S300000, .i32⟩
  | 122 => ⟨S300000, .i1⟩
  | 123 => ⟨S_, .i32⟩
  | 124 => ⟨S300000, .i32⟩
  | 125 => ⟨S300000, .i32⟩
  | 126 => ⟨S300000, .i32⟩
  | 127 => ⟨S300000x1, .i32⟩
  | _ => ⟨S50000x256, .f32⟩

abbrev hbmTy0_1 (i : Nat) : BufTy := match i % 128 with
  | 0 => ⟨S300000x256, .f32⟩
  | 1 => ⟨S_, .f32⟩
  | 2 => ⟨S25000x256, .f32⟩
  | 3 => ⟨S300000x1, .i32⟩
  | 4 => ⟨S25000x256, .f32⟩
  | 5 => ⟨S_, .f32⟩
  | 6 => ⟨S300000, .f32⟩
  | 7 => ⟨S_, .f32⟩
  | 8 => ⟨S25000, .f32⟩
  | 9 => ⟨S300000x1, .i32⟩
  | 10 => ⟨S25000, .f32⟩
  | 11 => ⟨S_, .f32⟩
  | 12 => ⟨S25000, .f32⟩
  | 13 => ⟨S25000, .f32⟩
  | 14 => ⟨S25000x1, .f32⟩
  | 15 => ⟨S25000x256, .f32⟩
  | 16 => ⟨S25000x256, .f32⟩
  | 17 => ⟨S_, .i32⟩
  | 18 => ⟨S300000, .i32⟩
  | 19 => ⟨S300000, .i1⟩
  | 20 => ⟨S_, .i32⟩
  | 21 => ⟨S300000, .i32⟩
  | 22 => ⟨S300000, .i32⟩
  | 23 => ⟨S300000, .i32⟩
  | 24 => ⟨S300000x1, .i32⟩
  | 25 => ⟨S300000x256, .f32⟩
  | 26 => ⟨S_, .f32⟩
  | 27 => ⟨S50000x256, .f32⟩
  | 28 => ⟨S300000x1, .i32⟩
  | 29 => ⟨S50000x256, .f32⟩
  | 30 => ⟨S_, .f32⟩
  | 31 => ⟨S300000, .f32⟩
  | 32 => ⟨S_, .f32⟩
  | 33 => ⟨S50000, .f32⟩
  | 34 => ⟨S300000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x256, .f32⟩
  | 41 => ⟨S50000x256, .f32⟩
  | 42 => ⟨S_, .i32⟩
  | 43 => ⟨S300000, .i32⟩
  | 44 => ⟨S300000, .i1⟩
  | 45 => ⟨S_, .i32⟩
  | 46 => ⟨S300000, .i32⟩
  | 47 => ⟨S300000, .i32⟩
  | 48 => ⟨S300000, .i32⟩
  | 49 => ⟨S300000x1, .i32⟩
  | 50 => ⟨S300000x256, .f32⟩
  | 51 => ⟨S_, .f32⟩
  | 52 => ⟨S50000x256, .f32⟩
  | 53 => ⟨S300000x1, .i32⟩
  | 54 => ⟨S50000x256, .f32⟩
  | 55 => ⟨S_, .f32⟩
  | 56 => ⟨S300000, .f32⟩
  | 57 => ⟨S_, .f32⟩
  | 58 => ⟨S50000, .f32⟩
  | 59 => ⟨S300000x1, .i32⟩
  | 60 => ⟨S50000, .f32⟩
  | 61 => ⟨S_, .f32⟩
  | 62 => ⟨S50000, .f32⟩
  | 63 => ⟨S50000, .f32⟩
  | 64 => ⟨S50000x1, .f32⟩
  | 65 => ⟨S50000x256, .f32⟩
  | 66 => ⟨S50000x256, .f32⟩
  | 67 => ⟨S1x1x256x256, .f32⟩
  | 68 => ⟨S256x256, .f32⟩
  | 69 => ⟨S1x1x256x256, .f32⟩
  | 70 => ⟨S256x256, .f32⟩
  | 71 => ⟨S1x1x256, .f32⟩
  | 72 => ⟨S256, .f32⟩
  | 73 => ⟨S1x1x256x256, .f32⟩
  | 74 => ⟨S256x256, .f32⟩
  | 75 => ⟨S1x1x256x256, .f32⟩
  | 76 => ⟨S256x256, .f32⟩
  | 77 => ⟨S1x1x256x256, .f32⟩
  | 78 => ⟨S256x256, .f32⟩
  | 79 => ⟨S1x1x256x256, .f32⟩
  | 80 => ⟨S256x256, .f32⟩
  | 81 => ⟨S256x256, .f32⟩
  | 82 => ⟨S1x1x256, .f32⟩
  | 83 => ⟨S256, .f32⟩
  | 84 => ⟨S1x1x256, .f32⟩
  | 85 => ⟨S256, .f32⟩
  | 86 => ⟨S256, .f32⟩
  | 87 => ⟨S25000x256, .bf16⟩
  | 88 => ⟨S25000x256, .bf16⟩
  | 89 => ⟨S256x256, .bf16⟩
  | 90 => ⟨S256x256, .bf16⟩
  | 91 => ⟨S1x256, .f32⟩
  | 92 => ⟨S25000x256, .f32⟩
  | 93 => ⟨S50000x256, .bf16⟩
  | 94 => ⟨S50000x256, .bf16⟩
  | 95 => ⟨S50000x256, .bf16⟩
  | 96 => ⟨S256x256, .bf16⟩
  | 97 => ⟨S256x256, .bf16⟩
  | 98 => ⟨S256x256, .bf16⟩
  | 99 => ⟨S1x256, .f32⟩
  | 100 => ⟨S50000x256, .f32⟩
  | 101 => ⟨S75000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S1000x256, .bf16⟩
  | .local _ .vmem, ⟨1, _⟩ => ⟨S1000x256, .bf16⟩
  | .local _ .vmem, ⟨2, _⟩ => ⟨S1000x256, .bf16⟩
  | .local _ .vmem, ⟨3, _⟩ => ⟨S1000x256, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S1000x256, .f32⟩
  | .local _ .vmem, ⟨8, _⟩ => ⟨S1000x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S2000x256, .bf16⟩
  | .local _ .vmem, ⟨14, _⟩ => ⟨S2000x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S1x256, .f32⟩
  | .local _ .vmem, ⟨19, _⟩ => ⟨S2000x256, .f32⟩
  | .local _ .vmem, ⟨20, _⟩ => ⟨S2000x256, .f32⟩
  | .local _ .vmem, ⟨21, _⟩ => ⟨S1000x256, .bf16⟩
  | .local _ .vmem, ⟨22, _⟩ => ⟨S1000x256, .bf16⟩
  | .local _ .vmem, ⟨23, _⟩ => ⟨S1000x256, .bf16⟩
  | .local _ .vmem, ⟨24, _⟩ => ⟨S1000x256, .bf16⟩
  | .local _ .vmem, ⟨25, _⟩ => ⟨S256x256, .bf16⟩
  | .local _ .vmem, ⟨26, _⟩ => ⟨S256x256, .bf16⟩
  | .local _ .vmem, ⟨27, _⟩ => ⟨S1x256, .f32⟩
  | .local _ .vmem, ⟨28, _⟩ => ⟨S1000x256, .f32⟩
  | .local _ .vmem, ⟨29, _⟩ => ⟨S1000x256, .f32⟩
  | .local _ .vmem, ⟨30, _⟩ => ⟨S2000x256, .bf16⟩
  | .local _ .vmem, ⟨31, _⟩ => ⟨S2000x256, .bf16⟩
  | .local _ .vmem, ⟨32, _⟩ => ⟨S2000x256, .bf16⟩
  | .local _ .vmem, ⟨33, _⟩ => ⟨S2000x256, .bf16⟩
  | .local _ .vmem, ⟨34, _⟩ => ⟨S2000x256, .bf16⟩
  | .local _ .vmem, ⟨35, _⟩ => ⟨S2000x256, .bf16⟩
  | .local _ .vmem, ⟨36, _⟩ => ⟨S256x256, .bf16⟩
  | .local _ .vmem, ⟨37, _⟩ => ⟨S256x256, .bf16⟩
  | .local _ .vmem, ⟨38, _⟩ => ⟨S256x256, .bf16⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_c_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_12 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_13 : Ref sig .tc := ⟨.hbm, 74, rfl⟩
abbrev main_v48 : Ref sig .tc := ⟨.hbm, 75, rfl⟩
abbrev main_cst_14 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_15 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_16 : Ref sig .tc := ⟨.hbm, 120, rfl⟩
abbrev main_v91 : Ref sig .tc := ⟨.hbm, 121, rfl⟩
abbrev main_v92 : Ref sig .tc := ⟨.hbm, 122, rfl⟩
abbrev main_c_17 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_18 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_19 : Ref sig .tc := ⟨.hbm, 133, rfl⟩
abbrev main_v101 : Ref sig .tc := ⟨.hbm, 134, rfl⟩
abbrev main_cst_20 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_21 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_c_22 : Ref sig .tc := ⟨.hbm, 145, rfl⟩
abbrev main_v110 : Ref sig .tc := ⟨.hbm, 146, rfl⟩
abbrev main_v111 : Ref sig .tc := ⟨.hbm, 147, rfl⟩
abbrev main_c_23 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_24 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_25 : Ref sig .tc := ⟨.hbm, 158, rfl⟩
abbrev main_v120 : Ref sig .tc := ⟨.hbm, 159, rfl⟩
abbrev main_cst_26 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_27 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_c_28 : Ref sig .tc := ⟨.hbm, 170, rfl⟩
abbrev main_v129 : Ref sig .tc := ⟨.hbm, 171, rfl⟩
abbrev main_v130 : Ref sig .tc := ⟨.hbm, 172, rfl⟩
abbrev main_c_29 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_30 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_31 : Ref sig .tc := ⟨.hbm, 183, rfl⟩
abbrev main_v139 : Ref sig .tc := ⟨.hbm, 184, rfl⟩
abbrev main_cst_32 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_33 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S25000x256 : S_.BroadcastsInDim S25000x256 (![] : Fin 0 → Fin S25000x256.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x256_0_1 : S25000x1.BroadcastsInDim S25000x256 (![0, 1] : Fin 2 → Fin S25000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S2x3x256x256_S1x1x256x256_0_0_0_0 : S2x3x256x256.Slices ![0, 0, 0, 0] S1x1x256x256
  shapeCasts_S1x1x256x256_S256x256 : S1x1x256x256.ShapeCasts S256x256
  slices_S2x3x256_S1x1x256_0_0_0 : S2x3x256.Slices ![0, 0, 0] S1x1x256
  shapeCasts_S1x1x256_S256 : S1x1x256.ShapeCasts S256
  slices_S2x3x256x256_S1x1x256x256_0_1_0_0 : S2x3x256x256.Slices ![0, 1, 0, 0] S1x1x256x256
  slices_S2x3x256x256_S1x1x256x256_0_2_0_0 : S2x3x256x256.Slices ![0, 2, 0, 0] S1x1x256x256
  slices_S2x3x256_S1x1x256_0_1_0 : S2x3x256.Slices ![0, 1, 0] S1x1x256
  slices_S2x3x256_S1x1x256_0_2_0 : S2x3x256.Slices ![0, 2, 0] S1x1x256
  bitsLt_bf16_f32 : FTy.bits .bf16 < FTy.bits .f32
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  slices_S2x3x256x256_S1x1x256x256_1_0_0_0 : S2x3x256x256.Slices ![1, 0, 0, 0] S1x1x256x256
  slices_S2x3x256_S1x1x256_1_0_0 : S2x3x256.Slices ![1, 0, 0] S1x1x256
  slices_S2x3x256x256_S1x1x256x256_1_1_0_0 : S2x3x256x256.Slices ![1, 1, 0, 0] S1x1x256x256
  slices_S2x3x256x256_S1x1x256x256_1_2_0_0 : S2x3x256x256.Slices ![1, 2, 0, 0] S1x1x256x256
  slices_S2x3x256_S1x1x256_1_1_0 : S2x3x256.Slices ![1, 1, 0] S1x1x256
  slices_S2x3x256_S1x1x256_1_2_0 : S2x3x256.Slices ![1, 2, 0] S1x1x256
  concatenates_S50000x256_S25000x256_S75000x256_d0 : Shape.Concatenates [S50000x256, S25000x256] S75000x256 0
  gather_S50000x256_S300000x1_S300000x256_1_0_n_n_0_1_1256_wf : GatherDims.WF S50000x256 S300000x1 S300000x256 [1] [0] [] [0] [] 1 ![1, 256]
  scatter_S25000x256_S300000x1_S300000x256_1_0_0_1_wf : ScatterDims.WF S25000x256 S300000x1 S300000x256 [1] [0] [0] 1
  scatter_S25000_S300000x1_S300000_n_0_0_1_wf : ScatterDims.WF S25000 S300000x1 S300000 [] [0] [0] 1
  gather_S25000x256_S300000x1_S300000x256_1_0_n_n_0_1_1256_wf : GatherDims.WF S25000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  dot_S1000x256_S256x256_S1000x256_1_0_0_1_n_n_wf : DotDims.WF S1000x256 S256x256 S1000x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S25000x256.size a
  hwx0_0 : ∀ i : grid0.Coords, EltTy.bits .bf16 = 32 ∨ (Rect.block (s := S25000x256) S1000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S25000x256.size a
  hwx0_1 : ∀ i : grid0.Coords, EltTy.bits .bf16 = 32 ∨ (Rect.block (s := S25000x256) S1000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S25000x256.size a
  hwx0_5 : ∀ i : grid0.Coords, EltTy.bits .f32 = 32 ∨ (Rect.block (s := S25000x256) S1000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .bf16 = 32 ∨ (Rect.block (s := S50000x256) S2000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S25000x256.size a
  hwx2_0 : ∀ i : grid2.Coords, EltTy.bits .bf16 = 32 ∨ (Rect.block (s := S25000x256) S1000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S25000x256.size a
  hwx2_1 : ∀ i : grid2.Coords, EltTy.bits .bf16 = 32 ∨ (Rect.block (s := S25000x256) S1000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x256.size a ≤ S25000x256.size a
  hwx2_5 : ∀ i : grid2.Coords, EltTy.bits .f32 = 32 ∨ (Rect.block (s := S25000x256) S1000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .bf16 = 32 ∨ (Rect.block (s := S50000x256) S2000x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .bf16 = 32 ∨ (Rect.block (s := S50000x256) S2000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .bf16 = 32 ∨ (Rect.block (s := S50000x256) S2000x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .bf16 = 32 ∨ (Rect.block (s := S256x256) S256x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .bf16 = 32 ∨ (Rect.block (s := S256x256) S256x256.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S50000x256.size a
  hwx3_7 : ∀ i : grid3.Coords, EltTy.bits .f32 = 32 ∨ (Rect.block (s := S50000x256) S2000x256.size (cc3_transform_7 i) (hinb3_7 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S25000x256_S300000x1_S300000x256_1_0_0_1 : ScatterDims S25000x256 S300000x1 S300000x256 where
  updateWindowDims := [1]
  insertedWindowDims := [0]
  scatterDimsToOperandDims := [0]
  indexVectorDim := 1
  wf := scatter_S25000x256_S300000x1_S300000x256_1_0_0_1_wf
def scatter_S25000_S300000x1_S300000_n_0_0_1 : ScatterDims S25000 S300000x1 S300000 where
  updateWindowDims := []
  insertedWindowDims := [0]
  scatterDimsToOperandDims := [0]
  indexVectorDim := 1
  wf := scatter_S25000_S300000x1_S300000_n_0_0_1_wf
def gather_S25000x256_S300000x1_S300000x256_1_0_n_n_0_1_1256 : GatherDims S25000x256 S300000x1 S300000x256 where
  offsetDims := [1]
  collapsedSliceDims := [0]
  operandBatchingDims := []
  startIndicesBatchingDims := []
  startIndexMap := [0]
  indexVectorDim := 1
  sliceSizes := ![1, 256]
  wf := gather_S25000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v77) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v78) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v79) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v80) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v81) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v82) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v83) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v85) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v86) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v87) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v88) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v89) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v90) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v168) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v169) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v170) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v171) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v172) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v173) S1000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v174) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v175) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v176) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v177) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v178) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v179) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v180) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v181) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x256 : Shape := ⟨2, ![50000, 256]⟩
abbrev S25000x256 : Shape := ⟨2, ![25000, 256]⟩
abbrev S2x3x256x256 : Shape := ⟨4, ![2, 3, 256, 256]⟩
abbrev S2x3x256 : Shape := ⟨3, ![2, 3, 256]⟩
abbrev S300000 : Shape := ⟨1, ![300000]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S_ : Shape := ⟨0, ![]⟩
abbrev S300000x1 : Shape := ⟨2, ![300000, 1]⟩
abbrev S300000x256 : Shape := ⟨2, ![300000, 256]⟩
abbrev S25000 : Shape := ⟨1, ![25000]⟩
abbrev S25000x1 : Shape := ⟨2, ![25000, 1]⟩
abbrev S1x256 : Shape := ⟨2, ![1, 256]⟩
abbrev S50000 : Shape := ⟨1, ![50000]⟩
abbrev S50000x1 : Shape := ⟨2, ![50000, 1]⟩
abbrev S75000x256 : Shape := ⟨2, ![75000, 256]⟩

abbrev nBuf : Space → Nat
  | .hbm => 254
  | .vmem => 0
  | .smem => 0
  | _ => 0

abbrev hbmTy0_0 (i : Nat) : BufTy := match i % 128 with
  | 0 => ⟨S50000x256, .f32⟩
  | 1 => ⟨S25000x256, .f32⟩
  | 2 => ⟨S2x3x256x256, .f32⟩
  | 3 => ⟨S2x3x256x256, .f32⟩
  | 4 => ⟨S2x3x256, .f32⟩
  | 5 => ⟨S300000, .i32⟩
  | 6 => ⟨S300000, .i32⟩
  | 7 => ⟨S300000, .i32⟩
  | 8 => ⟨S300000, .i32⟩
  | 9 => ⟨S300000, .i32⟩
  | 10 => ⟨S300000, .i32⟩
  | 11 => ⟨S1x1x256x256, .f32⟩
  | 12 => ⟨S256x256, .f32⟩
  | 13 => ⟨S1x1x256x256, .f32⟩
  | 14 => ⟨S256x256, .f32⟩
  | 15 => ⟨S1x1x256, .f32⟩
  | 16 => ⟨S256, .f32⟩
  | 17 => ⟨S_, .i32⟩
  | 18 => ⟨S300000, .i32⟩
  | 19 => ⟨S300000, .i1⟩
  | 20 => ⟨S_, .i32⟩
  | 21 => ⟨S300000, .i32⟩
  | 22 => ⟨S300000, .i32⟩
  | 23 => ⟨S300000, .i32⟩
  | 24 => ⟨S300000x1, .i32⟩
  | 25 => ⟨S300000x256, .f32⟩
  | 26 => ⟨S_, .f32⟩
  | 27 => ⟨S25000x256, .f32⟩
  | 28 => ⟨S300000x1, .i32⟩
  | 29 => ⟨S25000x256, .f32⟩
  | 30 => ⟨S_, .f32⟩
  | 31 => ⟨S300000, .f32⟩
  | 32 => ⟨S_, .f32⟩
  | 33 => ⟨S25000, .f32⟩
  | 34 => ⟨S300000x1, .i32⟩
  | 35 => ⟨S25000, .f32⟩
  | 36 => ⟨S_, .f32⟩
  | 37 => ⟨S25000, .f32⟩
  | 38 => ⟨S25000, .f32⟩
  | 39 => ⟨S25000x1, .f32⟩
  | 40 => ⟨S25000x256, .f32⟩
  | 41 => ⟨S25000x256, .f32⟩
  | 42 => ⟨S25000x256, .f32⟩
  | 43 => ⟨S1x256, .f32⟩
  | 44 => ⟨S25000x256, .f32⟩
  | 45 => ⟨S25000x256, .f32⟩
  | 46 => ⟨S25000x256, .f32⟩
  | 47 => ⟨S25000x256, .f32⟩
  | 48 => ⟨S1x1x256x256, .f32⟩
  | 49 => ⟨S256x256, .f32⟩
  | 50 => ⟨S1x1x256x256, .f32⟩
  | 51 => ⟨S256x256, .f32⟩
  | 52 => ⟨S1x1x256, .f32⟩
  | 53 => ⟨S256, .f32⟩
  | 54 => ⟨S_, .i32⟩
  | 55 => ⟨S300000, .i32⟩
  | 56 => ⟨S300000, .i1⟩
  | 57 => ⟨S_, .i32⟩
  | 58 => ⟨S300000, .i32⟩
  | 59 => ⟨S300000, .i32⟩
  | 60 => ⟨S300000, .i32⟩
  | 61 => ⟨S300000x1, .i32⟩
  | 62 => ⟨S300000x256, .f32⟩
  | 63 => ⟨S_, .f32⟩
  | 64 => ⟨S50000x256, .f32⟩
  | 65 => ⟨S300000x1, .i32⟩
  | 66 => ⟨S50000x256, .f32⟩
  | 67 => ⟨S_, .f32⟩
  | 68 => ⟨S300000, .f32⟩
  | 69 => ⟨S_, .f32⟩
  | 70 => ⟨S50000, .f32⟩
  | 71 => ⟨S300000x1, .i32⟩
  | 72 => ⟨S50000, .f32⟩
  | 73 => ⟨S_, .f32⟩
  | 74 => ⟨S50000, .f32⟩
  | 75 => ⟨S50000, .f32⟩
  | 76 => ⟨S50000x1, .f32⟩
  | 77 => ⟨S50000x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S50000x256, .f32⟩
  | 84 => ⟨S50000x256, .f32⟩
  | 85 => ⟨S1x1x256x256, .f32⟩
  | 86 => ⟨S256x256, .f32⟩
  | 87 => ⟨S1x1x256x256, .f32⟩
  | 88 => ⟨S256x256, .f32⟩
  | 89 => ⟨S1x1x256, .f32⟩
  | 90 => ⟨S256, .f32⟩
  | 91 => ⟨S_, .i32⟩
  | 92 => ⟨S300000, .i32⟩
  | 93 => ⟨S300000, .i1⟩
  | 94 => ⟨S_, .i32⟩
  | 95 => ⟨S300000, .i32⟩
  | 96 => ⟨S300000, .i32⟩
  | 97 => ⟨S300000, .i32⟩
  | 98 => ⟨S300000x1, .i32⟩
  | 99 => ⟨S300000x256, .f32⟩
  | 100 => ⟨S_, .f32⟩
  | 101 => ⟨S50000x256, .f32⟩
  | 102 => ⟨S300000x1, .i32⟩
  | 103 => ⟨S50000x256, .f32⟩
  | 104 => ⟨S_, .f32⟩
  | 105 => ⟨S300000, .f32⟩
  | 106 => ⟨S_, .f32⟩
  | 107 => ⟨S50000, .f32⟩
  | 108 => ⟨S300000x1, .i32⟩
  | 109 => ⟨S50000, .f32⟩
  | 110 => ⟨S_, .f32⟩
  | 111 => ⟨S50000, .f32⟩
  | 112 => ⟨S50000, .f32⟩
  | 113 => ⟨S50000x1, .f32⟩
  | 114 => ⟨S50000x256, .f32⟩
  | 115 => ⟨S50000x256, .f32⟩
  | 116 => ⟨S50000x256, .f32⟩
  | 117 => ⟨S1x256, .f32⟩
  | 118 => ⟨S50000x256, .f32⟩
  | 119 => ⟨S50000x256, .f32⟩
  | 120 => ⟨S50000x256, .f32⟩
  | 121 => ⟨S50000x256, .f32⟩
  | 122 => ⟨S50000x256, .f32⟩
  | 123 => ⟨S_, .f32⟩
  | 124 => ⟨S50000x256, .f32⟩
  | 125 => ⟨S50000x256, .f32⟩
  | 126 => ⟨S_, .f32⟩
  | 127 => ⟨S50000x256, .f32⟩
  | _ => ⟨S50000x256, .f32⟩

abbrev hbmTy0_1 (i : Nat) : BufTy := match i % 128 with
  | 0 => ⟨S50000x256, .f32⟩
  | 1 => ⟨S_, .f32⟩
  | 2 => ⟨S25000x256, .f32⟩
  | 3 => ⟨S25000x256, .f32⟩
  | 4 => ⟨S1x1x256x256, .f32⟩
  | 5 => ⟨S256x256, .f32⟩
  | 6 => ⟨S1x1x256x256, .f32⟩
  | 7 => ⟨S256x256, .f32⟩
  | 8 => ⟨S1x1x256, .f32⟩
  | 9 => ⟨S256, .f32⟩
  | 10 => ⟨S_, .i32⟩
  | 11 => ⟨S300000, .i32⟩
  | 12 => ⟨S300000, .i1⟩
  | 13 => ⟨S_, .i32⟩
  | 14 => ⟨S300000, .i32⟩
  | 15 => ⟨S300000, .i32⟩
  | 16 => ⟨S300000, .i32⟩
  | 17 => ⟨S300000x1, .i32⟩
  | 18 => ⟨S300000x256, .f32⟩
  | 19 => ⟨S_, .f32⟩
  | 20 => ⟨S25000x256, .f32⟩
  | 21 => ⟨S300000x1, .i32⟩
  | 22 => ⟨S25000x256, .f32⟩
  | 23 => ⟨S_, .f32⟩
  | 24 => ⟨S300000, .f32⟩
  | 25 => ⟨S_, .f32⟩
  | 26 => ⟨S25000, .f32⟩
  | 27 => ⟨S300000x1, .i32⟩
  | 28 => ⟨S25000, .f32⟩
  | 29 => ⟨S_, .f32⟩
  | 30 => ⟨S25000, .f32⟩
  | 31 => ⟨S25000, .f32⟩
  | 32 => ⟨S25000x1, .f32⟩
  | 33 => ⟨S25000x256, .f32⟩
  | 34 => ⟨S25000x256, .f32⟩
  | 35 => ⟨S25000x256, .f32⟩
  | 36 => ⟨S1x256, .f32⟩
  | 37 => ⟨S25000x256, .f32⟩
  | 38 => ⟨S25000x256, .f32⟩
  | 39 => ⟨S25000x256, .f32⟩
  | 40 => ⟨S25000x256, .f32⟩
  | 41 => ⟨S1x1x256x256, .f32⟩
  | 42 => ⟨S256x256, .f32⟩
  | 43 => ⟨S1x1x256x256, .f32⟩
  | 44 => ⟨S256x256, .f32⟩
  | 45 => ⟨S1x1x256, .f32⟩
  | 46 => ⟨S256, .f32⟩
  | 47 => ⟨S_, .i32⟩
  | 48 => ⟨S300000, .i32⟩
  | 49 => ⟨S300000, .i1⟩
  | 50 => ⟨S_, .i32⟩
  | 51 => ⟨S300000, .i32⟩
  | 52 => ⟨S300000, .i32⟩
  | 53 => ⟨S300000, .i32⟩
  | 54 => ⟨S300000x1, .i32⟩
  | 55 => ⟨S300000x256, .f32⟩
  | 56 => ⟨S_, .f32⟩
  | 57 => ⟨S50000x256, .f32⟩
  | 58 => ⟨S300000x1, .i32⟩
  | 59 => ⟨S50000x256, .f32⟩
  | 60 => ⟨S_, .f32⟩
  | 61 => ⟨S300000, .f32⟩
  | 62 => ⟨S_, .f32⟩
  | 63 => ⟨S50000, .f32⟩
  | 64 => ⟨S300000x1, .i32⟩
  | 65 => ⟨S50000, .f32⟩
  | 66 => ⟨S_, .f32⟩
  | 67 => ⟨S50000, .f32⟩
  | 68 => ⟨S50000, .f32⟩
  | 69 => ⟨S50000x1, .f32⟩
  | 70 => ⟨S50000x256, .f32⟩
  | 71 => ⟨S50000x256, .f32⟩
  | 72 => ⟨S50000x256, .f32⟩
  | 73 => ⟨S1x256, .f32⟩
  | 74 => ⟨S50000x256, .f32⟩
  | 75 => ⟨S50000x256, .f32⟩
  | 76 => ⟨S50000x256, .f32⟩
  | 77 => ⟨S50000x256, .f32⟩
  | 78 => ⟨S1x1x256x256, .f32⟩
  | 79 => ⟨S256x256, .f32⟩
  | 80 => ⟨S1x1x256x256, .f32⟩
  | 81 => ⟨S256x256, .f32⟩
  | 82 => ⟨S1x1x256, .f32⟩
  | 83 => ⟨S256, .f32⟩
  | 84 => ⟨S_, .i32⟩
  | 85 => ⟨S300000, .i32⟩
  | 86 => ⟨S300000, .i1⟩
  | 87 => ⟨S_, .i32⟩
  | 88 => ⟨S300000, .i32⟩
  | 89 => ⟨S300000, .i32⟩
  | 90 => ⟨S300000, .i32⟩
  | 91 => ⟨S300000x1, .i32⟩
  | 92 => ⟨S300000x256, .f32⟩
  | 93 => ⟨S_, .f32⟩
  | 94 => ⟨S50000x256, .f32⟩
  | 95 => ⟨S300000x1, .i32⟩
  | 96 => ⟨S50000x256, .f32⟩
  | 97 => ⟨S_, .f32⟩
  | 98 => ⟨S300000, .f32⟩
  | 99 => ⟨S_, .f32⟩
  | 100 => ⟨S50000, .f32⟩
  | 101 => ⟨S300000x1, .i32⟩
  | 102 => ⟨S50000, .f32⟩
  | 103 => ⟨S_, .f32⟩
  | 104 => ⟨S50000, .f32⟩
  | 105 => ⟨S50000, .f32⟩
  | 106 => ⟨S50000x1, .f32⟩
  | 107 => ⟨S50000x256, .f32⟩
  | 108 => ⟨S50000x256, .f32⟩
  | 109 => ⟨S50000x256, .f32⟩
  | 110 => ⟨S1x256, .f32⟩
  | 111 => ⟨S50000x256, .f32⟩
  | 112 => ⟨S50000x256, .f32⟩
  | 113 => ⟨S50000x256, .f32⟩
  | 114 => ⟨S50000x256, .f32⟩
  | 115 => ⟨S50000x256, .f32⟩
  | 116 => ⟨S_, .f32⟩
  | 117 => ⟨S50000x256, .f32⟩
  | 118 => ⟨S50000x256, .f32⟩
  | 119 => ⟨S_, .f32⟩
  | 120 => ⟨S50000x256, .f32⟩
  | 121 => ⟨S50000x256, .f32⟩
  | 122 => ⟨S_, .f32⟩
  | 123 => ⟨S25000x256, .f32⟩
  | 124 => ⟨S25000x256, .f32⟩
  | 125 => ⟨S75000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_10 : Ref sig .tc := ⟨.hbm, 91, rfl⟩
abbrev main_v68 : Ref sig .tc := ⟨.hbm, 92, rfl⟩
abbrev main_v69 : Ref sig .tc := ⟨.hbm, 93, rfl⟩
abbrev main_c_11 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_16 : Ref sig .tc := ⟨.hbm, 123, rfl⟩
abbrev main_v94 : Ref sig .tc := ⟨.hbm, 124, rfl⟩
abbrev main_v95 : Ref sig .tc := ⟨.hbm, 125, rfl⟩
abbrev main_call0_cst : Ref sig .tc := ⟨.hbm, 126, rfl⟩
abbrev main_call0_v0 : Ref sig .tc := ⟨.hbm, 127, rfl⟩
abbrev main_v96 : Ref sig .tc := ⟨.hbm, 128, rfl⟩
abbrev main_call1_cst : Ref sig .tc := ⟨.hbm, 129, rfl⟩
abbrev main_call1_v0 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_17 : Ref sig .tc := ⟨.hbm, 138, rfl⟩
abbrev main_v104 : Ref sig .tc := ⟨.hbm, 139, rfl⟩
abbrev main_v105 : Ref sig .tc := ⟨.hbm, 140, rfl⟩
abbrev main_c_18 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_19 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_20 : Ref sig .tc := ⟨.hbm, 151, rfl⟩
abbrev main_v114 : Ref sig .tc := ⟨.hbm, 152, rfl⟩
abbrev main_cst_21 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_22 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_c_23 : Ref sig .tc := ⟨.hbm, 175, rfl⟩
abbrev main_v135 : Ref sig .tc := ⟨.hbm, 176, rfl⟩
abbrev main_v136 : Ref sig .tc := ⟨.hbm, 177, rfl⟩
abbrev main_c_24 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_25 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_26 : Ref sig .tc := ⟨.hbm, 188, rfl⟩
abbrev main_v145 : Ref sig .tc := ⟨.hbm, 189, rfl⟩
abbrev main_cst_27 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_cst_28 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_c_29 : Ref sig .tc := ⟨.hbm, 212, rfl⟩
abbrev main_v166 : Ref sig .tc := ⟨.hbm, 213, rfl⟩
abbrev main_v167 : Ref sig .tc := ⟨.hbm, 214, rfl⟩
abbrev main_c_30 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_cst_31 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_cst_32 : Ref sig .tc := ⟨.hbm, 225, rfl⟩
abbrev main_v176 : Ref sig .tc := ⟨.hbm, 226, rfl⟩
abbrev main_cst_33 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_cst_34 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_cst_35 : Ref sig .tc := ⟨.hbm, 244, rfl⟩
abbrev main_v192 : Ref sig .tc := ⟨.hbm, 245, rfl⟩
abbrev main_v193 : Ref sig .tc := ⟨.hbm, 246, rfl⟩
abbrev main_call2_cst : Ref sig .tc := ⟨.hbm, 247, rfl⟩
abbrev main_call2_v0 : Ref sig .tc := ⟨.hbm, 248, rfl⟩
abbrev main_v194 : Ref sig .tc := ⟨.hbm, 249, rfl⟩
abbrev main_call3_cst : Ref sig .tc := ⟨.hbm, 250, rfl⟩
abbrev main_call3_v0 : Ref sig .tc := ⟨.hbm, 251, rfl⟩
abbrev main_v195 : Ref sig .tc := ⟨.hbm, 252, rfl⟩
abbrev main_v196 : Ref sig .tc := ⟨.hbm, 253, rfl⟩

abbrev nD : Nat := 1
abbrev τ : Topo := Topo.v7x

variable {F : FTy → Type} [FloatOps F]

class Facts₀ : Prop where
  slices_S2x3x256x256_S1x1x256x256_0_0_0_0 : S2x3x256x256.Slices ![0, 0, 0, 0] S1x1x256x256
  shapeCasts_S1x1x256x256_S256x256 : S1x1x256x256.ShapeCasts S256x256
  slices_S2x3x256_S1x1x256_0_0_0 : S2x3x256.Slices ![0, 0, 0] S1x1x256
  shapeCasts_S1x1x256_S256 : S1x1x256.ShapeCasts S256
  bcast_S_S300000 : S_.BroadcastsInDim S300000 (![] : Fin 0 → Fin S300000.rank)
  bcast_S300000_S300000x1_0 : S300000.BroadcastsInDim S300000x1 (![0] : Fin 1 → Fin S300000x1.rank)
  bcast_S_S25000x256 : S_.BroadcastsInDim S25000x256 (![] : Fin 0 → Fin S25000x256.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x256_0_1 : S25000x1.BroadcastsInDim S25000x256 (![0, 1] : Fin 2 → Fin S25000x256.rank)
  bcast_S256_S1x256_1 : S256.BroadcastsInDim S1x256 (![1] : Fin 1 → Fin S1x256.rank)
  bcast_S1x256_S25000x256_0_1 : S1x256.BroadcastsInDim S25000x256 (![0, 1] : Fin 2 → Fin S25000x256.rank)
  slices_S2x3x256x256_S1x1x256x256_0_1_0_0 : S2x3x256x256.Slices ![0, 1, 0, 0] S1x1x256x256
  slices_S2x3x256_S1x1x256_0_1_0 : S2x3x256.Slices ![0, 1, 0] S1x1x256
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  slices_S2x3x256x256_S1x1x256x256_0_2_0_0 : S2x3x256x256.Slices ![0, 2, 0, 0] S1x1x256x256
  slices_S2x3x256_S1x1x256_0_2_0 : S2x3x256.Slices ![0, 2, 0] S1x1x256
  slices_S2x3x256x256_S1x1x256x256_1_0_0_0 : S2x3x256x256.Slices ![1, 0, 0, 0] S1x1x256x256
  slices_S2x3x256_S1x1x256_1_0_0 : S2x3x256.Slices ![1, 0, 0] S1x1x256
  slices_S2x3x256x256_S1x1x256x256_1_1_0_0 : S2x3x256x256.Slices ![1, 1, 0, 0] S1x1x256x256
  slices_S2x3x256_S1x1x256_1_1_0 : S2x3x256.Slices ![1, 1, 0] S1x1x256
  slices_S2x3x256x256_S1x1x256x256_1_2_0_0 : S2x3x256x256.Slices ![1, 2, 0, 0] S1x1x256x256
  slices_S2x3x256_S1x1x256_1_2_0 : S2x3x256.Slices ![1, 2, 0] S1x1x256
  concatenates_S50000x256_S25000x256_S75000x256_d0 : Shape.Concatenates [S50000x256, S25000x256] S75000x256 0
  gather_S50000x256_S300000x1_S300000x256_1_0_n_n_0_1_1256_wf : GatherDims.WF S50000x256 S300000x1 S300000x256 [1] [0] [] [0] [] 1 ![1, 256]
  scatter_S25000x256_S300000x1_S300000x256_1_0_0_1_wf : ScatterDims.WF S25000x256 S300000x1 S300000x256 [1] [0] [0] 1
  scatter_S25000_S300000x1_S300000_n_0_0_1_wf : ScatterDims.WF S25000 S300000x1 S300000 [] [0] [0] 1
  dot_S25000x256_S256x256_S25000x256_1_0_0_1_n_n_wf : DotDims.WF S25000x256 S256x256 S25000x256 [1] [0] [0] [1] [] []
  gather_S25000x256_S300000x1_S300000x256_1_0_n_n_0_1_1256_wf : GatherDims.WF S25000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  dot_S50000x256_S256x256_S50000x256_1_0_0_1_n_n_wf : DotDims.WF S50000x256 S256x256 S50000x256 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S25000x256_S300000x1_S300000x256_1_0_0_1 : ScatterDims S25000x256 S300000x1 S300000x256 where
  updateWindowDims := [1]
  insertedWindowDims := [0]
  scatterDimsToOperandDims := [0]
  indexVectorDim := 1
  wf := scatter_S25000x256_S300000x1_S300000x256_1_0_0_1_wf
def scatter_S25000_S300000x1_S300000_n_0_0_1 : ScatterDims S25000 S300000x1 S300000 where
  updateWindowDims := []
  insertedWindowDims := [0]
  scatterDimsToOperandDims := [0]
  indexVectorDim := 1
  wf := scatter_S25000_S300000x1_S300000_n_0_0_1_wf
def dot_S25000x256_S256x256_S25000x256_1_0_0_1_n_n : DotDims S25000x256 S256x256 S25000x256 where
  lhsContracting := [1]
  rhsContracting := [0]
  lhsNonContracting := [0]
  rhsNonContracting := [1]
  lhsBatch := []
  rhsBatch := []
  wf := dot_S25000x256_S256x256_S25000x256_1_0_0_1_n_n_wf
def gather_S25000x256_S300000x1_S300000x256_1_0_n_n_0_1_1256 : GatherDims S25000x256 S300000x1 S300000x256 where
  offsetDims := [1]
  collapsedSliceDims := [0]
  operandBatchingDims := []
  startIndicesBatchingDims := []
  startIndexMap := [0]
  indexVectorDim := 1
  sliceSizes := ![1, 256]
  wf := gather_S25000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KRun.lean ====
/-
  The fused program's run, with its result named.

  The program is five stretches of host operations around four kernel regions. Every weakly fair execution
  terminates without a fault, and in the final memory the result array holds the contents the last boundary of
  the walk through the program assigns it — the fold of the last host stretch (the join of the two final layers'
  arrays) over what the fourth region leaves —, while the eleven argument arrays are as launched.
-/
import proofs.«165452_j57363583205826_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result array at the last boundary's contents and the arguments
    unchanged. -/
theorem run : θ_run defs (onTc (τ := τ) (main (F := F))) ⟨m, fun _ => 0, ρ⟩ (fun r => ∀ c : Dev nD,
      r.2.mem ((c.tc : Thread nD τ).loc main_v182) = W9 m ρ c (Proc.devRef .tc main_v182)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v182 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.RunValue

end
-- ==== Proof.LibRealValued.lean ====
/-
  Real-valued extended reals. A quantity is real-valued when it is the image of a real number, that is,
  neither of the two infinities. The arithmetic of the extended reals restricted to real-valued
  quantities is the arithmetic of the real numbers, and the exponential and the division by a nonzero
  real keep a real-valued argument real-valued.
-/
import Mathlib
import Idealize.ShloMosaic.PureOps.Ideal
import Idealize.ShloMosaic.PureOps.Ideal.Laws

namespace Cert.RealValued

open Idealize.ShloMosaic

/-- An extended real is real-valued when it is (the image of) a real number. -/
def IsReal (x : EReal) : Prop := ∃ r : ℝ, x = (r : EReal)

/-- The image of a real number is real-valued. -/
theorem IsReal.coe (r : ℝ) : IsReal (r : EReal) := ⟨r, rfl⟩

/-- Zero is real-valued. -/
theorem IsReal.zero : IsReal (0 : EReal) := ⟨0, EReal.coe_zero.symm⟩

/-- One is real-valued. -/
theorem IsReal.one : IsReal (1 : EReal) := ⟨1, EReal.coe_one.symm⟩

/-- A real-valued quantity is neither infinity. -/
theorem IsReal.ne_top {x : EReal} (hx : IsReal x) : x ≠ ⊤ := by
  obtain ⟨a, rfl⟩ := hx; exact EReal.coe_ne_top a

/-- A real-valued quantity is neither infinity. -/
theorem IsReal.ne_bot {x : EReal} (hx : IsReal x) : x ≠ ⊥ := by
  obtain ⟨a, rfl⟩ := hx; exact EReal.coe_ne_bot a

/-- The sum of two real-valued quantities is real-valued. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real-valued quantities is real-valued. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real-valued quantities is real-valued. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real-valued quantity is real-valued. -/
theorem IsReal.neg {x : EReal} (hx : IsReal x) : IsReal (-x) := by
  obtain ⟨a, rfl⟩ := hx
  exact ⟨-a, (EReal.coe_neg a).symm⟩

/-- The maximum of two real numbers, taken in the extended reals, is the image of their maximum. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum of two real-valued quantities is real-valued. -/
theorem IsReal.max {x y : EReal} (hx : IsReal x) (hy : IsReal y) : IsReal (max x y) := by
  obtain ⟨a, rfl⟩ := hx; obtain ⟨b, rfl⟩ := hy
  exact ⟨Max.max a b, coe_max a b⟩

/-- A finite sum of real-valued quantities is real-valued. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential of a real-valued quantity is a positive real number. -/
theorem exp_coe_pos (r : ℝ) : ∃ e : ℝ, 0 < e ∧ Ideal.exp (r : EReal) = (e : EReal) :=
  ⟨Real.exp r, Real.exp_pos r, Ideal.exp_coe r⟩

/-- The exponential of a real-valued quantity is real-valued. -/
theorem isReal_exp {x : EReal} (h : IsReal x) : IsReal (Ideal.exp x) := by
  obtain ⟨a, rfl⟩ := h
  exact ⟨Real.exp a, Ideal.exp_coe a⟩

/-- A real-valued quantity divided by a nonzero real number is real-valued. -/
theorem isReal_div_coe {x : EReal} (h : IsReal x) {y : ℝ} (hy : y ≠ 0) :
    IsReal (Ideal.div x (y : EReal)) := by
  rw [Ideal.div_coe hy x]
  exact h.mul (IsReal.coe _)

end Cert.RealValued
-- ==== Proof.Layer.lean ====
/-
  One layer of the two-relation graph network, as index-by-index functions of its operand arrays over the
  extended reals.

  A disease row is  relu(mean · Wl + b + x · Wr);  a drug row is  relu(½ · ((m₁ · Wl₁ + b₁ + x · Wr₁) + (m₂ · Wl₂ + b₂ + x · Wr₂))).
  These are the groupings in which the plain program adds its terms (`disOut`, `drugOut`). The fused program adds
  the two products first and the bias last, and for a drug row multiplies x once by the SUM Wr₁ + Wr₂ of the two
  root weights and adds the sum b₁ + b₂ of the two biases (`disOutK`, `drugOutK`).

  The disease forms differ by commutativity and associativity of the sum only. The drug forms differ by
      ∑ₖ x(r,k) · (Wr₁(k,c) + Wr₂(k,c))  =  ∑ₖ x(r,k) · Wr₁(k,c)  +  ∑ₖ x(r,k) · Wr₂(k,c),
  which is distributivity, and that holds on the extended reals when x, Wr₁ and Wr₂ are real numbers (it fails at
  infinities: ⊤ · (1 + (−1)) = 0 but ⊤ · 1 + ⊤ · (−1) = ⊥). So `drugOutK_eq` asks for real-valued x, Wr₁, Wr₂, and
  `disOut_real` / `drugOut_real` say that a layer of real-valued operands is real-valued again, which is what lets the
  second layer use the law on the first layer's result.
-/
import Mathlib
import Idealize.ShloMosaic.PureOps.Ideal
import Idealize.ShloMosaic.PureOps.Ideal.Laws
import Idealize.ShloMosaic.Lib.ValueIdx
import proofs.«165452_j57363583205826_1_alg».proof.Proof.LibRealValued

noncomputable section

open scoped BigOperators

namespace Cert.Layer

open Idealize.ShloMosaic Idealize.ShloMosaic.ValueIdx Cert.RealValued

/-- An n × 256 array of extended reals. -/
abbrev Rows (n : ℕ) := (⟨2, ![n, 256]⟩ : Shape).Idx → EReal
/-- The stacked weights, indexed (layer, relation, k, c). -/
abbrev Wts := (⟨4, ![2, 3, 256, 256]⟩ : Shape).Idx → EReal
/-- The stacked biases, indexed (layer, relation, c). -/
abbrev Bias := (⟨3, ![2, 3, 256]⟩ : Shape).Idx → EReal

/-- The 256 × 256 weight matrix of layer l, relation j. -/
def wsl (W : Wts) (l : Fin 2) (j : Fin 3) : Rows 256 :=
  fun i => W (ix4 l j (⟨(i 0).val, (i 0).isLt⟩ : Fin 256) (⟨(i 1).val, (i 1).isLt⟩ : Fin 256))

/-- The bias vector of layer l, relation j. -/
def bsl (B : Bias) (l : Fin 2) (j : Fin 3) : Fin 256 → EReal := fun c => B (ix3 l j c)

/-- Row r of a times column c of w. -/
def dot {n : ℕ} (a : Rows n) (w : Rows 256) (r : Fin n) (c : Fin 256) : EReal :=
  ∑ k : Fin 256, a (ix2 r k) * w (ix2 k c)

/-- The float word of 0.0 and of 0.5, read as extended reals. -/
def zeroW : EReal := Ideal.ofBits .f32 0x00000000#32
def halfW : EReal := Ideal.ofBits .f32 0x3F000000#32

/-- A disease row, terms grouped as the plain program adds them. -/
def disOut (mean x : Rows 25000) (wl wr : Rows 256) (b : Fin 256 → EReal) : Rows 25000 := fun i =>
  max ((dot mean wl ⟨(i 0).val, (i 0).isLt⟩ ⟨(i 1).val, (i 1).isLt⟩ + b ⟨(i 1).val, (i 1).isLt⟩)
    + dot x wr ⟨(i 0).val, (i 0).isLt⟩ ⟨(i 1).val, (i 1).isLt⟩) zeroW

/-- A disease row, terms grouped as the fused program adds them. -/
def disOutK (mean x : Rows 25000) (wl wr : Rows 256) (b : Fin 256 → EReal) : Rows 25000 := fun i =>
  max ((dot mean wl ⟨(i 0).val, (i 0).isLt⟩ ⟨(i 1).val, (i 1).isLt⟩ + dot x wr ⟨(i 0).val, (i 0).isLt⟩ ⟨(i 1).val, (i 1).isLt⟩)
    + b ⟨(i 1).val, (i 1).isLt⟩) zeroW

/-- A drug row, terms grouped as the plain program adds them. -/
def drugOut (m1 m2 x : Rows 50000) (wl1 wl2 wr1 wr2 : Rows 256) (b1 b2 : Fin 256 → EReal) : Rows 50000 := fun i =>
  max (halfW *
    (((dot m1 wl1 ⟨(i 0).val, (i 0).isLt⟩ ⟨(i 1).val, (i 1).isLt⟩ + b1 ⟨(i 1).val, (i 1).isLt⟩)
        + dot x wr1 ⟨(i 0).val, (i 0).isLt⟩ ⟨(i 1).val, (i 1).isLt⟩)
      + ((dot m2 wl2 ⟨(i 0).val, (i 0).isLt⟩ ⟨(i 1).val, (i 1).isLt⟩ + b2 ⟨(i 1).val, (i 1).isLt⟩)
        + dot x wr2 ⟨(i 0).val, (i 0).isLt⟩ ⟨(i 1).val, (i 1).isLt⟩))) zeroW

/-- A drug row, terms grouped as the fused program adds them: the root weights and the biases arrive summed. -/
def drugOutK (m1 m2 x : Rows 50000) (wl1 wl2 wrs : Rows 256) (bs : Fin 256 → EReal) : Rows 50000 := fun i =>
  max (halfW *
    (((dot m1 wl1 ⟨(i 0).val, (i 0).isLt⟩ ⟨(i 1).val, (i 1).isLt⟩ + dot m2 wl2 ⟨(i 0).val, (i 0).isLt⟩ ⟨(i 1).val, (i 1).isLt⟩)
        + dot x wrs ⟨(i 0).val, (i 0).isLt⟩ ⟨(i 1).val, (i 1).isLt⟩)
      + bs ⟨(i 1).val, (i 1).isLt⟩)) zeroW

/-! ## The two groupings agree -/

theorem disOutK_eq (mean x : Rows 25000) (wl wr : Rows 256) (b : Fin 256 → EReal) :
    disOutK mean x wl wr b = disOut mean x wl wr b := by
  funext i
  unfold disOutK disOut
  rw [add_right_comm]

/-- Distributivity of a product of real numbers over a sum, inside the extended reals. -/
theorem mul_add_of_real {x a b : EReal} (hx : IsReal x) (ha : IsReal a) (hb : IsReal b) :
    x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A row of real numbers against the sum of two real matrices: the product splits. -/
theorem dot_add {n : ℕ} (x : Rows n) (w1 w2 : Rows 256) (r : Fin n) (c : Fin 256)
    (hx : ∀ i, IsReal (x i)) (h1 : ∀ i, IsReal (w1 i)) (h2 : ∀ i, IsReal (w2 i)) :
    dot x (fun i => w1 i + w2 i) r c = dot x w1 r c + dot x w2 r c := by
  unfold dot
  rw [← Finset.sum_add_distrib]
  exact Finset.sum_congr rfl fun k _ => mul_add_of_real (hx _) (h1 _) (h2 _)

theorem drugOutK_eq (m1 m2 x : Rows 50000) (wl1 wl2 wr1 wr2 : Rows 256) (b1 b2 : Fin 256 → EReal)
    (hx : ∀ i, IsReal (x i)) (h1 : ∀ i, IsReal (wr1 i)) (h2 : ∀ i, IsReal (wr2 i)) :
    drugOutK m1 m2 x wl1 wl2 (fun i => wr1 i + wr2 i) (fun c => b1 c + b2 c)
      = drugOut m1 m2 x wl1 wl2 wr1 wr2 b1 b2 := by
  funext i
  unfold drugOutK drugOut
  rw [dot_add x wr1 wr2 _ _ hx h1 h2]
  congr 2
  abel

/-! ## Real-valued operands give a real-valued layer -/

theorem zeroW_real : IsReal zeroW := by
  unfold zeroW; rw [Ideal.ofBits_zero_f32]; exact IsReal.zero

theorem dot_real {n : ℕ} (a : Rows n) (w : Rows 256) (r : Fin n) (c : Fin 256)
    (ha : ∀ i, IsReal (a i)) (hw : ∀ i, IsReal (w i)) : IsReal (dot a w r c) :=
  IsReal.sum _ _ fun _ _ => (ha _).mul (hw _)

end Cert.Layer

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.Payloads.lean ====
/-
  What each kernel body stores, read at an index of its block.

  The disease kernel holds a block of 1000 rows of the mean and of the features, the two 256 × 256 weight matrices
  and the bias row; at (p, q) it stores  max( (∑ₖ mean(p,k)·Wl(k,q) + ∑ₖ x(p,k)·Wr(k,q)) + b(0,q), 0 ).
  The drug kernel holds a block of 2000 rows of two means and of the features, three weight matrices and a bias
  row; at (p, q) it stores  max( ½ · (((∑ₖ m₁·Wl₁ + ∑ₖ m₂·Wl₂) + ∑ₖ x·Wrs) + bs(0,q)), 0 ).
  A matrix product into the zero accumulator is, at the ideal values, the plain sum over the contracted coordinate.
-/
import proofs.«165452_j57363583205826_1_alg».proof.Proof.Gen.KernelIdeal.Skeleton
import proofs.«165452_j57363583205826_1_alg».proof.Proof.Layer
import proofs.«165452_j57363583205826_1_alg».proof.Proof.LibPlainDot
import Idealize.ShloMosaic.Lib.Pipeline.Value
import Idealize.ShloMosaic.Lib.ValueLayout

noncomputable section

open scoped BigOperators

namespace Cert.KernelIdeal.Payloads

open Cert.KernelIdeal Cert.KernelIdeal.Gen Idealize.ShloMosaic Idealize.ShloMosaic.ValueIdx Cert.Layer

/-- The disease kernel's stored value at (p, q): the two products of the row blocks with the weight blocks, the bias
    row, then the maximum with zero. -/
theorem dis0_apply (x0 x1 : Vec Ideal S1000x256 .bf16) (x2 x3 : Vec Ideal S256x256 .bf16) (x4 : Vec Ideal S1x256 .f32)
    (p : Fin 1000) (q : Fin 256) :
    k0_pay1 x0 x1 x2 x3 x4 (ix2 p q)
      = max (((∑ k : Fin 256, x0 (ix2 p k) * x2 (ix2 k q)) + (∑ k : Fin 256, x1 (ix2 p k) * x3 (ix2 k q)))
          + x4 (ix2 (0 : Fin 1) q)) zeroW := by
  unfold k0_pay1
  simp only [shapeCast_self]
  exact congrArg₂ max (congrArg₂ (· + ·) (congrArg₂ (· + ·) (PlainDot.matmul_zero_apply none x0 x2 p q)
    (PlainDot.matmul_zero_apply none x1 x3 p q)) (broadcastTo_1b_ab_apply x4 broadcasts_S1x256_S1000x256 p q)) rfl

/-- The drug kernel's stored value at (p, q): the three products, the bias row, the factor one half, then the maximum
    with zero. -/
theorem drug1_apply (x0 x1 x2 : Vec Ideal S2000x256 .bf16) (x3 x4 x5 : Vec Ideal S256x256 .bf16) (x6 : Vec Ideal S1x256 .f32)
    (p : Fin 2000) (q : Fin 256) :
    k1_pay1 x0 x1 x2 x3 x4 x5 x6 (ix2 p q)
      = max (halfW * ((((∑ k : Fin 256, x0 (ix2 p k) * x3 (ix2 k q)) + (∑ k : Fin 256, x1 (ix2 p k) * x4 (ix2 k q)))
          + (∑ k : Fin 256, x2 (ix2 p k) * x5 (ix2 k q))) + x6 (ix2 (0 : Fin 1) q))) zeroW := by
  unfold k1_pay1
  simp only [shapeCast_self]
  exact congrArg₂ max (congrArg (halfW * ·) (congrArg₂ (· + ·) (congrArg₂ (· + ·) (congrArg₂ (· + ·)
    (PlainDot.matmul_zero_apply none x0 x3 p q) (PlainDot.matmul_zero_apply none x1 x4 p q))
    (PlainDot.matmul_zero_apply none x2 x5 p q)) (broadcastTo_1b_ab_apply x6 broadcasts_S1x256_S2000x256 p q))) rfl

/-- The disease kernel's stored value at (p, q): the two products of the row blocks with the weight blocks, the bias
    row, then the maximum with zero. -/
theorem dis2_apply (x0 x1 : Vec Ideal S1000x256 .bf16) (x2 x3 : Vec Ideal S256x256 .bf16) (x4 : Vec Ideal S1x256 .f32)
    (p : Fin 1000) (q : Fin 256) :
    k2_pay1 x0 x1 x2 x3 x4 (ix2 p q)
      = max (((∑ k : Fin 256, x0 (ix2 p k) * x2 (ix2 k q)) + (∑ k : Fin 256, x1 (ix2 p k) * x3 (ix2 k q)))
          + x4 (ix2 (0 : Fin 1) q)) zeroW := by
  unfold k2_pay1
  simp only [shapeCast_self]
  exact congrArg₂ max (congrArg₂ (· + ·) (congrArg₂ (· + ·) (PlainDot.matmul_zero_apply none x0 x2 p q)
    (PlainDot.matmul_zero_apply none x1 x3 p q)) (broadcastTo_1b_ab_apply x4 broadcasts_S1x256_S1000x256 p q)) rfl

/-- The drug kernel's stored value at (p, q): the three products, the bias row, the factor one half, then the maximum
    with zero. -/
theorem drug3_apply (x0 x1 x2 : Vec Ideal S2000x256 .bf16) (x3 x4 x5 : Vec Ideal S256x256 .bf16) (x6 : Vec Ideal S1x256 .f32)
    (p : Fin 2000) (q : Fin 256) :
    k3_pay1 x0 x1 x2 x3 x4 x5 x6 (ix2 p q)
      = max (halfW * ((((∑ k : Fin 256, x0 (ix2 p k) * x3 (ix2 k q)) + (∑ k : Fin 256, x1 (ix2 p k) * x4 (ix2 k q)))
          + (∑ k : Fin 256, x2 (ix2 p k) * x5 (ix2 k q))) + x6 (ix2 (0 : Fin 1) q))) zeroW := by
  unfold k3_pay1
  simp only [shapeCast_self]
  exact congrArg₂ max (congrArg (halfW * ·) (congrArg₂ (· + ·) (congrArg₂ (· + ·) (congrArg₂ (· + ·)
    (PlainDot.matmul_zero_apply none x0 x3 p q) (PlainDot.matmul_zero_apply none x1 x4 p q))
    (PlainDot.matmul_zero_apply none x2 x5 p q)) (broadcastTo_1b_ab_apply x6 broadcasts_S1x256_S2000x256 p q))) rfl

end Cert.KernelIdeal.Payloads

end
-- ==== Proof.Blocks0.lean ====
/-
  Region 0: the disease kernel's result array, whole.

  The grid has 25 points; point t holds rows 1000·t … 1000·t + 999 of the mean and of the features, the two whole
  weight matrices and the whole bias row, and writes back rows 1000·t … 1000·t + 999 of the result. Each written block
  is the restriction to those rows of ONE function of the operand arrays as the region finds them — the fused disease
  layer —, and the 25 blocks tile the 25000 rows, so after the region the result array is that function.
-/
import proofs.«165452_j57363583205826_1_alg».proof.Proof.Gen.KernelIdeal.Frame
import proofs.«165452_j57363583205826_1_alg».proof.Proof.Payloads
import Idealize.ShloMosaic.Lib.Pipeline.Value

set_option maxRecDepth 16384

noncomputable section

open scoped BigOperators

namespace Cert.KernelIdeal.Blocks0

open Cert.KernelIdeal Cert.KernelIdeal.Gen Idealize.ShloMosaic Idealize.ShloMosaic.TcCoe Idealize.ShloMosaic.ValueIdx Cert.Layer
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The bias row as a vector. -/
def biasRow (c : Dev nD) : Fin 256 → EReal := fun q => V c main_v81 (ix2 (0 : Fin 1) q)

/-- What the result array holds after the region: the fused disease layer of the operand arrays at entry. -/
def G (c : Dev nD) : Rows 25000 :=
  disOutK (V c main_v77) (V c main_v78) (V c main_v79) (V c main_v80) (biasRow V c)

/-- The block index maps over the grid: row blocks move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_lt (t : Fin cfg0.N) (p : Fin 1000) : t.val * 1000 + p.val < 25000 := by
  have ht : t.val < 25 := t.isLt
  have hp := p.isLt
  omega

/-- Row p of point t's block of the mean is row 1000·t + p of the array. -/
theorem read0 (c : Dev nD) (t : Fin cfg0.N) (p : Fin 1000) (k : Fin 256) :
    iblk0 V c 0 t (ix2 p k) = V c main_v77 (ix2 (⟨t.val * 1000 + p.val, row_lt t p⟩ : Fin 25000) k) := by
  obtain ⟨e0, e1, -⟩ := idx_facts t
  show V c main_v77 (((cfg0.win 0).blk t).view.emb (ix2 p k)) = _
  refine congrArg _ (funext fun a => Fin.ext ?_)
  match a with
  | ⟨0, _⟩ => show win0_0.index t (0 : Fin 2) * 1000 + 1 * p.val = t.val * 1000 + p.val; rw [e0]; omega
  | ⟨1, _⟩ => show win0_0.index t (1 : Fin 2) * 256 + 1 * k.val = k.val; rw [e1]; omega

/-- Row p of point t's block of the features is row 1000·t + p of the array. -/
theorem read1 (c : Dev nD) (t : Fin cfg0.N) (p : Fin 1000) (k : Fin 256) :
    iblk0 V c 1 t (ix2 p k) = V c main_v78 (ix2 (⟨t.val * 1000 + p.val, row_lt t p⟩ : Fin 25000) k) := by
  obtain ⟨-, -, e0, e1, -⟩ := idx_facts t
  show V c main_v78 (((cfg0.win 1).blk t).view.emb (ix2 p k)) = _
  refine congrArg _ (funext fun a => Fin.ext ?_)
  match a with
  | ⟨0, _⟩ => show win0_1.index t (0 : Fin 2) * 1000 + 1 * p.val = t.val * 1000 + p.val; rw [e0]; omega
  | ⟨1, _⟩ => show win0_1.index t (1 : Fin 2) * 256 + 1 * k.val = k.val; rw [e1]; omega

/-- Every point's block of the first weight matrix is the whole matrix. -/
theorem read2 (c : Dev nD) (t : Fin cfg0.N) (k q : Fin 256) :
    iblk0 V c 2 t (ix2 k q) = V c main_v79 (ix2 k q) := by
  obtain ⟨-, -, -, -, e0, e1, -⟩ := idx_facts t
  show V c main_v79 (((cfg0.win 2).blk t).view.emb (ix2 k q)) = _
  refine congrArg _ (funext fun a => Fin.ext ?_)
  match a with
  | ⟨0, _⟩ => show win0_2.index t (0 : Fin 2) * 256 + 1 * k.val = k.val; rw [e0]; omega
  | ⟨1, _⟩ => show win0_2.index t (1 : Fin 2) * 256 + 1 * q.val = q.val; rw [e1]; omega

/-- Every point's block of the second weight matrix is the whole matrix. -/
theorem read3 (c : Dev nD) (t : Fin cfg0.N) (k q : Fin 256) :
    iblk0 V c 3 t (ix2 k q) = V c main_v80 (ix2 k q) := by
  obtain ⟨-, -, -, -, -, -, e0, e1, -⟩ := idx_facts t
  show V c main_v80 (((cfg0.win 3).blk t).view.emb (ix2 k q)) = _
  refine congrArg _ (funext fun a => Fin.ext ?_)
  match a with
  | ⟨0, _⟩ => show win0_3.index t (0 : Fin 2) * 256 + 1 * k.val = k.val; rw [e0]; omega
  | ⟨1, _⟩ => show win0_3.index t (1 : Fin 2) * 256 + 1 * q.val = q.val; rw [e1]; omega

/-- Every point's block of the bias row is the whole row. -/
theorem read4 (c : Dev nD) (t : Fin cfg0.N) (q : Fin 256) :
    iblk0 V c 4 t (ix2 (0 : Fin 1) q) = V c main_v81 (ix2 (0 : Fin 1) q) := by
  obtain ⟨-, -, -, -, -, -, -, -, e0, e1, -⟩ := idx_facts t
  show V c main_v81 (((cfg0.win 4).blk t).view.emb (ix2 (0 : Fin 1) q)) = _
  refine congrArg _ (funext fun a => Fin.ext ?_)
  match a with
  | ⟨0, _⟩ => show win0_4.index t (0 : Fin 2) * 1 + 1 * 0 = 0; rw [e0]
  | ⟨1, _⟩ => show win0_4.index t (1 : Fin 2) * 256 + 1 * q.val = q.val; rw [e1]; omega

/-- Entry (p, q) of point t's result block is entry (1000·t + p, q) of the array. -/
theorem emb5 (t : Fin cfg0.N) (p : Fin 1000) (q : Fin 256) :
    ((cfg0.win 5).blk t).view.emb (ix2 p q) = ix2 (⟨t.val * 1000 + p.val, row_lt t p⟩ : Fin 25000) q := by
  obtain ⟨-, -, -, -, -, -, -, -, -, -, e0, e1⟩ := idx_facts t
  refine funext fun a => Fin.ext ?_
  match a with
  | ⟨0, _⟩ => show win0_5.index t (0 : Fin 2) * 1000 + 1 * p.val = t.val * 1000 + p.val; rw [e0]; omega
  | ⟨1, _⟩ => show win0_5.index t (1 : Fin 2) * 256 + 1 * q.val = q.val; rw [e1]; omega

/-- What point t writes back is block t of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S1000x256) hz, View.ld_unit_zero (S := S256x256) hz, View.ld_unit_zero (S := S1x256) hz]
  funext j
  obtain ⟨p, q, rfl⟩ : ∃ (p : Fin 1000) (q : Fin 256), j = ix2 p q := ⟨j 0, j 1, eq_ix2 j⟩
  refine (Payloads.dis0_apply (iblk0 V c 0 t) (iblk0 V c 1 t) (iblk0 V c 2 t) (iblk0 V c 3 t) (iblk0 V c 4 t) p q).trans ?_
  show _ = G V c (((cfg0.win 5).blk t).view.emb (ix2 p q))
  rw [emb5 t p q, read4 V c t q]
  simp only [read0 V c t p, read1 V c t p, read2 V c t, read3 V c t]
  rfl

/-- An index of the array is in point t's block iff each coordinate is in the block's range on its axis. -/
theorem mem_blk (t : Fin cfg0.N) (i : S25000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_v82).slice (win0_5.rect t)).set ↔ _
  rw [View.set_slice_whole, Rect.mem_set_unit]
  exact Iff.rfl

/-- Every row is in some point's block: row r is in block r / 1000. -/
theorem cover (i : S25000x256.Idx) : ∃ t : Fin cfg0.N, (cfg0.win 5).flush t = true ∧ i ∈ ((cfg0.win 5).blk t).view.set := by
  have hi0 : (i 0).val < 25000 := (i 0).isLt
  have hi1 : (i 1).val < 256 := (i 1).isLt
  have hN : cfg0.N = 25 := N_0
  let t : Fin cfg0.N := ⟨(i 0).val / 1000, by rw [hN]; omega⟩
  obtain ⟨-, -, -, -, -, -, -, -, -, -, e0, e1⟩ := idx_facts t
  refine ⟨t, flush0_5 t, ?_⟩
  rw [mem_blk]
  intro a
  have ht : t.val = (i 0).val / 1000 := rfl
  match a with
  | ⟨0, _⟩ => show win0_5.index t (0 : Fin 2) * 1000 ≤ (i 0).val ∧ (i 0).val < win0_5.index t (0 : Fin 2) * 1000 + 1000; rw [e0, ht]; omega
  | ⟨1, _⟩ => show win0_5.index t (1 : Fin 2) * 256 ≤ (i 1).val ∧ (i 1).val < win0_5.index t (1 : Fin 2) * 256 + 256; rw [e1]; omega

/-- After the region the result array is the fused disease layer of the operand arrays at entry. -/
theorem final (c : Dev nD) : (dat0 V c).arrAt 5 cfg0.N = G V c :=
  (dat0 V c).arrAt_eq_of_cover 5 (G V c) (fun t _ => flushed_eq V c t) (cover)

end Cert.KernelIdeal.Blocks0

end
-- ==== Proof.Blocks1.lean ====
/-
  Region 1: the drug kernel's result array, whole.

  The grid has 25 points; point t holds rows 2000·t … 2000·t + 1999 of the two means and of the features, the three
  whole weight matrices and the whole bias row, and writes back rows 2000·t … 2000·t + 1999 of the result. Each
  written block is the restriction to those rows of ONE function of the operand arrays as the region finds them — the
  fused drug layer —, and the 25 blocks tile the 50000 rows, so after the region the result array is that function.
-/
import proofs.«165452_j57363583205826_1_alg».proof.Proof.Gen.KernelIdeal.Frame
import proofs.«165452_j57363583205826_1_alg».proof.Proof.Payloads
import Idealize.ShloMosaic.Lib.Pipeline.Value

set_option maxRecDepth 16384

noncomputable section

open scoped BigOperators

namespace Cert.KernelIdeal.Blocks1

open Cert.KernelIdeal Cert.KernelIdeal.Gen Idealize.ShloMosaic Idealize.ShloMosaic.TcCoe Idealize.ShloMosaic.ValueIdx Cert.Layer
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The bias row as a vector. -/
def biasRow (c : Dev nD) : Fin 256 → EReal := fun q => V c main_v89 (ix2 (0 : Fin 1) q)

/-- What the result array holds after the region: the fused drug layer of the operand arrays at entry. -/
def G (c : Dev nD) : Rows 50000 :=
  drugOutK (V c main_v83) (V c main_v84) (V c main_v85) (V c main_v86) (V c main_v87) (V c main_v88) (biasRow V c)

/-- The block index maps at a point: row blocks move with the point, the weights and the bias stay. -/
structure IdxFacts (t : Fin cfg1.N) : Prop where
  «0_0» : win1_0.index t (0 : Fin 2) = t.val
  «0_1» : win1_0.index t (1 : Fin 2) = 0
  «1_0» : win1_1.index t (0 : Fin 2) = t.val
  «1_1» : win1_1.index t (1 : Fin 2) = 0
  «2_0» : win1_2.index t (0 : Fin 2) = t.val
  «2_1» : win1_2.index t (1 : Fin 2) = 0
  «3_0» : win1_3.index t (0 : Fin 2) = 0
  «3_1» : win1_3.index t (1 : Fin 2) = 0
  «4_0» : win1_4.index t (0 : Fin 2) = 0
  «4_1» : win1_4.index t (1 : Fin 2) = 0
  «5_0» : win1_5.index t (0 : Fin 2) = 0
  «5_1» : win1_5.index t (1 : Fin 2) = 0
  «6_0» : win1_6.index t (0 : Fin 2) = 0
  «6_1» : win1_6.index t (1 : Fin 2) = 0
  «7_0» : win1_7.index t (0 : Fin 2) = t.val
  «7_1» : win1_7.index t (1 : Fin 2) = 0

theorem idx_all : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem idx_facts (t : Fin cfg1.N) : IdxFacts t := by
  obtain ⟨h00, h01, h10, h11, h20, h21, h30, h31, h40, h41, h50, h51, h60, h61, h70, h71⟩ := idx_all t
  exact ⟨h00, h01, h10, h11, h20, h21, h30, h31, h40, h41, h50, h51, h60, h61, h70, h71⟩

theorem row_lt (t : Fin cfg1.N) (p : Fin 2000) : t.val * 2000 + p.val < 50000 := by
  have ht : t.val < 25 := t.isLt
  have hp := p.isLt
  omega

/-- Row p of point t's block of the first mean is row 2000·t + p of the array. -/
theorem read0 (c : Dev nD) (t : Fin cfg1.N) (p : Fin 2000) (k : Fin 256) :
    iblk1 V c 0 t (ix2 p k) = V c main_v83 (ix2 (⟨t.val * 2000 + p.val, row_lt t p⟩ : Fin 50000) k) := by
  have e0 := (idx_facts t).«0_0»
  have e1 := (idx_facts t).«0_1»
  show V c main_v83 (((cfg1.win 0).blk t).view.emb (ix2 p k)) = _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

/-- Row p of point t's block of the second mean is row 2000·t + p of the array. -/
theorem read1 (c : Dev nD) (t : Fin cfg1.N) (p : Fin 2000) (k : Fin 256) :
    iblk1 V c 1 t (ix2 p k) = V c main_v84 (ix2 (⟨t.val * 2000 + p.val, row_lt t p⟩ : Fin 50000) k) := by
  have e0 := (idx_facts t).«1_0»
  have e1 := (idx_facts t).«1_1»
  show V c main_v84 (((cfg1.win 1).blk t).view.emb (ix2 p k)) = _
  refine congrArg _ (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 256 + 1 * k.val = k.val; rw [e1]; omega

/-- Row p of point t's block of the features is row 2000·t + p of the array. -/
theorem read2 (c : Dev nD) (t : Fin cfg1.N) (p : Fin 2000) (k : Fin 256) :
    iblk1 V c 2 t (ix2 p k) = V c main_v85 (ix2 (⟨t.val * 2000 + p.val, row_lt t p⟩ : Fin 50000) k) := by
  have e0 := (idx_facts t).«2_0»
  have e1 := (idx_facts t).«2_1»
  show V c main_v85 (((cfg1.win 2).blk t).view.emb (ix2 p k)) = _
  refine congrArg _ (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 256 + 1 * k.val = k.val; rw [e1]; omega

/-- Every point's block of the first weight matrix is the whole matrix. -/
theorem read3 (c : Dev nD) (t : Fin cfg1.N) (k q : Fin 256) :
    iblk1 V c 3 t (ix2 k q) = V c main_v86 (ix2 k q) := by
  have e0 := (idx_facts t).«3_0»
  have e1 := (idx_facts t).«3_1»
  show V c main_v86 (((cfg1.win 3).blk t).view.emb (ix2 k q)) = _
  refine congrArg _ (funext fun a => Fin.ext ?_)
  match a with
  | ⟨0, _⟩ => show win1_3.index t (0 : Fin 2) * 256 + 1 * k.val = k.val; rw [e0]; omega
  | ⟨1, _⟩ => show win1_3.index t (1 : Fin 2) * 256 + 1 * q.val = q.val; rw [e1]; omega

/-- Every point's block of the second weight matrix is the whole matrix. -/
theorem read4 (c : Dev nD) (t : Fin cfg1.N) (k q : Fin 256) :
    iblk1 V c 4 t (ix2 k q) = V c main_v87 (ix2 k q) := by
  have e0 := (idx_facts t).«4_0»
  have e1 := (idx_facts t).«4_1»
  show V c main_v87 (((cfg1.win 4).blk t).view.emb (ix2 k q)) = _
  refine congrArg _ (funext fun a => Fin.ext ?_)
  match a with
  | ⟨0, _⟩ => show win1_4.index t (0 : Fin 2) * 256 + 1 * k.val = k.val; rw [e0]; omega
  | ⟨1, _⟩ => show win1_4.index t (1 : Fin 2) * 256 + 1 * q.val = q.val; rw [e1]; omega

/-- Every point's block of the summed root weights is the whole matrix. -/
theorem read5 (c : Dev nD) (t : Fin cfg1.N) (k q : Fin 256) :
    iblk1 V c 5 t (ix2 k q) = V c main_v88 (ix2 k q) := by
  have e0 := (idx_facts t).«5_0»
  have e1 := (idx_facts t).«5_1»
  show V c main_v88 (((cfg1.win 5).blk t).view.emb (ix2 k q)) = _
  refine congrArg _ (funext fun a => Fin.ext ?_)
  match a with
  | ⟨0, _⟩ => show win1_5.index t (0 : Fin 2) * 256 + 1 * k.val = k.val; rw [e0]; omega
  | ⟨1, _⟩ => show win1_5.index t (1 : Fin 2) * 256 + 1 * q.val = q.val; rw [e1]; omega

/-- Every point's block of the bias row is the whole row. -/
theorem read6 (c : Dev nD) (t : Fin cfg1.N) (q : Fin 256) :
    iblk1 V c 6 t (ix2 (0 : Fin 1) q) = V c main_v89 (ix2 (0 : Fin 1) q) := by
  have e0 := (idx_facts t).«6_0»
  have e1 := (idx_facts t).«6_1»
  show V c main_v89 (((cfg1.win 6).blk t).view.emb (ix2 (0 : Fin 1) q)) = _
  refine congrArg _ (funext fun a => Fin.ext ?_)
  match a with
  | ⟨0, _⟩ => show win1_6.index t (0 : Fin 2) * 1 + 1 * 0 = 0; rw [e0]
  | ⟨1, _⟩ => show win1_6.index t (1 : Fin 2) * 256 + 1 * q.val = q.val; rw [e1]; omega

/-- Entry (p, q) of point t's result block is entry (2000·t + p, q) of the array. -/
theorem emb7 (t : Fin cfg1.N) (p : Fin 2000) (q : Fin 256) :
    ((cfg1.win 7).blk t).view.emb (ix2 p q) = ix2 (⟨t.val * 2000 + p.val, row_lt t p⟩ : Fin 50000) q := by
  have e0 := (idx_facts t).«7_0»
  have e1 := (idx_facts t).«7_1»
  refine funext fun a => Fin.ext ?_
  match a with
  | ⟨0, _⟩ => show win1_7.index t (0 : Fin 2) * 2000 + 1 * p.val = t.val * 2000 + p.val; rw [e0]; omega
  | ⟨1, _⟩ => show win1_7.index t (1 : Fin 2) * 256 + 1 * q.val = q.val; rw [e1]; omega

/-- What point t writes back is block t of `G`. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  refine (Payloads.drug1_apply (iblk1 V c 0 t) (iblk1 V c 1 t) (iblk1 V c 2 t) (iblk1 V c 3 t) (iblk1 V c 4 t) (iblk1 V c 5 t) (iblk1 V c 6 t) p q).trans ?_
  show _ = G V c (((cfg1.win 7).blk t).view.emb (ix2 p q))
  rw [emb7 t p q, read6 V c t q]
  simp only [read0 V c t p, read1 V c t p, read2 V c t p, read3 V c t, read4 V c t, read5 V c t]
  rfl

/-- An index of the array is in point t's block iff each coordinate is in the block's range on its axis. -/
theorem mem_blk (t : Fin cfg1.N) (i : S50000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v90).slice (win1_7.rect t)).set ↔ _
  rw [View.set_slice_whole, Rect.mem_set_unit]
  exact Iff.rfl

/-- Every row is in some point's block: row r is in block r / 2000. -/
theorem cover (i : S50000x256.Idx) : ∃ t : Fin cfg1.N, (cfg1.win 7).flush t = true ∧ i ∈ ((cfg1.win 7).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  have e0 := (idx_facts t).«7_0»
  have e1 := (idx_facts t).«7_1»
  refine ⟨t, flush1_7 t, ?_⟩
  rw [mem_blk]
  intro a
  have ht : t.val = (i 0).val / 2000 := rfl
  match a with
  | ⟨0, _⟩ => show win1_7.index t (0 : Fin 2) * 2000 ≤ (i 0).val ∧ (i 0).val < win1_7.index t (0 : Fin 2) * 2000 + 2000; rw [e0, ht]; omega
  | ⟨1, _⟩ => show win1_7.index t (1 : Fin 2) * 256 ≤ (i 1).val ∧ (i 1).val < win1_7.index t (1 : Fin 2) * 256 + 256; rw [e1]; omega

/-- After the region the result array is the fused drug layer of the operand arrays at entry. -/
theorem final (c : Dev nD) : (dat1 V c).arrAt 7 cfg1.N = G V c :=
  (dat1 V c).arrAt_eq_of_cover 7 (G V c) (fun t _ => flushed_eq V c t) (cover)

end Cert.KernelIdeal.Blocks1

end
-- ==== Proof.Blocks2.lean ====
/-
  Region 2: the disease kernel's result array, whole.

  The grid has 25 points; point t holds rows 1000·t … 1000·t + 999 of the mean and of the features, the two whole
  weight matrices and the whole bias row, and writes back rows 1000·t … 1000·t + 999 of the result. Each written block
  is the restriction to those rows of ONE function of the operand arrays as the region finds them — the fused disease
  layer —, and the 25 blocks tile the 25000 rows, so after the region the result array is that function.
-/
import proofs.«165452_j57363583205826_1_alg».proof.Proof.Gen.KernelIdeal.Frame
import proofs.«165452_j57363583205826_1_alg».proof.Proof.Payloads
import Idealize.ShloMosaic.Lib.Pipeline.Value

set_option maxRecDepth 16384

noncomputable section

open scoped BigOperators

namespace Cert.KernelIdeal.Blocks2

open Cert.KernelIdeal Cert.KernelIdeal.Gen Idealize.ShloMosaic Idealize.ShloMosaic.TcCoe Idealize.ShloMosaic.ValueIdx Cert.Layer
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The bias row as a vector. -/
def biasRow (c : Dev nD) : Fin 256 → EReal := fun q => V c main_v172 (ix2 (0 : Fin 1) q)

/-- What the result array holds after the region: the fused disease layer of the operand arrays at entry. -/
def G (c : Dev nD) : Rows 25000 :=
  disOutK (V c main_v168) (V c main_v169) (V c main_v170) (V c main_v171) (biasRow V c)

/-- The block index maps over the grid: row blocks move with the point, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem row_lt (t : Fin cfg2.N) (p : Fin 1000) : t.val * 1000 + p.val < 25000 := by
  have ht : t.val < 25 := t.isLt
  have hp := p.isLt
  omega

/-- Row p of point t's block of the mean is row 1000·t + p of the array. -/
theorem read0 (c : Dev nD) (t : Fin cfg2.N) (p : Fin 1000) (k : Fin 256) :
    iblk2 V c 0 t (ix2 p k) = V c main_v168 (ix2 (⟨t.val * 1000 + p.val, row_lt t p⟩ : Fin 25000) k) := by
  obtain ⟨e0, e1, -⟩ := idx_facts t
  show V c main_v168 (((cfg2.win 0).blk t).view.emb (ix2 p k)) = _
  refine congrArg _ (funext fun a => Fin.ext ?_)
  match a with
  | ⟨0, _⟩ => show win2_0.index t (0 : Fin 2) * 1000 + 1 * p.val = t.val * 1000 + p.val; rw [e0]; omega
  | ⟨1, _⟩ => show win2_0.index t (1 : Fin 2) * 256 + 1 * k.val = k.val; rw [e1]; omega

/-- Row p of point t's block of the features is row 1000·t + p of the array. -/
theorem read1 (c : Dev nD) (t : Fin cfg2.N) (p : Fin 1000) (k : Fin 256) :
    iblk2 V c 1 t (ix2 p k) = V c main_v169 (ix2 (⟨t.val * 1000 + p.val, row_lt t p⟩ : Fin 25000) k) := by
  obtain ⟨-, -, e0, e1, -⟩ := idx_facts t
  show V c main_v169 (((cfg2.win 1).blk t).view.emb (ix2 p k)) = _
  refine congrArg _ (funext fun a => Fin.ext ?_)
  match a with
  | ⟨0, _⟩ => show win2_1.index t (0 : Fin 2) * 1000 + 1 * p.val = t.val * 1000 + p.val; rw [e0]; omega
  | ⟨1, _⟩ => show win2_1.index t (1 : Fin 2) * 256 + 1 * k.val = k.val; rw [e1]; omega

/-- Every point's block of the first weight matrix is the whole matrix. -/
theorem read2 (c : Dev nD) (t : Fin cfg2.N) (k q : Fin 256) :
    iblk2 V c 2 t (ix2 k q) = V c main_v170 (ix2 k q) := by
  obtain ⟨-, -, -, -, e0, e1, -⟩ := idx_facts t
  show V c main_v170 (((cfg2.win 2).blk t).view.emb (ix2 k q)) = _
  refine congrArg _ (funext fun a => Fin.ext ?_)
  match a with
  | ⟨0, _⟩ => show win2_2.index t (0 : Fin 2) * 256 + 1 * k.val = k.val; rw [e0]; omega
  | ⟨1, _⟩ => show win2_2.index t (1 : Fin 2) * 256 + 1 * q.val = q.val; rw [e1]; omega

/-- Every point's block of the second weight matrix is the whole matrix. -/
theorem read3 (c : Dev nD) (t : Fin cfg2.N) (k q : Fin 256) :
    iblk2 V c 3 t (ix2 k q) = V c main_v171 (ix2 k q) := by
  obtain ⟨-, -, -, -, -, -, e0, e1, -⟩ := idx_facts t
  show V c main_v171 (((cfg2.win 3).blk t).view.emb (ix2 k q)) = _
  refine congrArg _ (funext fun a => Fin.ext ?_)
  match a with
  | ⟨0, _⟩ => show win2_3.index t (0 : Fin 2) * 256 + 1 * k.val = k.val; rw [e0]; omega
  | ⟨1, _⟩ => show win2_3.index t (1 : Fin 2) * 256 + 1 * q.val = q.val; rw [e1]; omega

/-- Every point's block of the bias row is the whole row. -/
theorem read4 (c : Dev nD) (t : Fin cfg2.N) (q : Fin 256) :
    iblk2 V c 4 t (ix2 (0 : Fin 1) q) = V c main_v172 (ix2 (0 : Fin 1) q) := by
  obtain ⟨-, -, -, -, -, -, -, -, e0, e1, -⟩ := idx_facts t
  show V c main_v172 (((cfg2.win 4).blk t).view.emb (ix2 (0 : Fin 1) q)) = _
  refine congrArg _ (funext fun a => Fin.ext ?_)
  match a with
  | ⟨0, _⟩ => show win2_4.index t (0 : Fin 2) * 1 + 1 * 0 = 0; rw [e0]
  | ⟨1, _⟩ => show win2_4.index t (1 : Fin 2) * 256 + 1 * q.val = q.val; rw [e1]; omega

/-- Entry (p, q) of point t's result block is entry (1000·t + p, q) of the array. -/
theorem emb5 (t : Fin cfg2.N) (p : Fin 1000) (q : Fin 256) :
    ((cfg2.win 5).blk t).view.emb (ix2 p q) = ix2 (⟨t.val * 1000 + p.val, row_lt t p⟩ : Fin 25000) q := by
  obtain ⟨-, -, -, -, -, -, -, -, -, -, e0, e1⟩ := idx_facts t
  refine funext fun a => Fin.ext ?_
  match a with
  | ⟨0, _⟩ => show win2_5.index t (0 : Fin 2) * 1000 + 1 * p.val = t.val * 1000 + p.val; rw [e0]; omega
  | ⟨1, _⟩ => show win2_5.index t (1 : Fin 2) * 256 + 1 * q.val = q.val; rw [e1]; omega

/-- What point t writes back is block t of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S1000x256) hz, View.ld_unit_zero (S := S256x256) hz, View.ld_unit_zero (S := S1x256) hz]
  funext j
  obtain ⟨p, q, rfl⟩ : ∃ (p : Fin 1000) (q : Fin 256), j = ix2 p q := ⟨j 0, j 1, eq_ix2 j⟩
  refine (Payloads.dis2_apply (iblk2 V c 0 t) (iblk2 V c 1 t) (iblk2 V c 2 t) (iblk2 V c 3 t) (iblk2 V c 4 t) p q).trans ?_
  show _ = G V c (((cfg2.win 5).blk t).view.emb (ix2 p q))
  rw [emb5 t p q, read4 V c t q]
  simp only [read0 V c t p, read1 V c t p, read2 V c t, read3 V c t]
  rfl

/-- An index of the array is in point t's block iff each coordinate is in the block's range on its axis. -/
theorem mem_blk (t : Fin cfg2.N) (i : S25000x256.Idx) :
    i ∈ ((cfg2.win 5).blk t).view.set ↔ ∀ a : Fin 2, win2_5.index t a * S1000x256.size a ≤ (i a).val ∧ (i a).val < win2_5.index t a * S1000x256.size a + S1000x256.size a := by
  show i ∈ ((View.whole main_v173).slice (win2_5.rect t)).set ↔ _
  rw [View.set_slice_whole, Rect.mem_set_unit]
  exact Iff.rfl

/-- Every row is in some point's block: row r is in block r / 1000. -/
theorem cover (i : S25000x256.Idx) : ∃ t : Fin cfg2.N, (cfg2.win 5).flush t = true ∧ i ∈ ((cfg2.win 5).blk t).view.set := by
  have hi0 : (i 0).val < 25000 := (i 0).isLt
  have hi1 : (i 1).val < 256 := (i 1).isLt
  have hN : cfg2.N = 25 := N_2
  let t : Fin cfg2.N := ⟨(i 0).val / 1000, by rw [hN]; omega⟩
  obtain ⟨-, -, -, -, -, -, -, -, -, -, e0, e1⟩ := idx_facts t
  refine ⟨t, flush2_5 t, ?_⟩
  rw [mem_blk]
  intro a
  have ht : t.val = (i 0).val / 1000 := rfl
  match a with
  | ⟨0, _⟩ => show win2_5.index t (0 : Fin 2) * 1000 ≤ (i 0).val ∧ (i 0).val < win2_5.index t (0 : Fin 2) * 1000 + 1000; rw [e0, ht]; omega
  | ⟨1, _⟩ => show win2_5.index t (1 : Fin 2) * 256 ≤ (i 1).val ∧ (i 1).val < win2_5.index t (1 : Fin 2) * 256 + 256; rw [e1]; omega

/-- After the region the result array is the fused disease layer of the operand arrays at entry. -/
theorem final (c : Dev nD) : (dat2 V c).arrAt 5 cfg2.N = G V c :=
  (dat2 V c).arrAt_eq_of_cover 5 (G V c) (fun t _ => flushed_eq V c t) (cover)

end Cert.KernelIdeal.Blocks2

end
-- ==== Proof.Blocks3.lean ====
/-
  Region 3: the drug kernel's result array, whole.

  The grid has 25 points; point t holds rows 2000·t … 2000·t + 1999 of the two means and of the features, the three
  whole weight matrices and the whole bias row, and writes back rows 2000·t … 2000·t + 1999 of the result. Each
  written block is the restriction to those rows of ONE function of the operand arrays as the region finds them — the
  fused drug layer —, and the 25 blocks tile the 50000 rows, so after the region the result array is that function.
-/
import proofs.«165452_j57363583205826_1_alg».proof.Proof.Gen.KernelIdeal.Frame
import proofs.«165452_j57363583205826_1_alg».proof.Proof.Payloads
import Idealize.ShloMosaic.Lib.Pipeline.Value

set_option maxRecDepth 16384

noncomputable section

open scoped BigOperators

namespace Cert.KernelIdeal.Blocks3

open Cert.KernelIdeal Cert.KernelIdeal.Gen Idealize.ShloMosaic Idealize.ShloMosaic.TcCoe Idealize.ShloMosaic.ValueIdx Cert.Layer
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The bias row as a vector. -/
def biasRow (c : Dev nD) : Fin 256 → EReal := fun q => V c main_v180 (ix2 (0 : Fin 1) q)

/-- What the result array holds after the region: the fused drug layer of the operand arrays at entry. -/
def G (c : Dev nD) : Rows 50000 :=
  drugOutK (V c main_v174) (V c main_v175) (V c main_v176) (V c main_v177) (V c main_v178) (V c main_v179) (biasRow V c)

/-- The block index maps at a point: row blocks move with the point, the weights and the bias stay. -/
structure IdxFacts (t : Fin cfg3.N) : Prop where
  «0_0» : win3_0.index t (0 : Fin 2) = t.val
  «0_1» : win3_0.index t (1 : Fin 2) = 0
  «1_0» : win3_1.index t (0 : Fin 2) = t.val
  «1_1» : win3_1.index t (1 : Fin 2) = 0
  «2_0» : win3_2.index t (0 : Fin 2) = t.val
  «2_1» : win3_2.index t (1 : Fin 2) = 0
  «3_0» : win3_3.index t (0 : Fin 2) = 0
  «3_1» : win3_3.index t (1 : Fin 2) = 0
  «4_0» : win3_4.index t (0 : Fin 2) = 0
  «4_1» : win3_4.index t (1 : Fin 2) = 0
  «5_0» : win3_5.index t (0 : Fin 2) = 0
  «5_1» : win3_5.index t (1 : Fin 2) = 0
  «6_0» : win3_6.index t (0 : Fin 2) = 0
  «6_1» : win3_6.index t (1 : Fin 2) = 0
  «7_0» : win3_7.index t (0 : Fin 2) = t.val
  «7_1» : win3_7.index t (1 : Fin 2) = 0

theorem idx_all : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

theorem idx_facts (t : Fin cfg3.N) : IdxFacts t := by
  obtain ⟨h00, h01, h10, h11, h20, h21, h30, h31, h40, h41, h50, h51, h60, h61, h70, h71⟩ := idx_all t
  exact ⟨h00, h01, h10, h11, h20, h21, h30, h31, h40, h41, h50, h51, h60, h61, h70, h71⟩

theorem row_lt (t : Fin cfg3.N) (p : Fin 2000) : t.val * 2000 + p.val < 50000 := by
  have ht : t.val < 25 := t.isLt
  have hp := p.isLt
  omega

/-- Row p of point t's block of the first mean is row 2000·t + p of the array. -/
theorem read0 (c : Dev nD) (t : Fin cfg3.N) (p : Fin 2000) (k : Fin 256) :
    iblk3 V c 0 t (ix2 p k) = V c main_v174 (ix2 (⟨t.val * 2000 + p.val, row_lt t p⟩ : Fin 50000) k) := by
  have e0 := (idx_facts t).«0_0»
  have e1 := (idx_facts t).«0_1»
  show V c main_v174 (((cfg3.win 0).blk t).view.emb (ix2 p k)) = _
  refine congrArg _ (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 256 + 1 * k.val = k.val; rw [e1]; omega

/-- Row p of point t's block of the second mean is row 2000·t + p of the array. -/
theorem read1 (c : Dev nD) (t : Fin cfg3.N) (p : Fin 2000) (k : Fin 256) :
    iblk3 V c 1 t (ix2 p k) = V c main_v175 (ix2 (⟨t.val * 2000 + p.val, row_lt t p⟩ : Fin 50000) k) := by
  have e0 := (idx_facts t).«1_0»
  have e1 := (idx_facts t).«1_1»
  show V c main_v175 (((cfg3.win 1).blk t).view.emb (ix2 p k)) = _
  refine congrArg _ (funext fun a => Fin.ext ?_)
  match a with
  | ⟨0, _⟩ => show win3_1.index t (0 : Fin 2) * 2000 + 1 * p.val = t.val * 2000 + p.val; rw [e0]; omega
  | ⟨1, _⟩ => show win3_1.index t (1 : Fin 2) * 256 + 1 * k.val = k.val; rw [e1]; omega

/-- Row p of point t's block of the features is row 2000·t + p of the array. -/
theorem read2 (c : Dev nD) (t : Fin cfg3.N) (p : Fin 2000) (k : Fin 256) :
    iblk3 V c 2 t (ix2 p k) = V c main_v176 (ix2 (⟨t.val * 2000 + p.val, row_lt t p⟩ : Fin 50000) k) := by
  have e0 := (idx_facts t).«2_0»
  have e1 := (idx_facts t).«2_1»
  show V c main_v176 (((cfg3.win 2).blk t).view.emb (ix2 p k)) = _
  refine congrArg _ (funext fun a => Fin.ext ?_)
  match a with
  | ⟨0, _⟩ => show win3_2.index t (0 : Fin 2) * 2000 + 1 * p.val = t.val * 2000 + p.val; rw [e0]; omega
  | ⟨1, _⟩ => show win3_2.index t (1 : Fin 2) * 256 + 1 * k.val = k.val; rw [e1]; omega

/-- Every point's block of the first weight matrix is the whole matrix. -/
theorem read3 (c : Dev nD) (t : Fin cfg3.N) (k q : Fin 256) :
    iblk3 V c 3 t (ix2 k q) = V c main_v177 (ix2 k q) := by
  have e0 := (idx_facts t).«3_0»
  have e1 := (idx_facts t).«3_1»
  show V c main_v177 (((cfg3.win 3).blk t).view.emb (ix2 k q)) = _
  refine congrArg _ (funext fun a => Fin.ext ?_)
  match a with
  | ⟨0, _⟩ => show win3_3.index t (0 : Fin 2) * 256 + 1 * k.val = k.val; rw [e0]; omega
  | ⟨1, _⟩ => show win3_3.index t (1 : Fin 2) * 256 + 1 * q.val = q.val; rw [e1]; omega

/-- Every point's block of the second weight matrix is the whole matrix. -/
theorem read4 (c : Dev nD) (t : Fin cfg3.N) (k q : Fin 256) :
    iblk3 V c 4 t (ix2 k q) = V c main_v178 (ix2 k q) := by
  have e0 := (idx_facts t).«4_0»
  have e1 := (idx_facts t).«4_1»
  show V c main_v178 (((cfg3.win 4).blk t).view.emb (ix2 k q)) = _
  refine congrArg _ (funext fun a => Fin.ext ?_)
  match a with
  | ⟨0, _⟩ => show win3_4.index t (0 : Fin 2) * 256 + 1 * k.val = k.val; rw [e0]; omega
  | ⟨1, _⟩ => show win3_4.index t (1 : Fin 2) * 256 + 1 * q.val = q.val; rw [e1]; omega

/-- Every point's block of the summed root weights is the whole matrix. -/
theorem read5 (c : Dev nD) (t : Fin cfg3.N) (k q : Fin 256) :
    iblk3 V c 5 t (ix2 k q) = V c main_v179 (ix2 k q) := by
  have e0 := (idx_facts t).«5_0»
  have e1 := (idx_facts t).«5_1»
  show V c main_v179 (((cfg3.win 5).blk t).view.emb (ix2 k q)) = _
  refine congrArg _ (funext fun a => Fin.ext ?_)
  match a with
  | ⟨0, _⟩ => show win3_5.index t (0 : Fin 2) * 256 + 1 * k.val = k.val; rw [e0]; omega
  | ⟨1, _⟩ => show win3_5.index t (1 : Fin 2) * 256 + 1 * q.val = q.val; rw [e1]; omega

/-- Every point's block of the bias row is the whole row. -/
theorem read6 (c : Dev nD) (t : Fin cfg3.N) (q : Fin 256) :
    iblk3 V c 6 t (ix2 (0 : Fin 1) q) = V c main_v180 (ix2 (0 : Fin 1) q) := by
  have e0 := (idx_facts t).«6_0»
  have e1 := (idx_facts t).«6_1»
  show V c main_v180 (((cfg3.win 6).blk t).view.emb (ix2 (0 : Fin 1) q)) = _
  refine congrArg _ (funext fun a => Fin.ext ?_)
  match a with
  | ⟨0, _⟩ => show win3_6.index t (0 : Fin 2) * 1 + 1 * 0 = 0; rw [e0]
  | ⟨1, _⟩ => show win3_6.index t (1 : Fin 2) * 256 + 1 * q.val = q.val; rw [e1]; omega

/-- Entry (p, q) of point t's result block is entry (2000·t + p, q) of the array. -/
theorem emb7 (t : Fin cfg3.N) (p : Fin 2000) (q : Fin 256) :
    ((cfg3.win 7).blk t).view.emb (ix2 p q) = ix2 (⟨t.val * 2000 + p.val, row_lt t p⟩ : Fin 50000) q := by
  have e0 := (idx_facts t).«7_0»
  have e1 := (idx_facts t).«7_1»
  refine funext fun a => Fin.ext ?_
  match a with
  | ⟨0, _⟩ => show win3_7.index t (0 : Fin 2) * 2000 + 1 * p.val = t.val * 2000 + p.val; rw [e0]; omega
  | ⟨1, _⟩ => show win3_7.index t (1 : Fin 2) * 256 + 1 * q.val = q.val; rw [e1]; omega

/-- What point t writes back is block t of `G`. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  refine (Payloads.drug3_apply (iblk3 V c 0 t) (iblk3 V c 1 t) (iblk3 V c 2 t) (iblk3 V c 3 t) (iblk3 V c 4 t) (iblk3 V c 5 t) (iblk3 V c 6 t) p q).trans ?_
  show _ = G V c (((cfg3.win 7).blk t).view.emb (ix2 p q))
  rw [emb7 t p q, read6 V c t q]
  simp only [read0 V c t p, read1 V c t p, read2 V c t p, read3 V c t, read4 V c t, read5 V c t]
  rfl

/-- An index of the array is in point t's block iff each coordinate is in the block's range on its axis. -/
theorem mem_blk (t : Fin cfg3.N) (i : S50000x256.Idx) :
    i ∈ ((cfg3.win 7).blk t).view.set ↔ ∀ a : Fin 2, win3_7.index t a * S2000x256.size a ≤ (i a).val ∧ (i a).val < win3_7.index t a * S2000x256.size a + S2000x256.size a := by
  show i ∈ ((View.whole main_v181).slice (win3_7.rect t)).set ↔ _
  rw [View.set_slice_whole, Rect.mem_set_unit]
  exact Iff.rfl

/-- Every row is in some point's block: row r is in block r / 2000. -/
theorem cover (i : S50000x256.Idx) : ∃ t : Fin cfg3.N, (cfg3.win 7).flush t = true ∧ i ∈ ((cfg3.win 7).blk t).view.set := by
  have hi0 : (i 0).val < 50000 := (i 0).isLt
  have hi1 : (i 1).val < 256 := (i 1).isLt
  have hN : cfg3.N = 25 := N_3
  let t : Fin cfg3.N := ⟨(i 0).val / 2000, by rw [hN]; omega⟩
  have e0 := (idx_facts t).«7_0»
  have e1 := (idx_facts t).«7_1»
  refine ⟨t, flush3_7 t, ?_⟩
  rw [mem_blk]
  intro a
  have ht : t.val = (i 0).val / 2000 := rfl
  match a with
  | ⟨0, _⟩ => show win3_7.index t (0 : Fin 2) * 2000 ≤ (i 0).val ∧ (i 0).val < win3_7.index t (0 : Fin 2) * 2000 + 2000; rw [e0, ht]; omega
  | ⟨1, _⟩ => show win3_7.index t (1 : Fin 2) * 256 ≤ (i 1).val ∧ (i 1).val < win3_7.index t (1 : Fin 2) * 256 + 256; rw [e1]; omega

/-- After the region the result array is the fused drug layer of the operand arrays at entry. -/
theorem final (c : Dev nD) : (dat3 V c).arrAt 7 cfg3.N = G V c :=
  (dat3 V c).arrAt_eq_of_cover 7 (G V c) (fun t _ => flushed_eq V c t) (cover)

end Cert.KernelIdeal.Blocks3

end
-- ==== Proof.Means.lean ====
/-
  The neighbour mean of a relation, as the plain program computes it on the host.

  For an edge list (src, dst) and source features x the mean at destination row n is
      ( ∑ over the edges e with dst e = n of x(src e, ·) ) / max( number of such edges, 1 ).
  On the host this is: the source indices normalised (a negative one has the number of source rows added), a gather
  of whole rows of x, an accumulating scatter of those rows into an array of zeros at the destination indices, an
  accumulating scatter of ones into a vector of zeros for the count, the maximum of the count with one, and a quotient.
  Both programs apply exactly these operations; here they are written once, for the three relations' sizes
  (50000 drug rows, 25000 disease rows, 300000 edges), so that each program's text folds into the same function and
  the mean itself never has to be opened to compare the programs.
-/
import proofs.«165452_j57363583205826_1_alg».proof.Proof.Gen.ReferenceIdeal
import Idealize.ShloMosaic.PureOps.Ideal

noncomputable section

namespace Cert.Means

open Idealize.ShloMosaic Cert.ReferenceIdeal Cert.ReferenceIdeal.Facts₀

/-- An edge-index vector. -/
abbrev EdgeVec := (⟨S300000, .i32⟩ : BufTy).Contents (Elt Ideal)
/-- An edge-index column. -/
abbrev EdgeCol := (⟨S300000x1, .i32⟩ : BufTy).Contents (Elt Ideal)
abbrev Drug := (⟨S50000x256, .f32⟩ : BufTy).Contents (Elt Ideal)
abbrev Dis := (⟨S25000x256, .f32⟩ : BufTy).Contents (Elt Ideal)

/-- An index vector as a column. -/
def col (d : EdgeVec) : EdgeCol := broadcastInDim S300000x1 ![0] bcast_S300000_S300000x1_0 d

/-- Source indices into 50000 rows, a negative one wrapped, as a column. -/
def srcCol50 (s : EdgeVec) : EdgeCol :=
  col (select (cmpi .slt s (broadcastInDim S300000 ![] bcast_S_S300000 (constantI S_ 32 0#32)))
    (addi s (broadcastInDim S300000 ![] bcast_S_S300000 (constantI S_ 32 50000#32))) s)

/-- Source indices into 25000 rows, a negative one wrapped, as a column. -/
def srcCol25 (s : EdgeVec) : EdgeCol :=
  col (select (cmpi .slt s (broadcastInDim S300000 ![] bcast_S_S300000 (constantI S_ 32 0#32)))
    (addi s (broadcastInDim S300000 ![] bcast_S_S300000 (constantI S_ 32 25000#32))) s)

/-- The vector of ones the count scatters. -/
def ones : (⟨S300000, .f32⟩ : BufTy).Contents (Elt Ideal) :=
  broadcastInDim S300000 ![] bcast_S_S300000 (constant (F := Ideal) S_ .f32 0x3F800000#32)

/-- How many edges end at each of 25000 rows. -/
def cnt25 (d : EdgeVec) : (⟨S25000, .f32⟩ : BufTy).Contents (Elt Ideal) :=
  Host.scatterAdd scatter_S25000_S300000x1_S300000_n_0_0_1
    (broadcastInDim S25000 ![] bcast_S_S25000 (constant (F := Ideal) S_ .f32 0x00000000#32)) (col d) ones

/-- How many edges end at each of 50000 rows. -/
def cnt50 (d : EdgeVec) : (⟨S50000, .f32⟩ : BufTy).Contents (Elt Ideal) :=
  Host.scatterAdd scatter_S50000_S300000x1_S300000_n_0_0_1
    (broadcastInDim S50000 ![] bcast_S_S50000 (constant (F := Ideal) S_ .f32 0x00000000#32)) (col d) ones

/-- The divisor max(count, 1), spread along the rows of a 25000 × 256 array. -/
def den25 (d : EdgeVec) : Dis :=
  broadcastInDim S25000x256 ![0, 1] bcast_S25000x1_S25000x256_0_1
    (broadcastInDim S25000x1 ![0] bcast_S25000_S25000x1_0
      (maximumf (cnt25 d) (broadcastInDim S25000 ![] bcast_S_S25000 (constant (F := Ideal) S_ .f32 0x3F800000#32))))

/-- The divisor max(count, 1), spread along the rows of a 50000 × 256 array. -/
def den50 (d : EdgeVec) : Drug :=
  broadcastInDim S50000x256 ![0, 1] bcast_S50000x1_S50000x256_0_1
    (broadcastInDim S50000x1 ![0] bcast_S50000_S50000x1_0
      (maximumf (cnt50 d) (broadcastInDim S50000 ![] bcast_S_S50000 (constant (F := Ideal) S_ .f32 0x3F800000#32))))

/-- Drug features averaged onto disease rows. -/
def meanDD (x : Drug) (s d : EdgeVec) : Dis :=
  Host.divf (Host.scatterAdd scatter_S25000x256_S300000x1_S300000x256_1_0_0_1
      (broadcastInDim S25000x256 ![] bcast_S_S25000x256 (constant (F := Ideal) S_ .f32 0x00000000#32)) (col d)
      (Host.gather gather_S50000x256_S300000x1_S300000x256_1_0_n_n_0_1_1256 x (srcCol50 s)))
    (den25 d)

/-- Disease features averaged onto drug rows. -/
def meanSD (x : Dis) (s d : EdgeVec) : Drug :=
  Host.divf (Host.scatterAdd scatter_S50000x256_S300000x1_S300000x256_1_0_0_1
      (broadcastInDim S50000x256 ![] bcast_S_S50000x256 (constant (F := Ideal) S_ .f32 0x00000000#32)) (col d)
      (Host.gather gather_S25000x256_S300000x1_S300000x256_1_0_n_n_0_1_1256 x (srcCol25 s)))
    (den50 d)

/-- Drug features averaged onto drug rows. -/
def meanDR (x : Drug) (s d : EdgeVec) : Drug :=
  Host.divf (Host.scatterAdd scatter_S50000x256_S300000x1_S300000x256_1_0_0_1
      (broadcastInDim S50000x256 ![] bcast_S_S50000x256 (constant (F := Ideal) S_ .f32 0x00000000#32)) (col d)
      (Host.gather gather_S50000x256_S300000x1_S300000x256_1_0_n_n_0_1_1256 x (srcCol50 s)))
    (den50 d)

end Cert.Means

end
-- ==== Proof.KHost0.lean ====
/-
  The host side of the fused program, first stretch.

  Before the first kernel region the host computes, from the launch memory's argument arrays, the three neighbour
  means of the first layer (drug features averaged onto disease rows, disease features onto drug rows, drug features
  onto drug rows), cuts the first layer's weight and bias slices out of the stacked parameters, and converts the
  region's operands to the narrower float type — which at the ideal values changes nothing. This module reads the five
  operand arrays of the first region (the disease-row layer) as functions of the argument arrays: the mean of the
  drug features over the drug→disease edges, the disease features themselves, the neighbour and self weight slices
  of relation 0 of layer 0, and the bias slice as a one-row matrix.

  Each read holds for an arbitrary valuation of the buffers at the stretch's start, and is then taken at the launch
  memory.

-/
import proofs.«165452_j57363583205826_1_alg».proof.Proof.Gen.KernelIdeal.Frame
import proofs.«165452_j57363583205826_1_alg».proof.Proof.Means
import proofs.«165452_j57363583205826_1_alg».proof.Proof.Gen.ReferenceIdeal.Read

import Idealize.ShloMosaic.Lib.StableHlo.Run

noncomputable section

namespace Cert.KernelIdeal.HostSide

open Idealize.ShloMosaic Idealize.ShloMosaic.TcCoe Idealize.ShloMosaic.StableHlo Idealize.SL.Sem
open Cert.KernelIdeal Cert.KernelIdeal.Gen Cert.ReferenceIdeal.Read

/-- An array of the ideal tier's values of a given shape and element type. -/
abbrev Arr (s : Shape) (e : EltTy) : Type := (⟨s, e⟩ : BufTy).Contents (Elt Ideal)

/-- At the ideal tier a narrowing conversion changes nothing. -/
theorem truncf_bf16_id (s : Shape) (x : FVec Ideal s .f32) :
    @Eq (s.Idx → EReal) (truncf (F := Ideal) .bf16 x bitsLt_bf16_f32) x := rfl

section Stretch

variable (W : Valuation τ sig (Elt Ideal))

set_option maxRecDepth 8192 in
set_option maxHeartbeats 40000000 in
/-- The first region's five operands after the first stretch, from any starting contents: the mean over the
    drug→disease edges, the disease features, the two weight slices and the bias row. -/
theorem ops0_region0 :
    (@Eq (Arr S25000x256 .bf16) (StableHlo.after (hostOps0 (F := Ideal)) W (Proc.devRef .tc main_v77)) (Cert.Means.meanDD (W (Proc.devRef .tc main_arg0)) (W (Proc.devRef .tc main_arg5)) (W (Proc.devRef .tc main_arg6))))
    ∧ (@Eq (Arr S25000x256 .bf16) (StableHlo.after (hostOps0 (F := Ideal)) W (Proc.devRef .tc main_v78)) ((W (Proc.devRef .tc main_arg1))))
    ∧ (@Eq (Arr S256x256 .bf16) (StableHlo.after (hostOps0 (F := Ideal)) W (Proc.devRef .tc main_v79)) (val_main_v1 (F := Ideal) (W (Proc.devRef .tc main_arg2))))
    ∧ (@Eq (Arr S256x256 .bf16) (StableHlo.after (hostOps0 (F := Ideal)) W (Proc.devRef .tc main_v80)) (val_main_v3 (F := Ideal) (W (Proc.devRef .tc main_arg3))))
    ∧ (@Eq (Arr S1x256 .f32) (StableHlo.after (hostOps0 (F := Ideal)) W (Proc.devRef .tc main_v81)) (shapeCast S1x256 (val_main_v5 (F := Ideal) (W (Proc.devRef .tc main_arg4))) shapeCasts_S256_S1x256)) := by
  after_results_simp
  refine ⟨(truncf_bf16_id _ _).trans ?_, (truncf_bf16_id _ _).trans ?_, (truncf_bf16_id _ _).trans ?_,
    (truncf_bf16_id _ _).trans ?_, ?_⟩ <;> rfl

end Stretch

variable (m : (ℓ : Loc nD τ sig) → Buf (Elt Ideal) ℓ) (ρ : Dev nD → PrngReg) (c : Dev nD)

/-! ## The launch memory's argument arrays and the two earlier results the later stretches read -/

/-- The drug features. -/
abbrev A0 : Arr S50000x256 .f32 := m ((c : Thread nD τ).loc main_arg0)
/-- The disease features. -/
abbrev A1 : Arr S25000x256 .f32 := m ((c : Thread nD τ).loc main_arg1)
/-- The neighbour weights, both layers, the three relations. -/
abbrev A2 : Arr S2x3x256x256 .f32 := m ((c : Thread nD τ).loc main_arg2)
/-- The self weights, both layers, the three relations. -/
abbrev A3 : Arr S2x3x256x256 .f32 := m ((c : Thread nD τ).loc main_arg3)
/-- The biases, both layers, the three relations. -/
abbrev A4 : Arr S2x3x256 .f32 := m ((c : Thread nD τ).loc main_arg4)
/-- The six edge-index vectors: sources and destinations of the three relations. -/
abbrev A5 : Arr S300000 .i32 := m ((c : Thread nD τ).loc main_arg5)
abbrev A6 : Arr S300000 .i32 := m ((c : Thread nD τ).loc main_arg6)
abbrev A7 : Arr S300000 .i32 := m ((c : Thread nD τ).loc main_arg7)
abbrev A8 : Arr S300000 .i32 := m ((c : Thread nD τ).loc main_arg8)
abbrev A9 : Arr S300000 .i32 := m ((c : Thread nD τ).loc main_arg9)
abbrev A10 : Arr S300000 .i32 := m ((c : Thread nD τ).loc main_arg10)
/-- The disease rows after the first layer: the first region's result. -/
abbrev S1 : Arr S25000x256 .f32 := W2 m ρ c (Proc.devRef .tc main_v82)
/-- The drug rows after the first layer: the second region's result. -/
abbrev D1 : Arr S50000x256 .f32 := W4 m ρ c (Proc.devRef .tc main_v90)

/-! ## The first region's operands when it is entered -/

/-- The mean of the drug features over the drug→disease edges. -/
theorem V1_v77 : @Eq (Arr S25000x256 .bf16) (V1 m ρ c main_v77) (Cert.Means.meanDD (A0 m c) (A5 m c) (A6 m c)) :=
  (ops0_region0 (W0 m ρ c)).1
/-- The disease features. -/
theorem V1_v78 : @Eq (Arr S25000x256 .bf16) (V1 m ρ c main_v78) (A1 m c) :=
  (ops0_region0 (W0 m ρ c)).2.1
/-- The neighbour weights of layer 0, relation 0. -/
theorem V1_v79 : @Eq (Arr S256x256 .bf16) (V1 m ρ c main_v79) (val_main_v1 (F := Ideal) (A2 m c)) :=
  (ops0_region0 (W0 m ρ c)).2.2.1
/-- The self weights of layer 0, relation 0. -/
theorem V1_v80 : @Eq (Arr S256x256 .bf16) (V1 m ρ c main_v80) (val_main_v3 (F := Ideal) (A3 m c)) :=
  (ops0_region0 (W0 m ρ c)).2.2.2.1
/-- The bias of layer 0, relation 0, as a one-row matrix. -/
theorem V1_v81 : @Eq (Arr S1x256 .f32) (V1 m ρ c main_v81)
    (shapeCast S1x256 (val_main_v5 (F := Ideal) (A4 m c)) shapeCasts_S256_S1x256) :=
  (ops0_region0 (W0 m ρ c)).2.2.2.2

end Cert.KernelIdeal.HostSide

end
-- ==== Proof.KHostArgs.lean ====
/-
  The host side of the fused program: what no host operation and no kernel region writes.

  The eleven argument arrays are written by nothing: the host operations write fresh buffers only, and a kernel
  region writes its own result. So at every boundary up to the entry of the second layer's host stretch each
  argument's buffer still holds its launch contents. Likewise the first region's result (the disease rows after the
  first layer) is written by nothing between its region's exit and the second region's exit.

  Each fact is first stated for an arbitrary valuation at a stretch's start (no operation of the stretch has the
  buffer as its result), then carried across the region boundaries one at a time.

-/
import proofs.«165452_j57363583205826_1_alg».proof.Proof.Gen.KernelIdeal.Frame
import proofs.«165452_j57363583205826_1_alg».proof.Proof.Means
import proofs.«165452_j57363583205826_1_alg».proof.Proof.Gen.ReferenceIdeal.Read
import proofs.«165452_j57363583205826_1_alg».proof.Proof.KHost0
import Idealize.ShloMosaic.Lib.StableHlo.Run

noncomputable section

namespace Cert.KernelIdeal.HostSide

open Idealize.ShloMosaic Idealize.ShloMosaic.TcCoe Idealize.ShloMosaic.StableHlo Idealize.SL.Sem
open Cert.KernelIdeal Cert.KernelIdeal.Gen Cert.ReferenceIdeal.Read

section Stretch

variable (W : Valuation τ sig (Elt Ideal))

set_option maxRecDepth 8192 in
set_option maxHeartbeats 40000000 in
/-- No operation of the first stretch writes an argument. -/
theorem ops0_keep_args :
    (@Eq (Arr S50000x256 .f32) (StableHlo.after (hostOps0 (F := Ideal)) W (Proc.devRef .tc main_arg0)) (W (Proc.devRef .tc main_arg0)))
    ∧ (@Eq (Arr S25000x256 .f32) (StableHlo.after (hostOps0 (F := Ideal)) W (Proc.devRef .tc main_arg1)) (W (Proc.devRef .tc main_arg1)))
    ∧ (@Eq (Arr S2x3x256x256 .f32) (StableHlo.after (hostOps0 (F := Ideal)) W (Proc.devRef .tc main_arg2)) (W (Proc.devRef .tc main_arg2)))
    ∧ (@Eq (Arr S2x3x256x256 .f32) (StableHlo.after (hostOps0 (F := Ideal)) W (Proc.devRef .tc main_arg3)) (W (Proc.devRef .tc main_arg3)))
    ∧ (@Eq (Arr S2x3x256 .f32) (StableHlo.after (hostOps0 (F := Ideal)) W (Proc.devRef .tc main_arg4)) (W (Proc.devRef .tc main_arg4)))
    ∧ (@Eq (Arr S300000 .i32) (StableHlo.after (hostOps0 (F := Ideal)) W (Proc.devRef .tc main_arg5)) (W (Proc.devRef .tc main_arg5)))
    ∧ (@Eq (Arr S300000 .i32) (StableHlo.after (hostOps0 (F := Ideal)) W (Proc.devRef .tc main_arg6)) (W (Proc.devRef .tc main_arg6)))
    ∧ (@Eq (Arr S300000 .i32) (StableHlo.after (hostOps0 (F := Ideal)) W (Proc.devRef .tc main_arg7)) (W (Proc.devRef .tc main_arg7)))
    ∧ (@Eq (Arr S300000 .i32) (StableHlo.after (hostOps0 (F := Ideal)) W (Proc.devRef .tc main_arg8)) (W (Proc.devRef .tc main_arg8)))
    ∧ (@Eq (Arr S300000 .i32) (StableHlo.after (hostOps0 (F := Ideal)) W (Proc.devRef .tc main_arg9)) (W (Proc.devRef .tc main_arg9)))
    ∧ (@Eq (Arr S300000 .i32) (StableHlo.after (hostOps0 (F := Ideal)) W (Proc.devRef .tc main_arg10)) (W (Proc.devRef .tc main_arg10))) := by
  after_results_simp <;> (repeat' apply And.intro) <;> trivial

set_option maxHeartbeats 4000000 in
/-- No operation of the second stretch writes an argument or the first region's result. -/
theorem ops1_keep :
    (@Eq (Arr S50000x256 .f32) (StableHlo.after (hostOps1 (F := Ideal)) W (Proc.devRef .tc main_arg0)) (W (Proc.devRef .tc main_arg0)))
    ∧ (@Eq (Arr S25000x256 .f32) (StableHlo.after (hostOps1 (F := Ideal)) W (Proc.devRef .tc main_arg1)) (W (Proc.devRef .tc main_arg1)))
    ∧ (@Eq (Arr S2x3x256x256 .f32) (StableHlo.after (hostOps1 (F := Ideal)) W (Proc.devRef .tc main_arg2)) (W (Proc.devRef .tc main_arg2)))
    ∧ (@Eq (Arr S2x3x256x256 .f32) (StableHlo.after (hostOps1 (F := Ideal)) W (Proc.devRef .tc main_arg3)) (W (Proc.devRef .tc main_arg3)))
    ∧ (@Eq (Arr S2x3x256 .f32) (StableHlo.after (hostOps1 (F := Ideal)) W (Proc.devRef .tc main_arg4)) (W (Proc.devRef .tc main_arg4)))
    ∧ (@Eq (Arr S300000 .i32) (StableHlo.after (hostOps1 (F := Ideal)) W (Proc.devRef .tc main_arg5)) (W (Proc.devRef .tc main_arg5)))
    ∧ (@Eq (Arr S300000 .i32) (StableHlo.after (hostOps1 (F := Ideal)) W (Proc.devRef .tc main_arg6)) (W (Proc.devRef .tc main_arg6)))
    ∧ (@Eq (Arr S300000 .i32) (StableHlo.after (hostOps1 (F := Ideal)) W (Proc.devRef .tc main_arg7)) (W (Proc.devRef .tc main_arg7)))
    ∧ (@Eq (Arr S300000 .i32) (StableHlo.after (hostOps1 (F := Ideal)) W (Proc.devRef .tc main_arg8)) (W (Proc.devRef .tc main_arg8)))
    ∧ (@Eq (Arr S300000 .i32) (StableHlo.after (hostOps1 (F := Ideal)) W (Proc.devRef .tc main_arg9)) (W (Proc.devRef .tc main_arg9)))
    ∧ (@Eq (Arr S300000 .i32) (StableHlo.after (hostOps1 (F := Ideal)) W (Proc.devRef .tc main_arg10)) (W (Proc.devRef .tc main_arg10)))
    ∧ (@Eq (Arr S25000x256 .f32) (StableHlo.after (hostOps1 (F := Ideal)) W (Proc.devRef .tc main_v82)) (W (Proc.devRef .tc main_v82))) := by
  after_results_simp <;> (repeat' apply And.intro) <;> trivial

end Stretch

variable (m : (ℓ : Loc nD τ sig) → Buf (Elt Ideal) ℓ) (ρ : Dev nD → PrngReg) (c : Dev nD)

/-! ## Each argument at the first four boundaries -/

theorem W1_arg0 : @Eq (Arr S50000x256 .f32) (W1 m ρ c (Proc.devRef .tc main_arg0)) (A0 m c) :=
  (ops0_keep_args (W0 m ρ c)).1
theorem W2_arg0 : @Eq (Arr S50000x256 .f32) (W2 m ρ c (Proc.devRef .tc main_arg0)) (A0 m c) :=
  (W2_of_ne m ρ c main_arg0 (by decide)).trans (W1_arg0 m ρ c)
theorem W3_arg0 : @Eq (Arr S50000x256 .f32) (W3 m ρ c (Proc.devRef .tc main_arg0)) (A0 m c) :=
  ((ops1_keep (W2 m ρ c)).1).trans (W2_arg0 m ρ c)
theorem W4_arg0 : @Eq (Arr S50000x256 .f32) (W4 m ρ c (Proc.devRef .tc main_arg0)) (A0 m c) :=
  (W4_of_ne m ρ c main_arg0 (by decide)).trans (W3_arg0 m ρ c)

theorem W1_arg1 : @Eq (Arr S25000x256 .f32) (W1 m ρ c (Proc.devRef .tc main_arg1)) (A1 m c) :=
  (ops0_keep_args (W0 m ρ c)).2.1
theorem W2_arg1 : @Eq (Arr S25000x256 .f32) (W2 m ρ c (Proc.devRef .tc main_arg1)) (A1 m c) :=
  (W2_of_ne m ρ c main_arg1 (by decide)).trans (W1_arg1 m ρ c)
theorem W3_arg1 : @Eq (Arr S25000x256 .f32) (W3 m ρ c (Proc.devRef .tc main_arg1)) (A1 m c) :=
  ((ops1_keep (W2 m ρ c)).2.1).trans (W2_arg1 m ρ c)
theorem W4_arg1 : @Eq (Arr S25000x256 .f32) (W4 m ρ c (Proc.devRef .tc main_arg1)) (A1 m c) :=
  (W4_of_ne m ρ c main_arg1 (by decide)).trans (W3_arg1 m ρ c)

theorem W1_arg2 : @Eq (Arr S2x3x256x256 .f32) (W1 m ρ c (Proc.devRef .tc main_arg2)) (A2 m c) :=
  (ops0_keep_args (W0 m ρ c)).2.2.1
theorem W2_arg2 : @Eq (Arr S2x3x256x256 .f32) (W2 m ρ c (Proc.devRef .tc main_arg2)) (A2 m c) :=
  (W2_of_ne m ρ c main_arg2 (by decide)).trans (W1_arg2 m ρ c)
theorem W3_arg2 : @Eq (Arr S2x3x256x256 .f32) (W3 m ρ c (Proc.devRef .tc main_arg2)) (A2 m c) :=
  ((ops1_keep (W2 m ρ c)).2.2.1).trans (W2_arg2 m ρ c)
theorem W4_arg2 : @Eq (Arr S2x3x256x256 .f32) (W4 m ρ c (Proc.devRef .tc main_arg2)) (A2 m c) :=
  (W4_of_ne m ρ c main_arg2 (by decide)).trans (W3_arg2 m ρ c)

theorem W1_arg3 : @Eq (Arr S2x3x256x256 .f32) (W1 m ρ c (Proc.devRef .tc main_arg3)) (A3 m c) :=
  (ops0_keep_args (W0 m ρ c)).2.2.2.1
theorem W2_arg3 : @Eq (Arr S2x3x256x256 .f32) (W2 m ρ c (Proc.devRef .tc main_arg3)) (A3 m c) :=
  (W2_of_ne m ρ c main_arg3 (by decide)).trans (W1_arg3 m ρ c)
theorem W3_arg3 : @Eq (Arr S2x3x256x256 .f32) (W3 m ρ c (Proc.devRef .tc main_arg3)) (A3 m c) :=
  ((ops1_keep (W2 m ρ c)).2.2.2.1).trans (W2_arg3 m ρ c)
theorem W4_arg3 : @Eq (Arr S2x3x256x256 .f32) (W4 m ρ c (Proc.devRef .tc main_arg3)) (A3 m c) :=
  (W4_of_ne m ρ c main_arg3 (by decide)).trans (W3_arg3 m ρ c)

theorem W1_arg4 : @Eq (Arr S2x3x256 .f32) (W1 m ρ c (Proc.devRef .tc main_arg4)) (A4 m c) :=
  (ops0_keep_args (W0 m ρ c)).2.2.2.2.1
theorem W2_arg4 : @Eq (Arr S2x3x256 .f32) (W2 m ρ c (Proc.devRef .tc main_arg4)) (A4 m c) :=
  (W2_of_ne m ρ c main_arg4 (by decide)).trans (W1_arg4 m ρ c)
theorem W3_arg4 : @Eq (Arr S2x3x256 .f32) (W3 m ρ c (Proc.devRef .tc main_arg4)) (A4 m c) :=
  ((ops1_keep (W2 m ρ c)).2.2.2.2.1).trans (W2_arg4 m ρ c)
theorem W4_arg4 : @Eq (Arr S2x3x256 .f32) (W4 m ρ c (Proc.devRef .tc main_arg4)) (A4 m c) :=
  (W4_of_ne m ρ c main_arg4 (by decide)).trans (W3_arg4 m ρ c)

theorem W1_arg5 : @Eq (Arr S300000 .i32) (W1 m ρ c (Proc.devRef .tc main_arg5)) (A5 m c) :=
  (ops0_keep_args (W0 m ρ c)).2.2.2.2.2.1
theorem W2_arg5 : @Eq (Arr S300000 .i32) (W2 m ρ c (Proc.devRef .tc main_arg5)) (A5 m c) :=
  (W2_of_ne m ρ c main_arg5 (by decide)).trans (W1_arg5 m ρ c)
theorem W3_arg5 : @Eq (Arr S300000 .i32) (W3 m ρ c (Proc.devRef .tc main_arg5)) (A5 m c) :=
  ((ops1_keep (W2 m ρ c)).2.2.2.2.2.1).trans (W2_arg5 m ρ c)
theorem W4_arg5 : @Eq (Arr S300000 .i32) (W4 m ρ c (Proc.devRef .tc main_arg5)) (A5 m c) :=
  (W4_of_ne m ρ c main_arg5 (by decide)).trans (W3_arg5 m ρ c)

theorem W1_arg6 : @Eq (Arr S300000 .i32) (W1 m ρ c (Proc.devRef .tc main_arg6)) (A6 m c) :=
  (ops0_keep_args (W0 m ρ c)).2.2.2.2.2.2.1
theorem W2_arg6 : @Eq (Arr S300000 .i32) (W2 m ρ c (Proc.devRef .tc main_arg6)) (A6 m c) :=
  (W2_of_ne m ρ c main_arg6 (by decide)).trans (W1_arg6 m ρ c)
theorem W3_arg6 : @Eq (Arr S300000 .i32) (W3 m ρ c (Proc.devRef .tc main_arg6)) (A6 m c) :=
  ((ops1_keep (W2 m ρ c)).2.2.2.2.2.2.1).trans (W2_arg6 m ρ c)
theorem W4_arg6 : @Eq (Arr S300000 .i32) (W4 m ρ c (Proc.devRef .tc main_arg6)) (A6 m c) :=
  (W4_of_ne m ρ c main_arg6 (by decide)).trans (W3_arg6 m ρ c)

theorem W1_arg7 : @Eq (Arr S300000 .i32) (W1 m ρ c (Proc.devRef .tc main_arg7)) (A7 m c) :=
  (ops0_keep_args (W0 m ρ c)).2.2.2.2.2.2.2.1
theorem W2_arg7 : @Eq (Arr S300000 .i32) (W2 m ρ c (Proc.devRef .tc main_arg7)) (A7 m c) :=
  (W2_of_ne m ρ c main_arg7 (by decide)).trans (W1_arg7 m ρ c)
theorem W3_arg7 : @Eq (Arr S300000 .i32) (W3 m ρ c (Proc.devRef .tc main_arg7)) (A7 m c) :=
  ((ops1_keep (W2 m ρ c)).2.2.2.2.2.2.2.1).trans (W2_arg7 m ρ c)
theorem W4_arg7 : @Eq (Arr S300000 .i32) (W4 m ρ c (Proc.devRef .tc main_arg7)) (A7 m c) :=
  (W4_of_ne m ρ c main_arg7 (by decide)).trans (W3_arg7 m ρ c)

theorem W1_arg8 : @Eq (Arr S300000 .i32) (W1 m ρ c (Proc.devRef .tc main_arg8)) (A8 m c) :=
  (ops0_keep_args (W0 m ρ c)).2.2.2.2.2.2.2.2.1
theorem W2_arg8 : @Eq (Arr S300000 .i32) (W2 m ρ c (Proc.devRef .tc main_arg8)) (A8 m c) :=
  (W2_of_ne m ρ c main_arg8 (by decide)).trans (W1_arg8 m ρ c)
theorem W3_arg8 : @Eq (Arr S300000 .i32) (W3 m ρ c (Proc.devRef .tc main_arg8)) (A8 m c) :=
  ((ops1_keep (W2 m ρ c)).2.2.2.2.2.2.2.2.1).trans (W2_arg8 m ρ c)
theorem W4_arg8 : @Eq (Arr S300000 .i32) (W4 m ρ c (Proc.devRef .tc main_arg8)) (A8 m c) :=
  (W4_of_ne m ρ c main_arg8 (by decide)).trans (W3_arg8 m ρ c)

theorem W1_arg9 : @Eq (Arr S300000 .i32) (W1 m ρ c (Proc.devRef .tc main_arg9)) (A9 m c) :=
  (ops0_keep_args (W0 m ρ c)).2.2.2.2.2.2.2.2.2.1
theorem W2_arg9 : @Eq (Arr S300000 .i32) (W2 m ρ c (Proc.devRef .tc main_arg9)) (A9 m c) :=
  (W2_of_ne m ρ c main_arg9 (by decide)).trans (W1_arg9 m ρ c)
theorem W3_arg9 : @Eq (Arr S300000 .i32) (W3 m ρ c (Proc.devRef .tc main_arg9)) (A9 m c) :=
  ((ops1_keep (W2 m ρ c)).2.2.2.2.2.2.2.2.2.1).trans (W2_arg9 m ρ c)
theorem W4_arg9 : @Eq (Arr S300000 .i32) (W4 m ρ c (Proc.devRef .tc main_arg9)) (A9 m c) :=
  (W4_of_ne m ρ c main_arg9 (by decide)).trans (W3_arg9 m ρ c)

theorem W1_arg10 : @Eq (Arr S300000 .i32) (W1 m ρ c (Proc.devRef .tc main_arg10)) (A10 m c) :=
  (ops0_keep_args (W0 m ρ c)).2.2.2.2.2.2.2.2.2.2
theorem W2_arg10 : @Eq (Arr S300000 .i32) (W2 m ρ c (Proc.devRef .tc main_arg10)) (A10 m c) :=
  (W2_of_ne m ρ c main_arg10 (by decide)).trans (W1_arg10 m ρ c)
theorem W3_arg10 : @Eq (Arr S300000 .i32) (W3 m ρ c (Proc.devRef .tc main_arg10)) (A10 m c) :=
  ((ops1_keep (W2 m ρ c)).2.2.2.2.2.2.2.2.2.2.1).trans (W2_arg10 m ρ c)
theorem W4_arg10 : @Eq (Arr S300000 .i32) (W4 m ρ c (Proc.devRef .tc main_arg10)) (A10 m c) :=
  (W4_of_ne m ρ c main_arg10 (by decide)).trans (W3_arg10 m ρ c)

/-! ## The first region's result up to the second region's exit -/

theorem W3_v82 : @Eq (Arr S25000x256 .f32) (W3 m ρ c (Proc.devRef .tc main_v82)) (S1 m ρ c) :=
  (ops1_keep (W2 m ρ c)).2.2.2.2.2.2.2.2.2.2.2
theorem W4_v82 : @Eq (Arr S25000x256 .f32) (W4 m ρ c (Proc.devRef .tc main_v82)) (S1 m ρ c) :=
  (W4_of_ne m ρ c main_v82 (by decide)).trans (W3_v82 m ρ c)

end Cert.KernelIdeal.HostSide

end
-- ==== Proof.KHost1.lean ====
/-
  The host side of the fused program: the second region's operands.

  The second kernel region computes the drug rows of the first layer. Its seven operands are the means of the
  disease features over the disease→drug edges and of the drug features over the drug→drug edges, the drug features
  themselves, the neighbour weight slices of the two relations that end at drug rows, and the self weights and the
  biases of those two relations added together (the bias as a one-row matrix). The first stretch of host operations
  computes the means, the slices and the sums from the argument arrays; the first region, which runs in between,
  owns none of those buffers; the second stretch only converts them to the narrower float type, which at the ideal
  tier changes nothing.

-/
import proofs.«165452_j57363583205826_1_alg».proof.Proof.Gen.KernelIdeal.Frame
import proofs.«165452_j57363583205826_1_alg».proof.Proof.Means
import proofs.«165452_j57363583205826_1_alg».proof.Proof.Gen.ReferenceIdeal.Read
import proofs.«165452_j57363583205826_1_alg».proof.Proof.KHost0
import proofs.«165452_j57363583205826_1_alg».proof.Proof.KHostArgs
import Idealize.ShloMosaic.Lib.StableHlo.Run

noncomputable section

namespace Cert.KernelIdeal.HostSide

open Idealize.ShloMosaic Idealize.ShloMosaic.TcCoe Idealize.ShloMosaic.StableHlo Idealize.SL.Sem
open Cert.KernelIdeal Cert.KernelIdeal.Gen Cert.ReferenceIdeal.Read

section Stretch

variable (W : Valuation τ sig (Elt Ideal))

set_option maxRecDepth 8192 in
set_option maxHeartbeats 40000000 in
/-- What the first stretch leaves for the second region, from any starting contents: the means over the
    disease→drug and drug→drug edges, the two neighbour weight slices, and the self weights and biases of the two
    relations ending at drug rows, added. -/
theorem ops0_region1 :
    (@Eq (Arr S50000x256 .f32) (StableHlo.after (hostOps0 (F := Ideal)) W (Proc.devRef .tc main_v37)) (Cert.Means.meanSD (W (Proc.devRef .tc main_arg1)) (W (Proc.devRef .tc main_arg7)) (W (Proc.devRef .tc main_arg8))))
    ∧ (@Eq (Arr S50000x256 .f32) (StableHlo.after (hostOps0 (F := Ideal)) W (Proc.devRef .tc main_v56)) (Cert.Means.meanDR (W (Proc.devRef .tc main_arg0)) (W (Proc.devRef .tc main_arg9)) (W (Proc.devRef .tc main_arg10))))
    ∧ (@Eq (Arr S256x256 .f32) (StableHlo.after (hostOps0 (F := Ideal)) W (Proc.devRef .tc main_v64)) (val_main_v32 (F := Ideal) (W (Proc.devRef .tc main_arg2))))
    ∧ (@Eq (Arr S256x256 .f32) (StableHlo.after (hostOps0 (F := Ideal)) W (Proc.devRef .tc main_v66)) (val_main_v63 (F := Ideal) (W (Proc.devRef .tc main_arg2))))
    ∧ (@Eq (Arr S256x256 .f32) (StableHlo.after (hostOps0 (F := Ideal)) W (Proc.devRef .tc main_v71)) (addf (F := Ideal) (s := S256x256) (φ := .f32) (val_main_v34 (F := Ideal) (W (Proc.devRef .tc main_arg3))) (val_main_v65 (F := Ideal) (W (Proc.devRef .tc main_arg3)))))
    ∧ (@Eq (Arr S256 .f32) (StableHlo.after (hostOps0 (F := Ideal)) W (Proc.devRef .tc main_v76)) (addf (F := Ideal) (s := S256) (φ := .f32) (val_main_v36 (F := Ideal) (W (Proc.devRef .tc main_arg4))) (val_main_v67 (F := Ideal) (W (Proc.devRef .tc main_arg4))))) := by
  after_results_simp
  refine ⟨?_, ?_, ?_, ?_, ?_, ?_⟩ <;> rfl

set_option maxHeartbeats 4000000 in
/-- The second stretch converts six arrays and lays the bias out as a one-row matrix. -/
theorem ops1_reads :
    (@Eq (Arr S50000x256 .bf16) (StableHlo.after (hostOps1 (F := Ideal)) W (Proc.devRef .tc main_v83)) ((W (Proc.devRef .tc main_v37))))
    ∧ (@Eq (Arr S50000x256 .bf16) (StableHlo.after (hostOps1 (F := Ideal)) W (Proc.devRef .tc main_v84)) ((W (Proc.devRef .tc main_v56))))
    ∧ (@Eq (Arr S50000x256 .bf16) (StableHlo.after (hostOps1 (F := Ideal)) W (Proc.devRef .tc main_v85)) ((W (Proc.devRef .tc main_arg0))))
    ∧ (@Eq (Arr S256x256 .bf16) (StableHlo.after (hostOps1 (F := Ideal)) W (Proc.devRef .tc main_v86)) ((W (Proc.devRef .tc main_v64))))
    ∧ (@Eq (Arr S256x256 .bf16) (StableHlo.after (hostOps1 (F := Ideal)) W (Proc.devRef .tc main_v87)) ((W (Proc.devRef .tc main_v66))))
    ∧ (@Eq (Arr S256x256 .bf16) (StableHlo.after (hostOps1 (F := Ideal)) W (Proc.devRef .tc main_v88)) ((W (Proc.devRef .tc main_v71))))
    ∧ (@Eq (Arr S1x256 .f32) (StableHlo.after (hostOps1 (F := Ideal)) W (Proc.devRef .tc main_v89)) (shapeCast S1x256 (W (Proc.devRef .tc main_v76)) shapeCasts_S256_S1x256)) := by
  after_results_simp
  refine ⟨(truncf_bf16_id _ _).trans ?_, (truncf_bf16_id _ _).trans ?_, (truncf_bf16_id _ _).trans ?_,
    (truncf_bf16_id _ _).trans ?_, (truncf_bf16_id _ _).trans ?_, (truncf_bf16_id _ _).trans ?_, ?_⟩ <;> rfl

end Stretch

variable (m : (ℓ : Loc nD τ sig) → Buf (Elt Ideal) ℓ) (ρ : Dev nD → PrngReg) (c : Dev nD)

/-! ## The second region's operands when it is entered

Each is what the second stretch reads from a buffer the first stretch wrote; the first region, between the two, owns
none of those buffers. -/

/-- The mean of the disease features over the disease→drug edges. -/
theorem V3_v83 : @Eq (Arr S50000x256 .bf16) (V3 m ρ c main_v83) (Cert.Means.meanSD (A1 m c) (A7 m c) (A8 m c)) := by
  refine ((ops1_reads (W2 m ρ c)).1).trans ?_
  refine (W2_of_ne m ρ c main_v37 (by decide)).trans ?_
  exact (ops0_region1 (W0 m ρ c)).1
/-- The mean of the drug features over the drug→drug edges. -/
theorem V3_v84 : @Eq (Arr S50000x256 .bf16) (V3 m ρ c main_v84) (Cert.Means.meanDR (A0 m c) (A9 m c) (A10 m c)) := by
  refine ((ops1_reads (W2 m ρ c)).2.1).trans ?_
  refine (W2_of_ne m ρ c main_v56 (by decide)).trans ?_
  exact (ops0_region1 (W0 m ρ c)).2.1
/-- The drug features. -/
theorem V3_v85 : @Eq (Arr S50000x256 .bf16) (V3 m ρ c main_v85) (A0 m c) := by
  refine ((ops1_reads (W2 m ρ c)).2.2.1).trans ?_
  exact W2_arg0 m ρ c
/-- The neighbour weights of layer 0, relation 1. -/
theorem V3_v86 : @Eq (Arr S256x256 .bf16) (V3 m ρ c main_v86) (val_main_v32 (F := Ideal) (A2 m c)) := by
  refine ((ops1_reads (W2 m ρ c)).2.2.2.1).trans ?_
  refine (W2_of_ne m ρ c main_v64 (by decide)).trans ?_
  exact (ops0_region1 (W0 m ρ c)).2.2.1
/-- The neighbour weights of layer 0, relation 2. -/
theorem V3_v87 : @Eq (Arr S256x256 .bf16) (V3 m ρ c main_v87) (val_main_v63 (F := Ideal) (A2 m c)) := by
  refine ((ops1_reads (W2 m ρ c)).2.2.2.2.1).trans ?_
  refine (W2_of_ne m ρ c main_v66 (by decide)).trans ?_
  exact (ops0_region1 (W0 m ρ c)).2.2.2.1
/-- The self weights of layer 0, relations 1 and 2, added. -/
theorem V3_v88 : @Eq (Arr S256x256 .bf16) (V3 m ρ c main_v88)
    (addf (F := Ideal) (s := S256x256) (φ := .f32) (val_main_v34 (F := Ideal) (A3 m c)) (val_main_v65 (F := Ideal) (A3 m c))) := by
  refine ((ops1_reads (W2 m ρ c)).2.2.2.2.2.1).trans ?_
  refine (W2_of_ne m ρ c main_v71 (by decide)).trans ?_
  exact (ops0_region1 (W0 m ρ c)).2.2.2.2.1
/-- The biases of layer 0, relations 1 and 2, added, as a one-row matrix. -/
theorem V3_v89 : @Eq (Arr S1x256 .f32) (V3 m ρ c main_v89)
    (shapeCast S1x256 (addf (F := Ideal) (s := S256) (φ := .f32) (val_main_v36 (F := Ideal) (A4 m c)) (val_main_v67 (F := Ideal) (A4 m c)))
      shapeCasts_S256_S1x256) := by
  refine ((ops1_reads (W2 m ρ c)).2.2.2.2.2.2).trans ?_
  refine congrArg (fun z : Arr S256 .f32 => shapeCast S1x256 z shapeCasts_S256_S1x256) ?_
  refine (W2_of_ne m ρ c main_v76 (by decide)).trans ?_
  exact (ops0_region1 (W0 m ρ c)).2.2.2.2.2

end Cert.KernelIdeal.HostSide

end
-- ==== Proof.KHost2.lean ====
/-
  The host side of the fused program, third stretch: what the third kernel region is entered with.

  Between the second and the third kernel region the host computes the three neighbour means of the second layer from
  the first layer's results (the disease rows the first region left, the drug rows the second region left) and the
  edge-index arguments, cuts the second layer's weight and bias slices out of the stacked parameters, and converts the
  third region's operands to the narrower float type — which at the ideal values changes nothing. This module reads
  the five operand arrays of the third region (the disease-row layer of the second layer): the mean of the drug rows
  over the drug→disease edges, the disease rows themselves, the neighbour and self weight slices of relation 0 of
  layer 1, and the bias slice as a one-row matrix.

  Each read is stated first for an arbitrary valuation of the buffers at the stretch's start, so that the term stays
  small, and then instantiated at what the second region leaves, where the arguments still hold their launch contents
  and the first region's result is untouched.
-/
import proofs.«165452_j57363583205826_1_alg».proof.Proof.Gen.KernelIdeal.Frame
import proofs.«165452_j57363583205826_1_alg».proof.Proof.Means
import proofs.«165452_j57363583205826_1_alg».proof.Proof.Gen.ReferenceIdeal.Read
import proofs.«165452_j57363583205826_1_alg».proof.Proof.KHost0
import proofs.«165452_j57363583205826_1_alg».proof.Proof.KHostArgs
import Idealize.ShloMosaic.Lib.StableHlo.Run

noncomputable section

namespace Cert.KernelIdeal.HostSide

open Idealize.ShloMosaic Idealize.ShloMosaic.TcCoe Idealize.ShloMosaic.StableHlo Idealize.SL.Sem
open Cert.KernelIdeal Cert.KernelIdeal.Gen Cert.ReferenceIdeal.Read

section Stretch

variable (W : Valuation τ sig (Elt Ideal))

set_option maxRecDepth 8192 in
set_option maxHeartbeats 40000000 in
/-- The third region's five operands after the third stretch, from any starting contents: the mean over the
    drug→disease edges of the drug rows, the disease rows, the two weight slices and the bias row. -/
theorem ops2_region2 :
    (@Eq (Arr S25000x256 .bf16) (StableHlo.after (hostOps2 (F := Ideal)) W (Proc.devRef .tc main_v168)) (Cert.Means.meanDD (W (Proc.devRef .tc main_v90)) (W (Proc.devRef .tc main_arg5)) (W (Proc.devRef .tc main_arg6))))
    ∧ (@Eq (Arr S25000x256 .bf16) (StableHlo.after (hostOps2 (F := Ideal)) W (Proc.devRef .tc main_v169)) ((W (Proc.devRef .tc main_v82))))
    ∧ (@Eq (Arr S256x256 .bf16) (StableHlo.after (hostOps2 (F := Ideal)) W (Proc.devRef .tc main_v170)) (val_main_v99 (F := Ideal) (W (Proc.devRef .tc main_arg2))))
    ∧ (@Eq (Arr S256x256 .bf16) (StableHlo.after (hostOps2 (F := Ideal)) W (Proc.devRef .tc main_v171)) (val_main_v101 (F := Ideal) (W (Proc.devRef .tc main_arg3))))
    ∧ (@Eq (Arr S1x256 .f32) (StableHlo.after (hostOps2 (F := Ideal)) W (Proc.devRef .tc main_v172)) (shapeCast S1x256 (val_main_v103 (F := Ideal) (W (Proc.devRef .tc main_arg4))) shapeCasts_S256_S1x256)) := by
  after_results_simp
  refine ⟨(truncf_bf16_id _ _).trans ?_, (truncf_bf16_id _ _).trans ?_, (truncf_bf16_id _ _).trans ?_,
    (truncf_bf16_id _ _).trans ?_, ?_⟩ <;> rfl

end Stretch

variable (m : (ℓ : Loc nD τ sig) → Buf (Elt Ideal) ℓ) (ρ : Dev nD → PrngReg) (c : Dev nD)

/-! ## The third region's operands when it is entered

The stretch starts from what the second region leaves: there the drug rows are that region's result, the disease
rows are still the first region's result, and every argument still holds its launch contents. -/

/-- The mean of the drug rows over the drug→disease edges. -/
theorem V5_v168 : @Eq (Arr S25000x256 .bf16) (V5 m ρ c main_v168) (Cert.Means.meanDD (D1 m ρ c) (A5 m c) (A6 m c)) := by
  refine ((ops2_region2 (W4 m ρ c)).1).trans ?_
  exact congrArg₂ (fun s d : Arr S300000 .i32 => Cert.Means.meanDD (D1 m ρ c) s d) (W4_arg5 m ρ c) (W4_arg6 m ρ c)
/-- The disease rows after the first layer. -/
theorem V5_v169 : @Eq (Arr S25000x256 .bf16) (V5 m ρ c main_v169) (S1 m ρ c) := by
  refine ((ops2_region2 (W4 m ρ c)).2.1).trans ?_
  exact W4_v82 m ρ c
/-- The neighbour weights of layer 1, relation 0. -/
theorem V5_v170 : @Eq (Arr S256x256 .bf16) (V5 m ρ c main_v170) (val_main_v99 (F := Ideal) (A2 m c)) := by
  refine ((ops2_region2 (W4 m ρ c)).2.2.1).trans ?_
  exact congrArg (fun z : Arr S2x3x256x256 .f32 => val_main_v99 (F := Ideal) z) (W4_arg2 m ρ c)
/-- The self weights of layer 1, relation 0. -/
theorem V5_v171 : @Eq (Arr S256x256 .bf16) (V5 m ρ c main_v171) (val_main_v101 (F := Ideal) (A3 m c)) := by
  refine ((ops2_region2 (W4 m ρ c)).2.2.2.1).trans ?_
  exact congrArg (fun z : Arr S2x3x256x256 .f32 => val_main_v101 (F := Ideal) z) (W4_arg3 m ρ c)
/-- The bias of layer 1, relation 0, as a one-row matrix. -/
theorem V5_v172 : @Eq (Arr S1x256 .f32) (V5 m ρ c main_v172)
    (shapeCast S1x256 (val_main_v103 (F := Ideal) (A4 m c)) shapeCasts_S256_S1x256) := by
  refine ((ops2_region2 (W4 m ρ c)).2.2.2.2).trans ?_
  exact congrArg (fun z : Arr S2x3x256 .f32 => shapeCast S1x256 (val_main_v103 (F := Ideal) z) shapeCasts_S256_S1x256)
    (W4_arg4 m ρ c)

end Cert.KernelIdeal.HostSide

end
-- ==== Proof.KHost3.lean ====
/-
  The host side of the fused program, fourth stretch: what the fourth kernel region is entered with.

  The fourth kernel region computes the drug rows of the second layer. Its operands were all computed by the third
  host stretch, before the third region ran: the mean of the disease rows over the disease→drug edges, the mean of the
  drug rows over the drug→drug edges, the neighbour weight slices of relations 1 and 2 of layer 1, and the sums of the
  two relations' self weights and biases. The third region owns none of those buffers, so they reach the fourth
  stretch unchanged, and that stretch only converts them to the narrower float type — which at the ideal values
  changes nothing — and lays the bias out as a one-row matrix.

  Each read is stated first for an arbitrary valuation of the buffers at a stretch's start, so that the term stays
  small; the operands are then walked back across the third region to what the second region leaves, where the
  arguments still hold their launch contents and the first region's result is untouched.
-/
import proofs.«165452_j57363583205826_1_alg».proof.Proof.Gen.KernelIdeal.Frame
import proofs.«165452_j57363583205826_1_alg».proof.Proof.Means
import proofs.«165452_j57363583205826_1_alg».proof.Proof.Gen.ReferenceIdeal.Read
import proofs.«165452_j57363583205826_1_alg».proof.Proof.KHost0
import proofs.«165452_j57363583205826_1_alg».proof.Proof.KHostArgs
import Idealize.ShloMosaic.Lib.StableHlo.Run

noncomputable section

namespace Cert.KernelIdeal.HostSide

open Idealize.ShloMosaic Idealize.ShloMosaic.TcCoe Idealize.ShloMosaic.StableHlo Idealize.SL.Sem
open Cert.KernelIdeal Cert.KernelIdeal.Gen Cert.ReferenceIdeal.Read

section Stretch

variable (W : Valuation τ sig (Elt Ideal))

set_option maxRecDepth 8192 in
set_option maxHeartbeats 40000000 in
/-- What the third stretch leaves for the fourth region, from any starting contents: the means over the
    disease→drug and drug→drug edges, the two neighbour weight slices, and the self weights and biases of the two
    relations ending at drug rows, added. -/
theorem ops2_region3 :
    (@Eq (Arr S50000x256 .f32) (StableHlo.after (hostOps2 (F := Ideal)) W (Proc.devRef .tc main_v128)) (Cert.Means.meanSD (W (Proc.devRef .tc main_v82)) (W (Proc.devRef .tc main_arg7)) (W (Proc.devRef .tc main_arg8))))
    ∧ (@Eq (Arr S50000x256 .f32) (StableHlo.after (hostOps2 (F := Ideal)) W (Proc.devRef .tc main_v147)) (Cert.Means.meanDR (W (Proc.devRef .tc main_v90)) (W (Proc.devRef .tc main_arg9)) (W (Proc.devRef .tc main_arg10))))
    ∧ (@Eq (Arr S256x256 .f32) (StableHlo.after (hostOps2 (F := Ideal)) W (Proc.devRef .tc main_v155)) (val_main_v130 (F := Ideal) (W (Proc.devRef .tc main_arg2))))
    ∧ (@Eq (Arr S256x256 .f32) (StableHlo.after (hostOps2 (F := Ideal)) W (Proc.devRef .tc main_v157)) (val_main_v161 (F := Ideal) (W (Proc.devRef .tc main_arg2))))
    ∧ (@Eq (Arr S256x256 .f32) (StableHlo.after (hostOps2 (F := Ideal)) W (Proc.devRef .tc main_v162)) (addf (F := Ideal) (s := S256x256) (φ := .f32) (val_main_v132 (F := Ideal) (W (Proc.devRef .tc main_arg3))) (val_main_v163 (F := Ideal) (W (Proc.devRef .tc main_arg3)))))
    ∧ (@Eq (Arr S256 .f32) (StableHlo.after (hostOps2 (F := Ideal)) W (Proc.devRef .tc main_v167)) (addf (F := Ideal) (s := S256) (φ := .f32) (val_main_v134 (F := Ideal) (W (Proc.devRef .tc main_arg4))) (val_main_v165 (F := Ideal) (W (Proc.devRef .tc main_arg4))))) := by
  after_results_simp
  refine ⟨?_, ?_, ?_, ?_, ?_, ?_⟩ <;> rfl

set_option maxRecDepth 8192 in
set_option maxHeartbeats 40000000 in
/-- No operation of the third stretch writes the second region's result. -/
theorem ops2_keep_v90 :
    @Eq (Arr S50000x256 .f32) (StableHlo.after (hostOps2 (F := Ideal)) W (Proc.devRef .tc main_v90)) (W (Proc.devRef .tc main_v90)) := by
  after_results_simp

set_option maxHeartbeats 4000000 in
/-- The fourth stretch converts six arrays and lays the bias out as a one-row matrix. -/
theorem ops3_reads :
    (@Eq (Arr S50000x256 .bf16) (StableHlo.after (hostOps3 (F := Ideal)) W (Proc.devRef .tc main_v174)) ((W (Proc.devRef .tc main_v128))))
    ∧ (@Eq (Arr S50000x256 .bf16) (StableHlo.after (hostOps3 (F := Ideal)) W (Proc.devRef .tc main_v175)) ((W (Proc.devRef .tc main_v147))))
    ∧ (@Eq (Arr S50000x256 .bf16) (StableHlo.after (hostOps3 (F := Ideal)) W (Proc.devRef .tc main_v176)) ((W (Proc.devRef .tc main_v90))))
    ∧ (@Eq (Arr S256x256 .bf16) (StableHlo.after (hostOps3 (F := Ideal)) W (Proc.devRef .tc main_v177)) ((W (Proc.devRef .tc main_v155))))
    ∧ (@Eq (Arr S256x256 .bf16) (StableHlo.after (hostOps3 (F := Ideal)) W (Proc.devRef .tc main_v178)) ((W (Proc.devRef .tc main_v157))))
    ∧ (@Eq (Arr S256x256 .bf16) (StableHlo.after (hostOps3 (F := Ideal)) W (Proc.devRef .tc main_v179)) ((W (Proc.devRef .tc main_v162))))
    ∧ (@Eq (Arr S1x256 .f32) (StableHlo.after (hostOps3 (F := Ideal)) W (Proc.devRef .tc main_v180)) (shapeCast S1x256 (W (Proc.devRef .tc main_v167)) shapeCasts_S256_S1x256)) := by
  after_results_simp
  refine ⟨(truncf_bf16_id _ _).trans ?_, (truncf_bf16_id _ _).trans ?_, (truncf_bf16_id _ _).trans ?_,
    (truncf_bf16_id _ _).trans ?_, (truncf_bf16_id _ _).trans ?_, (truncf_bf16_id _ _).trans ?_, ?_⟩ <;> rfl

end Stretch

/-- A function of three arguments takes equal arguments to equal values. -/
theorem congrArg₃ {α β γ δ : Sort _} (f : α → β → γ → δ) {a a' : α} {b b' : β} {c c' : γ}
    (ha : a = a') (hb : b = b') (hc : c = c') : f a b c = f a' b' c' := by
  subst ha hb hc; rfl

variable (m : (ℓ : Loc nD τ sig) → Buf (Elt Ideal) ℓ) (ρ : Dev nD → PrngReg) (c : Dev nD)

/-! ## The fourth region's operands when it is entered

Each is what the fourth stretch reads from a buffer the third stretch wrote (or, for the drug rows, from the second
region's result, which the third stretch does not write); the third region, between the two, owns none of those
buffers. -/

/-- The mean of the disease rows over the disease→drug edges. -/
theorem V7_v174 : @Eq (Arr S50000x256 .bf16) (V7 m ρ c main_v174) (Cert.Means.meanSD (S1 m ρ c) (A7 m c) (A8 m c)) := by
  refine ((ops3_reads (W6 m ρ c)).1).trans ?_
  refine (W6_of_ne m ρ c main_v128 (by decide)).trans ?_
  refine ((ops2_region3 (W4 m ρ c)).1).trans ?_
  exact congrArg₃ (fun (x : Arr S25000x256 .f32) (s d : Arr S300000 .i32) => Cert.Means.meanSD x s d)
    (W4_v82 m ρ c) (W4_arg7 m ρ c) (W4_arg8 m ρ c)
/-- The mean of the drug rows over the drug→drug edges. -/
theorem V7_v175 : @Eq (Arr S50000x256 .bf16) (V7 m ρ c main_v175) (Cert.Means.meanDR (D1 m ρ c) (A9 m c) (A10 m c)) := by
  refine ((ops3_reads (W6 m ρ c)).2.1).trans ?_
  refine (W6_of_ne m ρ c main_v147 (by decide)).trans ?_
  refine ((ops2_region3 (W4 m ρ c)).2.1).trans ?_
  exact congrArg₂ (fun s d : Arr S300000 .i32 => Cert.Means.meanDR (D1 m ρ c) s d) (W4_arg9 m ρ c) (W4_arg10 m ρ c)
/-- The drug rows after the first layer. -/
theorem V7_v176 : @Eq (Arr S50000x256 .bf16) (V7 m ρ c main_v176) (D1 m ρ c) := by
  refine ((ops3_reads (W6 m ρ c)).2.2.1).trans ?_
  refine (W6_of_ne m ρ c main_v90 (by decide)).trans ?_
  exact ops2_keep_v90 (W4 m ρ c)
/-- The neighbour weights of layer 1, relation 1. -/
theorem V7_v177 : @Eq (Arr S256x256 .bf16) (V7 m ρ c main_v177) (val_main_v130 (F := Ideal) (A2 m c)) := by
  refine ((ops3_reads (W6 m ρ c)).2.2.2.1).trans ?_
  refine (W6_of_ne m ρ c main_v155 (by decide)).trans ?_
  refine ((ops2_region3 (W4 m ρ c)).2.2.1).trans ?_
  exact congrArg (fun z : Arr S2x3x256x256 .f32 => val_main_v130 (F := Ideal) z) (W4_arg2 m ρ c)
/-- The neighbour weights of layer 1, relation 2. -/
theorem V7_v178 : @Eq (Arr S256x256 .bf16) (V7 m ρ c main_v178) (val_main_v161 (F := Ideal) (A2 m c)) := by
  refine ((ops3_reads (W6 m ρ c)).2.2.2.2.1).trans ?_
  refine (W6_of_ne m ρ c main_v157 (by decide)).trans ?_
  refine ((ops2_region3 (W4 m ρ c)).2.2.2.1).trans ?_
  exact congrArg (fun z : Arr S2x3x256x256 .f32 => val_main_v161 (F := Ideal) z) (W4_arg2 m ρ c)
/-- The self weights of layer 1, relations 1 and 2, added. -/
theorem V7_v179 : @Eq (Arr S256x256 .bf16) (V7 m ρ c main_v179)
    (addf (F := Ideal) (s := S256x256) (φ := .f32) (val_main_v132 (F := Ideal) (A3 m c)) (val_main_v163 (F := Ideal) (A3 m c))) := by
  refine ((ops3_reads (W6 m ρ c)).2.2.2.2.2.1).trans ?_
  refine (W6_of_ne m ρ c main_v162 (by decide)).trans ?_
  refine ((ops2_region3 (W4 m ρ c)).2.2.2.2.1).trans ?_
  exact congrArg (fun z : Arr S2x3x256x256 .f32 => addf (F := Ideal) (s := S256x256) (φ := .f32)
    (val_main_v132 (F := Ideal) z) (val_main_v163 (F := Ideal) z)) (W4_arg3 m ρ c)
/-- The biases of layer 1, relations 1 and 2, added, as a one-row matrix. -/
theorem V7_v180 : @Eq (Arr S1x256 .f32) (V7 m ρ c main_v180)
    (shapeCast S1x256 (addf (F := Ideal) (s := S256) (φ := .f32) (val_main_v134 (F := Ideal) (A4 m c)) (val_main_v165 (F := Ideal) (A4 m c)))
      shapeCasts_S256_S1x256) := by
  refine ((ops3_reads (W6 m ρ c)).2.2.2.2.2.2).trans ?_
  refine congrArg (fun z : Arr S256 .f32 => shapeCast S1x256 z shapeCasts_S256_S1x256) ?_
  refine (W6_of_ne m ρ c main_v167 (by decide)).trans ?_
  refine ((ops2_region3 (W4 m ρ c)).2.2.2.2.2).trans ?_
  exact congrArg (fun z : Arr S2x3x256 .f32 => addf (F := Ideal) (s := S256) (φ := .f32)
    (val_main_v134 (F := Ideal) z) (val_main_v165 (F := Ideal) z)) (W4_arg4 m ρ c)

end Cert.KernelIdeal.HostSide

end
-- ==== Proof.KHost4.lean ====
/-
  The host side of the fused program: the result.

  After the fourth kernel region one host operation remains: it stacks the fourth region's result (the drug rows after
  the second layer, 50000 of them) above the third region's result (the disease rows after the second layer, 25000),
  into the 75000-row array the program returns. The third region's result is written by nothing after its region:
  the stretch before the fourth region only converts that region's operands, and the fourth region owns its operands
  and its own result.

-/
import proofs.«165452_j57363583205826_1_alg».proof.Proof.Gen.KernelIdeal.Frame
import proofs.«165452_j57363583205826_1_alg».proof.Proof.Means
import proofs.«165452_j57363583205826_1_alg».proof.Proof.Gen.ReferenceIdeal.Read
import proofs.«165452_j57363583205826_1_alg».proof.Proof.KHost0
import Idealize.ShloMosaic.Lib.StableHlo.Run

noncomputable section

namespace Cert.KernelIdeal.HostSide

open Idealize.ShloMosaic Idealize.ShloMosaic.TcCoe Idealize.ShloMosaic.StableHlo Idealize.SL.Sem
open Cert.KernelIdeal Cert.KernelIdeal.Gen Cert.ReferenceIdeal.Read

section Stretch

variable (W : Valuation τ sig (Elt Ideal))

/-- The last host operation joins the drug rows and the disease rows of the second layer. -/
theorem ops4_result :
    @Eq (Arr S75000x256 .f32) (StableHlo.after (hostOps4 (F := Ideal)) W (Proc.devRef .tc main_v182))
      (concatenate S75000x256 0 [⟨S50000x256, (W (Proc.devRef .tc main_v181) : Arr S50000x256 .f32)⟩,
        ⟨S25000x256, (W (Proc.devRef .tc main_v173) : Arr S25000x256 .f32)⟩]
        concatenates_S50000x256_S25000x256_S75000x256_d0) := by
  after_results <;> rfl

/-- The stretch before the last region only prepares that region's operands: the third region's result stays. -/
theorem ops3_keep_v173 :
    @Eq (Arr S25000x256 .f32) (StableHlo.after (hostOps3 (F := Ideal)) W (Proc.devRef .tc main_v173))
      (W (Proc.devRef .tc main_v173)) := by
  after_results_simp

end Stretch

variable (m : (ℓ : Loc nD τ sig) → Buf (Elt Ideal) ℓ) (ρ : Dev nD → PrngReg) (c : Dev nD)

/-- The program's result: the fourth region's result (the drug rows after the second layer) above the third region's
    result (the disease rows after the second layer). -/
theorem W9_v182 :
    @Eq (Arr S75000x256 .f32) (W9 m ρ c (Proc.devRef .tc main_v182))
      (concatenate S75000x256 0 [⟨S50000x256, W8 m ρ c (Proc.devRef .tc main_v181)⟩,
        ⟨S25000x256, W6 m ρ c (Proc.devRef .tc main_v173)⟩]
        concatenates_S50000x256_S25000x256_S75000x256_d0) := by
  refine (ops4_result (W8 m ρ c)).trans ?_
  refine congrArg (fun z : Arr S25000x256 .f32 =>
    concatenate S75000x256 0 [⟨S50000x256, (W8 m ρ c (Proc.devRef .tc main_v181) : Arr S50000x256 .f32)⟩, ⟨S25000x256, z⟩]
      concatenates_S50000x256_S25000x256_S75000x256_d0) ?_
  exact (W8_of_ne m ρ c main_v173 (by decide)).trans (ops3_keep_v173 (W6 m ρ c))

end Cert.KernelIdeal.HostSide

end
-- ==== Proof.RefSlices.lean ====
/-
  The plain program's small stages, read as the layer's operands.

  A weight matrix reaches a product as a slice [l, j, 0:256, 0:256] of the stacked weights reshaped to 256 × 256: element
  (k, c) of the reshape sits at row-major position k · 256 + c of the slice, whose last two coordinates are therefore
  (k · 256 + c) / 256 mod 256 = k and (k · 256 + c) mod 256 = c, so the stage is the matrix wsl W l j. A bias reaches a
  sum as a slice [l, j, 0:256] reshaped to a vector (the vector bsl B l j), spread to one row and then along all rows:
  at (r, q) it is bsl B l j q. The constants 0.0 (relu's) and 0.5 are spread scalars.
-/
import proofs.«165452_j57363583205826_1_alg».proof.Proof.Gen.ReferenceIdeal.Read
import proofs.«165452_j57363583205826_1_alg».proof.Proof.Layer

noncomputable section

open scoped BigOperators

namespace Cert.RefSide

open Idealize.ShloMosaic Idealize.ShloMosaic.ValueIdx Cert.ReferenceIdeal Cert.ReferenceIdeal.Read Cert.Layer

/-- The stacked weights and the stacked biases, typed as the program's arguments. -/
abbrev W4 := (⟨S2x3x256x256, .f32⟩ : BufTy).Contents (Elt Ideal)
abbrev B3 := (⟨S2x3x256, .f32⟩ : BufTy).Contents (Elt Ideal)

/-! ## The weight matrices -/

/-- Slice [0, 0] of the neighbour weights, reshaped, is the matrix of layer 0, relation 0. -/
theorem w1 (x2 : W4) : val_main_v1 (F := Ideal) x2 = wsl x2 0 0 := by
  funext i
  obtain ⟨k, c, rfl⟩ : ∃ (k c : Fin 256), i = ix2 k c := ⟨i 0, i 1, eq_ix2 i⟩
  rw [val_main_v1_apply, val_main_v0_apply]
  unfold wsl
  refine congrArg x2 ?_
  funext a
  have hk := k.isLt; have hc := c.isLt
  match a with
  | ⟨0, _⟩ => rfl
  | ⟨1, _⟩ => rfl
  | ⟨2, _⟩ => exact Fin.ext (by show (k.val * 256 + c.val) / 256 % 256 = k.val; omega)
  | ⟨3, _⟩ => exact Fin.ext (by show (k.val * 256 + c.val) % 256 = c.val; omega)

/-- Slice [0, 0] of the root weights, reshaped, is the matrix of layer 0, relation 0. -/
theorem w3 (x3 : W4) : val_main_v3 (F := Ideal) x3 = wsl x3 0 0 := by
  funext i
  obtain ⟨k, c, rfl⟩ : ∃ (k c : Fin 256), i = ix2 k c := ⟨i 0, i 1, eq_ix2 i⟩
  rw [val_main_v3_apply, val_main_v2_apply]
  unfold wsl
  refine congrArg x3 ?_
  funext a
  have hk := k.isLt; have hc := c.isLt
  match a with
  | ⟨0, _⟩ => rfl
  | ⟨1, _⟩ => rfl
  | ⟨2, _⟩ => exact Fin.ext (by show (k.val * 256 + c.val) / 256 % 256 = k.val; omega)
  | ⟨3, _⟩ => exact Fin.ext (by show (k.val * 256 + c.val) % 256 = c.val; omega)

/-- Slice [0, 1] of the neighbour weights, reshaped, is the matrix of layer 0, relation 1. -/
theorem w32 (x2 : W4) : val_main_v32 (F := Ideal) x2 = wsl x2 0 1 := by
  funext i
  obtain ⟨k, c, rfl⟩ : ∃ (k c : Fin 256), i = ix2 k c := ⟨i 0, i 1, eq_ix2 i⟩
  rw [val_main_v32_apply, val_main_v31_apply]
  unfold wsl
  refine congrArg x2 ?_
  funext a
  have hk := k.isLt; have hc := c.isLt
  match a with
  | ⟨0, _⟩ => rfl
  | ⟨1, _⟩ => rfl
  | ⟨2, _⟩ => exact Fin.ext (by show (k.val * 256 + c.val) / 256 % 256 = k.val; omega)
  | ⟨3, _⟩ => exact Fin.ext (by show (k.val * 256 + c.val) % 256 = c.val; omega)

/-- Slice [0, 1] of the root weights, reshaped, is the matrix of layer 0, relation 1. -/
theorem w34 (x3 : W4) : val_main_v34 (F := Ideal) x3 = wsl x3 0 1 := by
  funext i
  obtain ⟨k, c, rfl⟩ : ∃ (k c : Fin 256), i = ix2 k c := ⟨i 0, i 1, eq_ix2 i⟩
  rw [val_main_v34_apply, val_main_v33_apply]
  unfold wsl
  refine congrArg x3 ?_
  funext a
  have hk := k.isLt; have hc := c.isLt
  match a with
  | ⟨0, _⟩ => rfl
  | ⟨1, _⟩ => rfl
  | ⟨2, _⟩ => exact Fin.ext (by show (k.val * 256 + c.val) / 256 % 256 = k.val; omega)
  | ⟨3, _⟩ => exact Fin.ext (by show (k.val * 256 + c.val) % 256 = c.val; omega)

/-- Slice [0, 2] of the neighbour weights, reshaped, is the matrix of layer 0, relation 2. -/
theorem w63 (x2 : W4) : val_main_v63 (F := Ideal) x2 = wsl x2 0 2 := by
  funext i
  obtain ⟨k, c, rfl⟩ : ∃ (k c : Fin 256), i = ix2 k c := ⟨i 0, i 1, eq_ix2 i⟩
  rw [val_main_v63_apply, val_main_v62_apply]
  unfold wsl
  refine congrArg x2 ?_
  funext a
  have hk := k.isLt; have hc := c.isLt
  match a with
  | ⟨0, _⟩ => rfl
  | ⟨1, _⟩ => rfl
  | ⟨2, _⟩ => exact Fin.ext (by show (k.val * 256 + c.val) / 256 % 256 = k.val; omega)
  | ⟨3, _⟩ => exact Fin.ext (by show (k.val * 256 + c.val) % 256 = c.val; omega)

/-- Slice [0, 2] of the root weights, reshaped, is the matrix of layer 0, relation 2. -/
theorem w65 (x3 : W4) : val_main_v65 (F := Ideal) x3 = wsl x3 0 2 := by
  funext i
  obtain ⟨k, c, rfl⟩ : ∃ (k c : Fin 256), i = ix2 k c := ⟨i 0, i 1, eq_ix2 i⟩
  rw [val_main_v65_apply, val_main_v64_apply]
  unfold wsl
  refine congrArg x3 ?_
  funext a
  have hk := k.isLt; have hc := c.isLt
  match a with
  | ⟨0, _⟩ => rfl
  | ⟨1, _⟩ => rfl
  | ⟨2, _⟩ => exact Fin.ext (by show (k.val * 256 + c.val) / 256 % 256 = k.val; omega)
  | ⟨3, _⟩ => exact Fin.ext (by show (k.val * 256 + c.val) % 256 = c.val; omega)

/-- Slice [1, 0] of the neighbour weights, reshaped, is the matrix of layer 1, relation 0. -/
theorem w99 (x2 : W4) : val_main_v99 (F := Ideal) x2 = wsl x2 1 0 := by
  funext i
  obtain ⟨k, c, rfl⟩ : ∃ (k c : Fin 256), i = ix2 k c := ⟨i 0, i 1, eq_ix2 i⟩
  rw [val_main_v99_apply, val_main_v98_apply]
  unfold wsl
  refine congrArg x2 ?_
  funext a
  have hk := k.isLt; have hc := c.isLt
  match a with
  | ⟨0, _⟩ => rfl
  | ⟨1, _⟩ => rfl
  | ⟨2, _⟩ => exact Fin.ext (by show (k.val * 256 + c.val) / 256 % 256 = k.val; omega)
  | ⟨3, _⟩ => exact Fin.ext (by show (k.val * 256 + c.val) % 256 = c.val; omega)

/-- Slice [1, 0] of the root weights, reshaped, is the matrix of layer 1, relation 0. -/
theorem w101 (x3 : W4) : val_main_v101 (F := Ideal) x3 = wsl x3 1 0 := by
  funext i
  obtain ⟨k, c, rfl⟩ : ∃ (k c : Fin 256), i = ix2 k c := ⟨i 0, i 1, eq_ix2 i⟩
  rw [val_main_v101_apply, val_main_v100_apply]
  unfold wsl
  refine congrArg x3 ?_
  funext a
  have hk := k.isLt; have hc := c.isLt
  match a with
  | ⟨0, _⟩ => rfl
  | ⟨1, _⟩ => rfl
  | ⟨2, _⟩ => exact Fin.ext (by show (k.val * 256 + c.val) / 256 % 256 = k.val; omega)
  | ⟨3, _⟩ => exact Fin.ext (by show (k.val * 256 + c.val) % 256 = c.val; omega)

/-- Slice [1, 1] of the neighbour weights, reshaped, is the matrix of layer 1, relation 1. -/
theorem w130 (x2 : W4) : val_main_v130 (F := Ideal) x2 = wsl x2 1 1 := by
  funext i
  obtain ⟨k, c, rfl⟩ : ∃ (k c : Fin 256), i = ix2 k c := ⟨i 0, i 1, eq_ix2 i⟩
  rw [val_main_v130_apply, val_main_v129_apply]
  unfold wsl
  refine congrArg x2 ?_
  funext a
  have hk := k.isLt; have hc := c.isLt
  match a with
  | ⟨0, _⟩ => rfl
  | ⟨1, _⟩ => rfl
  | ⟨2, _⟩ => exact Fin.ext (by show (k.val * 256 + c.val) / 256 % 256 = k.val; omega)
  | ⟨3, _⟩ => exact Fin.ext (by show (k.val * 256 + c.val) % 256 = c.val; omega)

/-- Slice [1, 1] of the root weights, reshaped, is the matrix of layer 1, relation 1. -/
theorem w132 (x3 : W4) : val_main_v132 (F := Ideal) x3 = wsl x3 1 1 := by
  funext i
  obtain ⟨k, c, rfl⟩ : ∃ (k c : Fin 256), i = ix2 k c := ⟨i 0, i 1, eq_ix2 i⟩
  rw [val_main_v132_apply, val_main_v131_apply]
  unfold wsl
  refine congrArg x3 ?_
  funext a
  have hk := k.isLt; have hc := c.isLt
  match a with
  | ⟨0, _⟩ => rfl
  | ⟨1, _⟩ => rfl
  | ⟨2, _⟩ => exact Fin.ext (by show (k.val * 256 + c.val) / 256 % 256 = k.val; omega)
  | ⟨3, _⟩ => exact Fin.ext (by show (k.val * 256 + c.val) % 256 = c.val; omega)

/-- Slice [1, 2] of the neighbour weights, reshaped, is the matrix of layer 1, relation 2. -/
theorem w161 (x2 : W4) : val_main_v161 (F := Ideal) x2 = wsl x2 1 2 := by
  funext i
  obtain ⟨k, c, rfl⟩ : ∃ (k c : Fin 256), i = ix2 k c := ⟨i 0, i 1, eq_ix2 i⟩
  rw [val_main_v161_apply, val_main_v160_apply]
  unfold wsl
  refine congrArg x2 ?_
  funext a
  have hk := k.isLt; have hc := c.isLt
  match a with
  | ⟨0, _⟩ => rfl
  | ⟨1, _⟩ => rfl
  | ⟨2, _⟩ => exact Fin.ext (by show (k.val * 256 + c.val) / 256 % 256 = k.val; omega)
  | ⟨3, _⟩ => exact Fin.ext (by show (k.val * 256 + c.val) % 256 = c.val; omega)

/-- Slice [1, 2] of the root weights, reshaped, is the matrix of layer 1, relation 2. -/
theorem w163 (x3 : W4) : val_main_v163 (F := Ideal) x3 = wsl x3 1 2 := by
  funext i
  obtain ⟨k, c, rfl⟩ : ∃ (k c : Fin 256), i = ix2 k c := ⟨i 0, i 1, eq_ix2 i⟩
  rw [val_main_v163_apply, val_main_v162_apply]
  unfold wsl
  refine congrArg x3 ?_
  funext a
  have hk := k.isLt; have hc := c.isLt
  match a with
  | ⟨0, _⟩ => rfl
  | ⟨1, _⟩ => rfl
  | ⟨2, _⟩ => exact Fin.ext (by show (k.val * 256 + c.val) / 256 % 256 = k.val; omega)
  | ⟨3, _⟩ => exact Fin.ext (by show (k.val * 256 + c.val) % 256 = c.val; omega)

/-! ## The bias vectors -/

/-- Slice [0, 0] of the biases, reshaped, is the bias vector of layer 0, relation 0. -/
theorem b5 (x4 : B3) (q : Fin 256) : val_main_v5 (F := Ideal) x4 (ix1 q) = bsl x4 0 0 q := by
  rw [val_main_v5_apply, val_main_v4_apply]
  unfold bsl
  refine congrArg x4 ?_
  funext a
  have hq := q.isLt
  match a with
  | ⟨0, _⟩ => rfl
  | ⟨1, _⟩ => rfl
  | ⟨2, _⟩ => exact Fin.ext (by show q.val % 256 = q.val; omega)

/-- Slice [0, 1] of the biases, reshaped, is the bias vector of layer 0, relation 1. -/
theorem b36 (x4 : B3) (q : Fin 256) : val_main_v36 (F := Ideal) x4 (ix1 q) = bsl x4 0 1 q := by
  rw [val_main_v36_apply, val_main_v35_apply]
  unfold bsl
  refine congrArg x4 ?_
  funext a
  have hq := q.isLt
  match a with
  | ⟨0, _⟩ => rfl
  | ⟨1, _⟩ => rfl
  | ⟨2, _⟩ => exact Fin.ext (by show q.val % 256 = q.val; omega)

/-- Slice [0, 2] of the biases, reshaped, is the bias vector of layer 0, relation 2. -/
theorem b67 (x4 : B3) (q : Fin 256) : val_main_v67 (F := Ideal) x4 (ix1 q) = bsl x4 0 2 q := by
  rw [val_main_v67_apply, val_main_v66_apply]
  unfold bsl
  refine congrArg x4 ?_
  funext a
  have hq := q.isLt
  match a with
  | ⟨0, _⟩ => rfl
  | ⟨1, _⟩ => rfl
  | ⟨2, _⟩ => exact Fin.ext (by show q.val % 256 = q.val; omega)

/-- Slice [1, 0] of the biases, reshaped, is the bias vector of layer 1, relation 0. -/
theorem b103 (x4 : B3) (q : Fin 256) : val_main_v103 (F := Ideal) x4 (ix1 q) = bsl x4 1 0 q := by
  rw [val_main_v103_apply, val_main_v102_apply]
  unfold bsl
  refine congrArg x4 ?_
  funext a
  have hq := q.isLt
  match a with
  | ⟨0, _⟩ => rfl
  | ⟨1, _⟩ => rfl
  | ⟨2, _⟩ => exact Fin.ext (by show q.val % 256 = q.val; omega)

/-- Slice [1, 1] of the biases, reshaped, is the bias vector of layer 1, relation 1. -/
theorem b134 (x4 : B3) (q : Fin 256) : val_main_v134 (F := Ideal) x4 (ix1 q) = bsl x4 1 1 q := by
  rw [val_main_v134_apply, val_main_v133_apply]
  unfold bsl
  refine congrArg x4 ?_
  funext a
  have hq := q.isLt
  match a with
  | ⟨0, _⟩ => rfl
  | ⟨1, _⟩ => rfl
  | ⟨2, _⟩ => exact Fin.ext (by show q.val % 256 = q.val; omega)

/-- Slice [1, 2] of the biases, reshaped, is the bias vector of layer 1, relation 2. -/
theorem b165 (x4 : B3) (q : Fin 256) : val_main_v165 (F := Ideal) x4 (ix1 q) = bsl x4 1 2 q := by
  rw [val_main_v165_apply, val_main_v164_apply]
  unfold bsl
  refine congrArg x4 ?_
  funext a
  have hq := q.isLt
  match a with
  | ⟨0, _⟩ => rfl
  | ⟨1, _⟩ => rfl
  | ⟨2, _⟩ => exact Fin.ext (by show q.val % 256 = q.val; omega)

/-! ## The biases spread along the rows -/

/-- The bias of layer 0, relation 0, spread along 25000 rows, at (r, q). -/
theorem b27 (x4 : B3) (r : Fin 25000) (q : Fin 256) : val_main_v27 (F := Ideal) x4 (ix2 r q) = bsl x4 0 0 q := by
  rw [val_main_v27_apply, val_main_v26_apply]
  exact (congrArg (val_main_v5 (F := Ideal) x4) (funext fun a => by match a with | ⟨0, _⟩ => rfl)).trans (b5 x4 q)

/-- The bias of layer 0, relation 1, spread along 50000 rows, at (r, q). -/
theorem b58 (x4 : B3) (r : Fin 50000) (q : Fin 256) : val_main_v58 (F := Ideal) x4 (ix2 r q) = bsl x4 0 1 q := by
  rw [val_main_v58_apply, val_main_v57_apply]
  exact (congrArg (val_main_v36 (F := Ideal) x4) (funext fun a => by match a with | ⟨0, _⟩ => rfl)).trans (b36 x4 q)

/-- The bias of layer 0, relation 2, spread along 50000 rows, at (r, q). -/
theorem b89 (x4 : B3) (r : Fin 50000) (q : Fin 256) : val_main_v89 (F := Ideal) x4 (ix2 r q) = bsl x4 0 2 q := by
  rw [val_main_v89_apply, val_main_v88_apply]
  exact (congrArg (val_main_v67 (F := Ideal) x4) (funext fun a => by match a with | ⟨0, _⟩ => rfl)).trans (b67 x4 q)

/-- The bias of layer 1, relation 0, spread along 25000 rows, at (r, q). -/
theorem b125 (x4 : B3) (r : Fin 25000) (q : Fin 256) : val_main_v125 (F := Ideal) x4 (ix2 r q) = bsl x4 1 0 q := by
  rw [val_main_v125_apply, val_main_v124_apply]
  exact (congrArg (val_main_v103 (F := Ideal) x4) (funext fun a => by match a with | ⟨0, _⟩ => rfl)).trans (b103 x4 q)

/-- The bias of layer 1, relation 1, spread along 50000 rows, at (r, q). -/
theorem b156 (x4 : B3) (r : Fin 50000) (q : Fin 256) : val_main_v156 (F := Ideal) x4 (ix2 r q) = bsl x4 1 1 q := by
  rw [val_main_v156_apply, val_main_v155_apply]
  exact (congrArg (val_main_v134 (F := Ideal) x4) (funext fun a => by match a with | ⟨0, _⟩ => rfl)).trans (b134 x4 q)

/-- The bias of layer 1, relation 2, spread along 50000 rows, at (r, q). -/
theorem b187 (x4 : B3) (r : Fin 50000) (q : Fin 256) : val_main_v187 (F := Ideal) x4 (ix2 r q) = bsl x4 1 2 q := by
  rw [val_main_v187_apply, val_main_v186_apply]
  exact (congrArg (val_main_v165 (F := Ideal) x4) (funext fun a => by match a with | ⟨0, _⟩ => rfl)).trans (b165 x4 q)

/-! ## The constants -/

theorem zero0 (i : S50000x256.Idx) : val_main_call0_v0 (F := Ideal) i = zeroW := by
  rw [val_main_call0_v0_apply, val_main_call0_cst_apply]; rfl

theorem zero1 (i : S25000x256.Idx) : val_main_call1_v0 (F := Ideal) i = zeroW := by
  rw [val_main_call1_v0_apply, val_main_call1_cst_apply]; rfl

theorem zero2 (i : S50000x256.Idx) : val_main_call2_v0 (F := Ideal) i = zeroW := by
  rw [val_main_call2_v0_apply, val_main_call2_cst_apply]; rfl

theorem zero3 (i : S25000x256.Idx) : val_main_call3_v0 (F := Ideal) i = zeroW := by
  rw [val_main_call3_v0_apply, val_main_call3_cst_apply]; rfl

theorem half94 (i : S50000x256.Idx) : val_main_v94 (F := Ideal) i = halfW := by
  rw [val_main_v94_apply, val_main_cst_16_apply]; rfl

theorem half192 (i : S50000x256.Idx) : val_main_v192 (F := Ideal) i = halfW := by
  rw [val_main_v192_apply, val_main_cst_35_apply]; rfl

/-! ## A layer's row at coordinates (r, q) -/

theorem disOut_ix2 (mean x : Rows 25000) (wl wr : Rows 256) (b : Fin 256 → EReal) (r : Fin 25000) (q : Fin 256) :
    disOut mean x wl wr b (ix2 r q) = max ((dot mean wl r q + b q) + dot x wr r q) zeroW := rfl

theorem drugOut_ix2 (m1 m2 x : Rows 50000) (wl1 wl2 wr1 wr2 : Rows 256) (b1 b2 : Fin 256 → EReal)
    (r : Fin 50000) (q : Fin 256) :
    drugOut m1 m2 x wl1 wl2 wr1 wr2 b1 b2 (ix2 r q)
      = max (halfW * (((dot m1 wl1 r q + b1 q) + dot x wr1 r q) + ((dot m2 wl2 r q + b2 q) + dot x wr2 r q))) zeroW := rfl

end Cert.RefSide

end
-- ==== Proof.LayerReal.lean ====
/-
  A drug layer of real-valued operands is real-valued: its entries are built from the operands' entries by finitely
  many sums, products and a maximum with zero, and the factor one half is the real number 1/2. The weight and bias
  slices of real-valued stacks are real-valued.
-/
import proofs.«165452_j57363583205826_1_alg».proof.Proof.Layer

noncomputable section

namespace Cert.Layer

open Idealize.ShloMosaic Idealize.ShloMosaic.ValueIdx Cert.RealValued

/-- The float word 0x3F000000 is one half. -/
theorem halfW_eq : halfW = ((1 / 2 : ℝ) : EReal) := by
  unfold halfW
  simp [Ideal.ofBits, Ideal.ieee, -EReal.coe_mul]
  norm_num

theorem halfW_real : IsReal halfW := ⟨_, halfW_eq⟩

theorem wsl_real (W : Wts) (l : Fin 2) (j : Fin 3) (h : ∀ i, IsReal (W i)) : ∀ i, IsReal (wsl W l j i) :=
  fun _ => h _

theorem bsl_real (B : Bias) (l : Fin 2) (j : Fin 3) (h : ∀ i, IsReal (B i)) : ∀ q, IsReal (bsl B l j q) :=
  fun _ => h _

theorem drugOut_real (m1 m2 x : Rows 50000) (wl1 wl2 wr1 wr2 : Rows 256) (b1 b2 : Fin 256 → EReal)
    (hm1 : ∀ i, IsReal (m1 i)) (hm2 : ∀ i, IsReal (m2 i)) (hx : ∀ i, IsReal (x i))
    (hwl1 : ∀ i, IsReal (wl1 i)) (hwl2 : ∀ i, IsReal (wl2 i)) (hwr1 : ∀ i, IsReal (wr1 i)) (hwr2 : ∀ i, IsReal (wr2 i))
    (hb1 : ∀ q, IsReal (b1 q)) (hb2 : ∀ q, IsReal (b2 q)) :
    ∀ i, IsReal (drugOut m1 m2 x wl1 wl2 wr1 wr2 b1 b2 i) := by
  intro i
  unfold drugOut
  exact (halfW_real.mul ((((dot_real _ _ _ _ hm1 hwl1).add (hb1 _)).add (dot_real _ _ _ _ hx hwr1)).add
    (((dot_real _ _ _ _ hm2 hwl2).add (hb2 _)).add (dot_real _ _ _ _ hx hwr2)))).max zeroW_real

end Cert.Layer

end
-- ==== Proof.Forward.lean ====
/-
  The whole computation as one function of the eleven arguments.

  Two layers. In each, the disease rows are a disease layer of (the mean of the drug rows over the drug → disease
  edges, the disease rows), and the drug rows a drug layer of (the mean of the disease rows over the disease → drug
  edges, the mean of the drug rows over the drug → drug edges, the drug rows); both read the rows of the PREVIOUS
  layer. The result stacks the final drug rows on the final disease rows.
-/
import proofs.«165452_j57363583205826_1_alg».proof.Proof.Layer
import proofs.«165452_j57363583205826_1_alg».proof.Proof.Means

noncomputable section

namespace Cert.Forward

open Idealize.ShloMosaic Cert.ReferenceIdeal Cert.ReferenceIdeal.Facts₀ Cert.Layer Cert.Means

/-- The disease rows after layer l, from the rows before it. -/
def disLayer (l : Fin 2) (xd : Drug) (xs : Dis) (Wl Wr : Wts) (B : Bias) (a5 a6 : EdgeVec) : Dis :=
  disOut (meanDD xd a5 a6) xs (wsl Wl l 0) (wsl Wr l 0) (bsl B l 0)

/-- The drug rows after layer l, from the rows before it. -/
def drugLayer (l : Fin 2) (xd : Drug) (xs : Dis) (Wl Wr : Wts) (B : Bias) (a7 a8 a9 a10 : EdgeVec) : Drug :=
  drugOut (meanSD xs a7 a8) (meanDR xd a9 a10) xd (wsl Wl l 1) (wsl Wl l 2) (wsl Wr l 1) (wsl Wr l 2)
    (bsl B l 1) (bsl B l 2)

/-- The drug rows after the first layer. -/
def drug1 (x0 : Drug) (x1 : Dis) (Wl Wr : Wts) (B : Bias) (a7 a8 a9 a10 : EdgeVec) : Drug :=
  drugLayer 0 x0 x1 Wl Wr B a7 a8 a9 a10

/-- The disease rows after the first layer. -/
def dis1 (x0 : Drug) (x1 : Dis) (Wl Wr : Wts) (B : Bias) (a5 a6 : EdgeVec) : Dis :=
  disLayer 0 x0 x1 Wl Wr B a5 a6

/-- The result: the second layer's drug rows stacked on its disease rows. -/
def forward (x0 : Drug) (x1 : Dis) (Wl Wr : Wts) (B : Bias) (a5 a6 a7 a8 a9 a10 : EdgeVec) :
    (⟨S75000x256, .f32⟩ : BufTy).Contents (Elt Ideal) :=
  concatenate S75000x256 0
    [⟨S50000x256, drugLayer 1 (drug1 x0 x1 Wl Wr B a7 a8 a9 a10) (dis1 x0 x1 Wl Wr B a5 a6) Wl Wr B a7 a8 a9 a10⟩,
     ⟨S25000x256, disLayer 1 (drug1 x0 x1 Wl Wr B a7 a8 a9 a10) (dis1 x0 x1 Wl Wr B a5 a6) Wl Wr B a5 a6⟩]
    concatenates_S50000x256_S25000x256_S75000x256_d0

end Cert.Forward

end
-- ==== Proof.LibRowScatter.lean ====
/-
  The host's accumulating scatter of whole rows, read at an index, at the ideal values.

  What `segment_sum(data, ids, num_segments = N)` lowers to: a `stablehlo.scatter` with an `add` body of an E×C array
  of updates into an N×C operand, the scatter indices an E×1 column — update row `e` is added into operand row `ids[e]`,
  the index read as a signed integer and NOT clamped: an update whose index is negative or at least N is dropped. For a
  vector of E updates into a vector of N cells it is the same with the column axis absent.

  At the ideal values such a scatter is an exact sum, so entry (n, c) of the result is the operand's entry plus the sum,
  over the update rows e whose index is n, of the updates' entries (e, c): the set of contributing rows depends on n
  only, not on the column. That is the content of this file, `rows_apply` and `cells_apply`.
-/
import Idealize.ShloMosaic.PureOps.Ideal.Laws
import Idealize.ShloMosaic.Lib.ValueIdx

noncomputable section

open scoped BigOperators

namespace Idealize.ShloMosaic.RowScatter

open Idealize.ShloMosaic Idealize.ShloMosaic.ValueIdx

variable {N E C w : Nat}

/-- The dimension numbers of a scatter of E rows of width C into an N×C operand, the indices an E×1 column. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of E scalars into a vector of N cells, the indices an E×1 column. -/
abbrev cellsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row update `e` is sent to: its scatter index, read as a signed integer. -/
def dest (idx : IVec ⟨2, ![E, 1]⟩ w) (e : Fin E) : Int := (idx (ix2 e (0 : Fin 1))).toInt

/-! ## Rows -/

section Rows
variable (wf : ScatterDims.WF ⟨2, ![N, C]⟩ ⟨2, ![E, 1]⟩ ⟨2, ![E, C]⟩ [1] [0] [0] 1)

theorem rows_start0 (j : (⟨2, ![E, C]⟩ : Shape).Idx) (idx : IVec ⟨2, ![E, 1]⟩ w) :
    (rowsDims N E C wf).start j idx 0 = dest idx (j 0) := by
  unfold ScatterDims.start dest
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

theorem rows_start1 (j : (⟨2, ![E, C]⟩ : Shape).Idx) (idx : IVec ⟨2, ![E, 1]⟩ w) :
    (rowsDims N E C wf).start j idx 1 = 0 := by
  unfold ScatterDims.start
  rw [dif_neg (fun h => absurd (congrArg Fin.val (List.mem_singleton.mp h)) Nat.one_ne_zero)]

theorem rows_window0 (j : (⟨2, ![E, C]⟩ : Shape).Idx) : (rowsDims N E C wf).window j 0 = 0 := by
  unfold ScatterDims.window
  rw [dif_neg (fun h => by simp [ScatterDims.sKept, Shape.kept] at h)]

theorem rows_window1 (j : (⟨2, ![E, C]⟩ : Shape).Idx) : (rowsDims N E C wf).window j 1 = (j 1).val := by
  unfold ScatterDims.window
  rw [dif_pos (by simp [ScatterDims.sKept, Shape.kept])]
  rfl

/-- Update (e, c') lands on operand entry (n, c) exactly when the index of row e is n and the columns agree. -/
theorem rows_lands (idx : IVec ⟨2, ![E, 1]⟩ w) (e : Fin E) (c' : Fin C) (n : Fin N) (c : Fin C) :
    (rowsDims N E C wf).resultIdx? (ix2 e c') idx = some (ix2 n c) ↔ dest idx e = (n.val : Int) ∧ c' = c := by
  unfold ScatterDims.resultIdx?
  have s0 : (rowsDims N E C wf).start (ix2 e c') idx 0 = dest idx e := rows_start0 wf (ix2 e c') idx
  have s1 : (rowsDims N E C wf).start (ix2 e c') idx 1 = 0 := rows_start1 wf (ix2 e c') idx
  have w0 : (rowsDims N E C wf).window (ix2 e c') 0 = 0 := rows_window0 wf (ix2 e c')
  have w1 : (rowsDims N E C wf).window (ix2 e c') 1 = c'.val := rows_window1 wf (ix2 e c')
  split
  · rename_i h
    rw [Option.some.injEq]
    constructor
    · intro hf
      have h0 := congrArg (fun f => (f 0).val) hf
      have h1 := congrArg (fun f => (f 1).val) hf
      simp only [s0, s1, w0, w1] at h0 h1
      have hn := (h 0).1
      rw [s0, w0] at hn
      refine ⟨?_, Fin.ext ?_⟩
      · show dest idx e = (n.val : Int)
        have : ((dest idx e + ((0 : Nat) : Int)).toNat : Nat) = n.val := h0
        omega
      · have : ((0 : Int) + ((c'.val : Nat) : Int)).toNat = c.val := h1
        omega
    · rintro ⟨hd, rfl⟩
      funext a; refine Fin.ext ?_
      match a with
      | ⟨0, _⟩ =>
        show ((rowsDims N E C wf).start (ix2 e c') idx 0 + ((rowsDims N E C wf).window (ix2 e c') 0 : Nat)).toNat = n.val
        rw [s0, w0, hd]; omega
      | ⟨1, _⟩ =>
        show ((rowsDims N E C wf).start (ix2 e c') idx 1 + ((rowsDims N E C wf).window (ix2 e c') 1 : Nat)).toNat = c'.val
        rw [s1, w1]; omega
  · rename_i h
    constructor
    · intro hf; exact absurd hf (by simp)
    · rintro ⟨hd, rfl⟩
      exfalso; apply h
      intro a
      match a with
      | ⟨0, _⟩ =>
        show 0 ≤ (rowsDims N E C wf).start (ix2 e c') idx 0 + ((rowsDims N E C wf).window (ix2 e c') 0 : Nat)
          ∧ (rowsDims N E C wf).start (ix2 e c') idx 0 + ((rowsDims N E C wf).window (ix2 e c') 0 : Nat) < (N : Int)
        rw [s0, w0, hd]; have := n.isLt; omega
      | ⟨1, _⟩ =>
        show 0 ≤ (rowsDims N E C wf).start (ix2 e c') idx 1 + ((rowsDims N E C wf).window (ix2 e c') 1 : Nat)
          ∧ (rowsDims N E C wf).start (ix2 e c') idx 1 + ((rowsDims N E C wf).window (ix2 e c') 1 : Nat) < (C : Int)
        rw [s1, w1]; have := c'.isLt; omega

/-- THE ROW SCATTER READ AT (n, c): the operand's entry plus the sum over the update rows sent to row n of their
    entries in column c. -/
theorem rows_apply {φ : FTy} (x : FVec Ideal ⟨2, ![N, C]⟩ φ) (idx : IVec ⟨2, ![E, 1]⟩ w) (upd : FVec Ideal ⟨2, ![E, C]⟩ φ)
    (n : Fin N) (c : Fin C) :
    Host.scatterAdd (rowsDims N E C wf) x idx upd (ix2 n c)
      = x (ix2 n c) + ∑ e ∈ Finset.univ.filter (fun e : Fin E => dest idx e = (n.val : Int)), upd (ix2 e c) := by
  show Ideal.hostScatterAdd (rowsDims N E C wf) x idx upd (ix2 n c) = _
  unfold Ideal.hostScatterAdd
  congr 1
  rw [Finset.sum_filter, Finset.sum_filter, sum_idx2]
  refine Finset.sum_congr rfl fun e _ => ?_
  by_cases hd : dest idx e = (n.val : Int)
  · rw [if_pos hd, Finset.sum_eq_single c]
    · rw [if_pos ((rows_lands wf idx e c n c).mpr ⟨hd, rfl⟩)]
    · intro c' _ hne
      rw [if_neg (fun h => hne ((rows_lands wf idx e c' n c).mp h).2)]
    · intro h; exact absurd (Finset.mem_univ c) h
  · rw [if_neg hd]
    exact Finset.sum_eq_zero fun c' _ => if_neg (fun h => hd ((rows_lands wf idx e c' n c).mp h).1)

end Rows

/-! ## Cells -/

section Cells
variable (wf : ScatterDims.WF ⟨1, ![N]⟩ ⟨2, ![E, 1]⟩ ⟨1, ![E]⟩ [] [0] [0] 1)

theorem cells_start0 (j : (⟨1, ![E]⟩ : Shape).Idx) (idx : IVec ⟨2, ![E, 1]⟩ w) :
    (cellsDims N E wf).start j idx 0 = dest idx (j 0) := by
  unfold ScatterDims.start dest
  rw [dif_pos (show (0 : Fin 1) ∈ (cellsDims N E wf).scatterDimsToOperandDims from List.mem_singleton.mpr rfl)]
  congr 2
  funext b; refine Fin.ext ?_
  match b with
  | ⟨0, _⟩ => rfl
  | ⟨1, _⟩ => rfl

theorem cells_window0 (j : (⟨1, ![E]⟩ : Shape).Idx) : (cellsDims N E wf).window j 0 = 0 := by
  unfold ScatterDims.window
  rw [dif_neg (fun h => by simp [ScatterDims.sKept, Shape.kept] at h)]

/-- Update e lands on cell n exactly when its index is n. -/
theorem cells_lands (idx : IVec ⟨2, ![E, 1]⟩ w) (e : Fin E) (n : Fin N) :
    (cellsDims N E wf).resultIdx? (ix1 e) idx = some (ix1 n) ↔ dest idx e = (n.val : Int) := by
  unfold ScatterDims.resultIdx?
  have s0 : (cellsDims N E wf).start (ix1 e) idx 0 = dest idx e := cells_start0 wf (ix1 e) idx
  have w0 : (cellsDims N E wf).window (ix1 e) 0 = 0 := cells_window0 wf (ix1 e)
  split
  · rename_i h
    rw [Option.some.injEq]
    constructor
    · intro hf
      have h0 := congrArg (fun f => (f 0).val) hf
      simp only [s0, w0] at h0
      have hn := (h 0).1
      rw [s0, w0] at hn
      have : ((dest idx e + ((0 : Nat) : Int)).toNat : Nat) = n.val := h0
      omega
    · intro hd
      funext a; refine Fin.ext ?_
      match a with
      | ⟨0, _⟩ =>
        show ((cellsDims N E wf).start (ix1 e) idx 0 + ((cellsDims N E wf).window (ix1 e) 0 : Nat)).toNat = n.val
        rw [s0, w0, hd]; omega
  · rename_i h
    constructor
    · intro hf; exact absurd hf (by simp)
    · intro hd
      exfalso; apply h
      intro a
      match a with
      | ⟨0, _⟩ =>
        show 0 ≤ (cellsDims N E wf).start (ix1 e) idx 0 + ((cellsDims N E wf).window (ix1 e) 0 : Nat)
          ∧ (cellsDims N E wf).start (ix1 e) idx 0 + ((cellsDims N E wf).window (ix1 e) 0 : Nat) < (N : Int)
        rw [s0, w0, hd]; have := n.isLt; omega

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    ⟨fun i => i 0, fun a => ix1 a, fun i => (eq_ix1 i).symm, fun _ => rfl⟩
  rw [← Equiv.sum_comp eqv.symm f]
  rfl

/-- THE CELL SCATTER READ AT n: the operand's entry plus the sum of the updates sent to cell n. -/
theorem cells_apply {φ : FTy} (x : FVec Ideal ⟨1, ![N]⟩ φ) (idx : IVec ⟨2, ![E, 1]⟩ w) (upd : FVec Ideal ⟨1, ![E]⟩ φ)
    (n : Fin N) :
    Host.scatterAdd (cellsDims N E wf) x idx upd (ix1 n)
      = x (ix1 n) + ∑ e ∈ Finset.univ.filter (fun e : Fin E => dest idx e = (n.val : Int)), upd (ix1 e) := by
  show Ideal.hostScatterAdd (cellsDims N E wf) x idx upd (ix1 n) = _
  unfold Ideal.hostScatterAdd
  congr 1
  rw [Finset.sum_filter, Finset.sum_filter, sum_idx1]
  refine Finset.sum_congr rfl fun e _ => ?_
  by_cases hd : dest idx e = (n.val : Int)
  · rw [if_pos hd, if_pos ((cells_lands wf idx e n).mpr hd)]
  · rw [if_neg hd, if_neg (fun h => hd ((cells_lands wf idx e n).mp h))]

end Cells

end Idealize.ShloMosaic.RowScatter

end
-- ==== Proof.LibEdgeGather.lean ====
/-
  A gather through a column of start indices, read at an index.

  What `x[idx]` lowers to when `idx` is a vector of E integers: a `stablehlo.gather` whose start indices are an E×1
  column, the one component of each start index naming a position on the operand's first axis. The start index is read
  as a signed integer and clamped into 0 … N − 1 (a negative one reads position 0, one past the end reads position N − 1).
  * Of a flat operand of N entries the result is a vector of E entries: entry e is the operand at that position.
  * Of an N×C operand, whole rows are taken: entry (e, c) is the operand at (that position, c).
-/
import Idealize.ShloMosaic.PureOps
import Idealize.ShloMosaic.Lib.ValueIdx

noncomputable section

namespace Cert.Lib.EdgeGather

open Idealize.ShloMosaic Idealize.ShloMosaic.ValueIdx

variable {α : Type} {N E C w : Nat}

/-- The position a start index names: read signed, clamped into 0 … N − 1. -/
def pos (N : Nat) (hN : 0 < N) (b : BitVec w) : Fin N := ⟨min b.toInt.toNat (N - 1), by omega⟩

/-- Dimension numbers of a gather of single entries of a flat operand through an E×1 column of start indices. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a gather of whole rows of an N×C operand through an E×1 column of start indices. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry e of the flat gather: the operand at the position start index e names. -/
theorem flat_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (pos N hN (idx (ix2 e (0 : Fin 1))))) := by
  unfold Host.gather
  congr 1
  funext a
  obtain rfl : a = 0 := Subsingleton.elim _ _
  refine Fin.ext ?_
  show (flatDims N E wf).start (ix1 e) idx 0 + (flatDims N E wf).batchCoord (ix1 e) 0 + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Entry (e, c) of the row gather: the operand at (the position start index e names, c). -/
theorem row_apply (hN : 0 < N) (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (pos N hN (idx (ix2 e (0 : Fin 1)))) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hs : (rowDims N E C wf).start (ix2 e c) idx 1 = 0 := by
      unfold GatherDims.start
      rw [dif_neg (fun h => absurd (congrArg Fin.val (List.mem_singleton.mp h)) Nat.one_ne_zero)]
    have ho : (rowDims N E C wf).offCoord (ix2 e c) 1 = c.val := by
      unfold GatherDims.offCoord
      rw [dif_pos (by simp [GatherDims.sKept, Shape.kept])]
      rfl
    rw [hs, ho]
    omega

end Cert.Lib.EdgeGather

end
-- ==== Proof.MeansReal.lean ====
/-
  The neighbour means are real-valued.

  The mean of a relation at destination row n and column c is
      ( 0 + ∑ over the edges e sent to row n of x(position of e, c) ) / max( 0 + number of such edges, 1 ).
  When every entry of the source array x is a real number (neither infinity), so is every entry of the mean, whatever
  the two index vectors hold:
  * a gathered row entry is an entry of x, hence real;
  * the numerator is zero plus a finite sum of gathered entries, hence real;
  * the count is zero plus a finite sum of ones, hence real, and its maximum with one is a real number at least one,
    so it is not zero; spread along the row it is the same number at every column;
  * a real number divided by a nonzero real number is a real number.
  This is proved once for any numbers of rows, edges and columns, and then read off for the three relations.
-/
import proofs.«165452_j57363583205826_1_alg».proof.Proof.Means
import proofs.«165452_j57363583205826_1_alg».proof.Proof.LibRealValued
import proofs.«165452_j57363583205826_1_alg».proof.Proof.LibRowScatter
import proofs.«165452_j57363583205826_1_alg».proof.Proof.LibEdgeGather
import Idealize.ShloMosaic.Lib.IdealHost
import Idealize.ShloMosaic.Lib.Pipeline.Value

noncomputable section

open scoped BigOperators

namespace Cert.MeansReal

open Idealize.ShloMosaic Idealize.ShloMosaic.ValueIdx Cert.ReferenceIdeal Cert.RealValued

/-! ## General facts: splat constants, a vector spread along rows, a maximum with one -/

/-- The constant word of one, spread over any shape, reads one everywhere. -/
theorem splat_one {T : Shape} (h : (⟨0, ![]⟩ : Shape).BroadcastsInDim T ![]) (j : T.Idx) :
    broadcastInDim T ![] h (constant (F := Ideal) ⟨0, ![]⟩ .f32 0x3F800000#32) j = 1 := by
  rw [broadcastInDim_scalar_apply, constant_apply, Ideal.ofBits_one_f32]

/-- The constant word of zero, spread over any shape, reads zero everywhere. -/
theorem splat_zero {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply, constant_apply, Ideal.ofBits_zero_f32]

/-- The maximum of a real-valued quantity with one is a real number that is not zero (it is at least one). -/
theorem max_one_ne_zero {x : EReal} (hx : IsReal x) : ∃ r : ℝ, r ≠ 0 ∧ max x 1 = (r : EReal) := by
  obtain ⟨a, rfl⟩ := hx
  refine ⟨max a 1, ?_, ?_⟩
  · exact ne_of_gt (lt_of_lt_of_le one_pos (le_max_right a 1))
  · rw [← EReal.coe_one, coe_max]

/-- A vector placed as a column, and the column repeated along each row, reads at (n, c) the vector at n. -/
theorem spread_apply {α : Type} {N C : ℕ} (h1 : (⟨1, ![N]⟩ : Shape).BroadcastsInDim ⟨2, ![N, 1]⟩ ![0])
    (h2 : (⟨2, ![N, 1]⟩ : Shape).BroadcastsInDim ⟨2, ![N, C]⟩ ![0, 1])
    (v : (⟨1, ![N]⟩ : Shape).Idx → α) (n : Fin N) (c : Fin C) :
    broadcastInDim ⟨2, ![N, C]⟩ ![0, 1] h2 (broadcastInDim ⟨2, ![N, 1]⟩ ![0] h1 v) (ix2 n c) = v (ix1 n) := by
  have e2 : broadcastInDim ⟨2, ![N, C]⟩ ![0, 1] h2 (broadcastInDim ⟨2, ![N, 1]⟩ ![0] h1 v) (ix2 n c)
      = broadcastInDim ⟨2, ![N, 1]⟩ ![0] h1 v (ix2 n (0 : Fin 1)) := by
    refine broadcastInDim_apply ![0, 1] h2 _ (ix2 n c) (ix2 n (0 : Fin 1)) fun a => ?_
    match a with
    | ⟨0, _⟩ =>
      show n.val = if N = 1 then 0 else n.val
      split
      · have := n.isLt; omega
      · rfl
    | ⟨1, _⟩ =>
      show (0 : ℕ) = if (1 : ℕ) = 1 then 0 else c.val
      simp
  have e1 : broadcastInDim ⟨2, ![N, 1]⟩ ![0] h1 v (ix2 n (0 : Fin 1)) = v (ix1 n) := by
    refine broadcastInDim_apply ![0] h1 v (ix2 n (0 : Fin 1)) (ix1 n) fun a => ?_
    match a with
    | ⟨0, _⟩ =>
      show n.val = if N = 1 then 0 else n.val
      split
      · have := n.isLt; omega
      · rfl
  exact e2.trans e1

/-! ## The three pieces of a mean -/

/-- Whole rows gathered from a real-valued array form a real-valued array, whatever the start indices: each entry
    of the result is an entry of the operand. -/
theorem gather_real {N E C w : ℕ} (hN : 0 < N)
    (wf : GatherDims.WF ⟨2, ![N, C]⟩ ⟨2, ![E, 1]⟩ ⟨2, ![E, C]⟩ [1] [0] [] [0] [] 1 ![1, C])
    (x : FVec Ideal ⟨2, ![N, C]⟩ .f32) (idx : IVec ⟨2, ![E, 1]⟩ w) (hx : ∀ i, IsReal (x i)) :
    ∀ j, IsReal (Host.gather (Cert.Lib.EdgeGather.rowDims N E C wf) x idx j) := by
  intro j
  obtain ⟨e, c, rfl⟩ : ∃ (e : Fin E) (c : Fin C), j = ix2 e c := ⟨j 0, j 1, eq_ix2 j⟩
  rw [Cert.Lib.EdgeGather.row_apply hN]
  exact hx _

/-- Real-valued updates accumulated into real-valued cells give real-valued cells: each cell receives a finite sum. -/
theorem cells_real {N E w : ℕ} (wf : ScatterDims.WF ⟨1, ![N]⟩ ⟨2, ![E, 1]⟩ ⟨1, ![E]⟩ [] [0] [0] 1)
    (z : FVec Ideal ⟨1, ![N]⟩ .f32) (idx : IVec ⟨2, ![E, 1]⟩ w) (u : FVec Ideal ⟨1, ![E]⟩ .f32)
    (hz : ∀ i, IsReal (z i)) (hu : ∀ i, IsReal (u i)) (n : Fin N) :
    IsReal (Host.scatterAdd (RowScatter.cellsDims N E wf) z idx u (ix1 n)) := by
  rw [RowScatter.cells_apply]
  exact (hz _).add (IsReal.sum _ _ fun e _ => hu _)

/-- The divisor of a mean — the count accumulated from real-valued updates, its maximum with one taken, spread along
    the rows — is at every entry a real number that is not zero. -/
theorem den_ne_zero {N E C w : ℕ} (wf : ScatterDims.WF ⟨1, ![N]⟩ ⟨2, ![E, 1]⟩ ⟨1, ![E]⟩ [] [0] [0] 1)
    (h1 : (⟨1, ![N]⟩ : Shape).BroadcastsInDim ⟨2, ![N, 1]⟩ ![0])
    (h2 : (⟨2, ![N, 1]⟩ : Shape).BroadcastsInDim ⟨2, ![N, C]⟩ ![0, 1])
    (z : FVec Ideal ⟨1, ![N]⟩ .f32) (idx : IVec ⟨2, ![E, 1]⟩ w) (u : FVec Ideal ⟨1, ![E]⟩ .f32)
    (one : FVec Ideal ⟨1, ![N]⟩ .f32)
    (hz : ∀ i, IsReal (z i)) (hu : ∀ i, IsReal (u i)) (hone : ∀ i, one i = 1) :
    ∀ i, ∃ r : ℝ, r ≠ 0 ∧
      broadcastInDim ⟨2, ![N, C]⟩ ![0, 1] h2 (broadcastInDim ⟨2, ![N, 1]⟩ ![0] h1
        (maximumf (Host.scatterAdd (RowScatter.cellsDims N E wf) z idx u) one)) i = (r : EReal) := by
  intro i
  obtain ⟨n, c, rfl⟩ : ∃ (n : Fin N) (c : Fin C), i = ix2 n c := ⟨i 0, i 1, eq_ix2 i⟩
  rw [spread_apply, maximumf_apply, hone]
  exact max_one_ne_zero (cells_real wf z idx u hz hu n)

/-- THE MEAN IS REAL-VALUED: real-valued rows accumulated into real-valued rows, divided entry by entry by real
    numbers that are not zero, give a real-valued array — each entry is a finite sum of real numbers over a nonzero
    real number. -/
theorem quotient_real {N E C w : ℕ} (wf : ScatterDims.WF ⟨2, ![N, C]⟩ ⟨2, ![E, 1]⟩ ⟨2, ![E, C]⟩ [1] [0] [0] 1)
    (z : FVec Ideal ⟨2, ![N, C]⟩ .f32) (idx : IVec ⟨2, ![E, 1]⟩ w) (upd : FVec Ideal ⟨2, ![E, C]⟩ .f32)
    (den : FVec Ideal ⟨2, ![N, C]⟩ .f32)
    (hz : ∀ i, IsReal (z i)) (hu : ∀ i, IsReal (upd i)) (hd : ∀ i, ∃ r : ℝ, r ≠ 0 ∧ den i = (r : EReal)) :
    ∀ i, IsReal (Host.divf (Host.scatterAdd (RowScatter.rowsDims N E C wf) z idx upd) den i) := by
  intro i
  obtain ⟨n, c, rfl⟩ : ∃ (n : Fin N) (c : Fin C), i = ix2 n c := ⟨i 0, i 1, eq_ix2 i⟩
  obtain ⟨r, hr, hden⟩ := hd (ix2 n c)
  rw [hostDivf_apply, RowScatter.rows_apply, hden]
  exact isReal_div_coe ((hz _).add (IsReal.sum _ _ fun e _ => hu _)) hr

/-! ## The three relations -/

section Relations
open Cert.ReferenceIdeal.Facts₀ Cert.Means

/-- The divisor over 25000 rows is everywhere a nonzero real number. -/
theorem den25_ne_zero (d : EdgeVec) : ∀ i, ∃ r : ℝ, r ≠ 0 ∧ den25 d i = (r : EReal) :=
  den_ne_zero (N := 25000) (E := 300000) (C := 256) scatter_S25000_S300000x1_S300000_n_0_0_1_wf
    bcast_S25000_S25000x1_0 bcast_S25000x1_S25000x256_0_1 _ (col d) ones _
    (fun i => by rw [splat_zero]; exact IsReal.zero)
    (fun i => by unfold ones; rw [splat_one]; exact IsReal.one)
    (fun i => splat_one _ i)

/-- The divisor over 50000 rows is everywhere a nonzero real number. -/
theorem den50_ne_zero (d : EdgeVec) : ∀ i, ∃ r : ℝ, r ≠ 0 ∧ den50 d i = (r : EReal) :=
  den_ne_zero (N := 50000) (E := 300000) (C := 256) scatter_S50000_S300000x1_S300000_n_0_0_1_wf
    bcast_S50000_S50000x1_0 bcast_S50000x1_S50000x256_0_1 _ (col d) ones _
    (fun i => by rw [splat_zero]; exact IsReal.zero)
    (fun i => by unfold ones; rw [splat_one]; exact IsReal.one)
    (fun i => splat_one _ i)

/-- Drug features averaged onto disease rows are real-valued when the drug features are. -/
theorem meanDD_real (x : Drug) (s d : EdgeVec) (hx : ∀ i, IsReal (x i)) : ∀ i, IsReal (meanDD x s d i) :=
  quotient_real (N := 25000) (E := 300000) (C := 256) scatter_S25000x256_S300000x1_S300000x256_1_0_0_1_wf
    _ (col d) _ (den25 d)
    (fun i => by rw [splat_zero]; exact IsReal.zero)
    (gather_real (N := 50000) (by norm_num) gather_S50000x256_S300000x1_S300000x256_1_0_n_n_0_1_1256_wf x (srcCol50 s) hx)
    (den25_ne_zero d)

/-- Disease features averaged onto drug rows are real-valued when the disease features are. -/
theorem meanSD_real (x : Dis) (s d : EdgeVec) (hx : ∀ i, IsReal (x i)) : ∀ i, IsReal (meanSD x s d i) :=
  quotient_real (N := 50000) (E := 300000) (C := 256) scatter_S50000x256_S300000x1_S300000x256_1_0_0_1_wf
    _ (col d) _ (den50 d)
    (fun i => by rw [splat_zero]; exact IsReal.zero)
    (gather_real (N := 25000) (by norm_num) gather_S25000x256_S300000x1_S300000x256_1_0_n_n_0_1_1256_wf x (srcCol25 s) hx)
    (den50_ne_zero d)

/-- Drug features averaged onto drug rows are real-valued when the drug features are. -/
theorem meanDR_real (x : Drug) (s d : EdgeVec) (hx : ∀ i, IsReal (x i)) : ∀ i, IsReal (meanDR x s d i) :=
  quotient_real (N := 50000) (E := 300000) (C := 256) scatter_S50000x256_S300000x1_S300000x256_1_0_0_1_wf
    _ (col d) _ (den50 d)
    (fun i => by rw [splat_zero]; exact IsReal.zero)
    (gather_real (N := 50000) (by norm_num) gather_S50000x256_S300000x1_S300000x256_1_0_n_n_0_1_1256_wf x (srcCol50 s) hx)
    (den50_ne_zero d)

end Relations

end Cert.MeansReal

end
-- ==== Proof.Algebra.lean ====
/-
  The fused program's four result arrays are the two layers of the plain computation.

  The fused program leaves, region after region, the fused disease layer and the fused drug layer of the current rows;
  the plain computation applies the plain layers. A fused disease layer IS the plain one (the sum regrouped). A fused
  drug layer is the plain one when the features it multiplies by the summed root weights are real numbers: the input
  features are (the precondition), and the first layer's drug rows are, being a plain drug layer of real-valued
  operands — the neighbour means of real-valued rows are real-valued. So both layers agree, and the stacked result is
  the plain computation's.
-/
import proofs.«165452_j57363583205826_1_alg».proof.Proof.LayerReal
import proofs.«165452_j57363583205826_1_alg».proof.Proof.Forward
import proofs.«165452_j57363583205826_1_alg».proof.Proof.MeansReal

noncomputable section

namespace Cert.Algebra

open Idealize.ShloMosaic Cert.ReferenceIdeal Cert.ReferenceIdeal.Facts₀ Cert.Layer Cert.Means Cert.Forward Cert.RealValued

theorem stacked_eq (A0 : Drug) (A1 : Dis) (A2 A3 : Wts) (A4 : Bias) (A5 A6 A7 A8 A9 A10 : EdgeVec)
    (h0 : ∀ i, IsReal (A0 i)) (h1 : ∀ i, IsReal (A1 i)) (h2 : ∀ i, IsReal (A2 i)) (h3 : ∀ i, IsReal (A3 i))
    (h4 : ∀ i, IsReal (A4 i))
    (S1 : Dis) (D1 : Drug) (S2 : Dis) (D2 : Drug)
    (hS1 : S1 = disOutK (meanDD A0 A5 A6) A1 (wsl A2 0 0) (wsl A3 0 0) (bsl A4 0 0))
    (hD1 : D1 = drugOutK (meanSD A1 A7 A8) (meanDR A0 A9 A10) A0 (wsl A2 0 1) (wsl A2 0 2)
      (fun i => wsl A3 0 1 i + wsl A3 0 2 i) (fun q => bsl A4 0 1 q + bsl A4 0 2 q))
    (hS2 : S2 = disOutK (meanDD D1 A5 A6) S1 (wsl A2 1 0) (wsl A3 1 0) (bsl A4 1 0))
    (hD2 : D2 = drugOutK (meanSD S1 A7 A8) (meanDR D1 A9 A10) D1 (wsl A2 1 1) (wsl A2 1 2)
      (fun i => wsl A3 1 1 i + wsl A3 1 2 i) (fun q => bsl A4 1 1 q + bsl A4 1 2 q)) :
    concatenate S75000x256 0 [⟨S50000x256, D2⟩, ⟨S25000x256, S2⟩] concatenates_S50000x256_S25000x256_S75000x256_d0
      = forward A0 A1 A2 A3 A4 A5 A6 A7 A8 A9 A10 := by
  have eS1 : S1 = dis1 A0 A1 A2 A3 A4 A5 A6 := hS1.trans (disOutK_eq _ _ _ _ _)
  have eD1 : D1 = drug1 A0 A1 A2 A3 A4 A7 A8 A9 A10 :=
    hD1.trans (drugOutK_eq _ _ _ _ _ _ _ _ _ h0 (wsl_real A3 0 1 h3) (wsl_real A3 0 2 h3))
  have rD1 : ∀ i, IsReal (D1 i) := by
    rw [eD1]
    exact drugOut_real _ _ _ _ _ _ _ _ _ (Cert.MeansReal.meanSD_real A1 A7 A8 h1) (Cert.MeansReal.meanDR_real A0 A9 A10 h0) h0
      (wsl_real A2 0 1 h2) (wsl_real A2 0 2 h2) (wsl_real A3 0 1 h3) (wsl_real A3 0 2 h3)
      (bsl_real A4 0 1 h4) (bsl_real A4 0 2 h4)
  have eS2 : S2 = disLayer 1 D1 S1 A2 A3 A4 A5 A6 := hS2.trans (disOutK_eq _ _ _ _ _)
  have eD2 : D2 = drugLayer 1 D1 S1 A2 A3 A4 A7 A8 A9 A10 :=
    hD2.trans (drugOutK_eq _ _ _ _ _ _ _ _ _ rD1 (wsl_real A3 1 1 h3) (wsl_real A3 1 2 h3))
  rw [eD2, eS2, eD1, eS1]
  rfl

end Cert.Algebra

end
-- ==== Proof.FiniteArgs.lean ====
/-
  The precondition makes every float argument real-valued. The precondition is the conjunction, over the five
  float arguments x, of "every entry of x satisfies |x i| < +∞", each conjunct being a reduction by "and" of the
  array of comparison bits over all axes. Read at the extended reals, |x| is max x (-x) and the word 0x7F800000 is
  +∞; so a conjunction equal to 1 gives max (x i) (-(x i)) < ⊤ at every index i of every float argument. Of the
  three kinds of extended real, ⊥ and ⊤ both have max x (-x) = ⊤, which is not below ⊤; what remains is the image
  of a real number.
-/
import proofs.«165452_j57363583205826_1_alg».proof.Defs
import proofs.«165452_j57363583205826_1_alg».proof.Proof.Gen.Pre_finite_inputs
import proofs.«165452_j57363583205826_1_alg».proof.Proof.LibRealValued
import Idealize.ShloMosaic.Lib.ReduceAll
import Idealize.ShloMosaic.Lib.ValueIdx
import Idealize.ShloMosaic.Lib.IdealHost

noncomputable section

namespace Cert.FiniteArgs

open Idealize.ShloMosaic Idealize.ShloMosaic.ValueIdx Cert.Pre_finite_inputs Cert.RealValued

/-- The scalar shape has exactly one index: an index is a function on the empty set of axes. -/
instance subsingleton_scalar_idx : Subsingleton S_.Idx := ⟨fun a b => funext fun d => d.elim0⟩

/-- The single-precision word 0x7F800000 (sign 0, exponent all ones, fraction 0) denotes +∞. -/
theorem top_f32 : Ideal.ofBits .f32 0x7F800000#32 = (⊤ : EReal) := by simp [Ideal.ofBits, Ideal.ieee]

/-- An extended real whose absolute value max x (-x) is strictly below +∞ is the image of a real number:
    at x = ⊥ and at x = ⊤ the absolute value is ⊤ itself. -/
theorem isReal_of_abs_lt_top (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

/-- One conjunct of the precondition, at any shape s: if the conjunction over all indices i of the bits
    "|x i| < +∞" is 1, then every entry of x is real-valued. -/
theorem all_real {s : Shape} {axes : List (Fin s.rank)} (hb : S_.BroadcastsInDim s (![] : Fin 0 → Fin s.rank))
    (hr : s.ReducesTo axes S_) (hS : 0 < S_.numel) (x : FVec Ideal s .f32)
    (e : Host.reduce IntOp.andi (cmpf .olt (Host.absf x) (broadcastInDim s ![] hb (constant S_ .f32 0x7F800000#32)))
          (constantI S_ 1 1#1) hr hS ix0 = 1#1) (i : s.Idx) : IsReal (x i) := by
  -- a conjunction that is 1 has every conjunct 1: the bit at index i
  have h := Host.reduce_andi_all _ _ hr hS ix0 e i
  -- the bit at i compares |x i| with the broadcast scalar, which is +∞ at every index
  rw [cmpf_apply, broadcastInDim_scalar_apply] at h
  apply isReal_of_abs_lt_top
  rw [← top_f32]
  exact h

/-- Under the precondition (the predicate is 1 at its one index), every entry of each of the five float
    arguments is real-valued. The six integer arguments do not occur in the predicate. -/
theorem real_args [hPre : Cert.Pre_finite_inputs.Facts]
    (x0 : FVec Ideal S50000x256 .f32) (x1 : FVec Ideal S25000x256 .f32)
    (x2 x3 : FVec Ideal S2x3x256x256 .f32) (x4 : FVec Ideal S2x3x256 .f32)
    (x5 x6 x7 x8 x9 x10 : IVec S300000 32)
    (h : Cert.Pre_finite_inputs.fn (F := Ideal) x0 x1 x2 x3 x4 x5 x6 x7 x8 x9 x10 = (fun _ => 1#1)) :
    (∀ i, IsReal (x0 i)) ∧ (∀ i, IsReal (x1 i)) ∧ (∀ i, IsReal (x2 i)) ∧ (∀ i, IsReal (x3 i))
      ∧ (∀ i, IsReal (x4 i)) := by
  have e := congrFun h ix0
  -- the predicate is (((a0 ∧ a1) ∧ a2) ∧ a3) ∧ a4, with ak the conjunction over all entries of argument k
  dsimp only [Cert.Pre_finite_inputs.fn, Cert.Pre_finite_inputs.fn_part1, andi] at e
  obtain ⟨⟨⟨⟨e0, e1⟩, e2⟩, e3⟩, e4⟩ :
      (((_ = 1#1 ∧ _ = 1#1) ∧ _ = 1#1) ∧ _ = 1#1) ∧ _ = 1#1 := by
    simpa only [IntOp.andi_eq_one] using e
  exact ⟨all_real _ _ _ x0 e0, all_real _ _ _ x1 e1, all_real _ _ _ x2 e2, all_real _ _ _ x3 e3,
    all_real _ _ _ x4 e4⟩

end Cert.FiniteArgs

end
-- ==== Proof.KValue.lean ====
/-
  The fused program's result is the plain computation of its arguments.

  Walking through the program: region 0 leaves the fused disease layer of (the drug → disease mean of the input drug
  rows, the input disease rows, the first relation's weights and bias); region 1 the fused drug layer of (the two means
  into drug rows, the input drug rows, the two neighbour weights, the SUM of the two root weights, the SUM of the two
  biases); regions 2 and 3 the same of the first layer's rows with the second layer's weights; the last host line stacks
  region 3's array on region 2's. The weight matrices and bias rows the host prepares are the slices of the stacked
  arguments (a bias vector laid as a 1 × 256 row reads at (0, q) the vector at q). With real-valued float arguments —
  the precondition — the fused layers are the plain layers, so the stacked result is the plain computation.
-/
import proofs.«165452_j57363583205826_1_alg».proof.Proof.Blocks0
import proofs.«165452_j57363583205826_1_alg».proof.Proof.Blocks1
import proofs.«165452_j57363583205826_1_alg».proof.Proof.Blocks2
import proofs.«165452_j57363583205826_1_alg».proof.Proof.Blocks3
import proofs.«165452_j57363583205826_1_alg».proof.Proof.KHost0
import proofs.«165452_j57363583205826_1_alg».proof.Proof.KHost1
import proofs.«165452_j57363583205826_1_alg».proof.Proof.KHost2
import proofs.«165452_j57363583205826_1_alg».proof.Proof.KHost3
import proofs.«165452_j57363583205826_1_alg».proof.Proof.KHost4
import proofs.«165452_j57363583205826_1_alg».proof.Proof.RefSlices
import proofs.«165452_j57363583205826_1_alg».proof.Proof.Algebra
import proofs.«165452_j57363583205826_1_alg».proof.Proof.FiniteArgs
import Idealize.ShloMosaic.Lib.ValueLayout

set_option maxRecDepth 16384

noncomputable section

namespace Cert.KernelIdeal.KValue

open Cert.KernelIdeal Cert.KernelIdeal.Gen Cert.KernelIdeal.HostSide
open Idealize.ShloMosaic Idealize.ShloMosaic.TcCoe Idealize.ShloMosaic.ValueIdx Idealize.SL.Sem
open Cert.Layer Cert.Means Cert.RefSide Cert.RealValued Cert.ReferenceIdeal.Read

variable (m : (ℓ : Loc nD τ sig) → Buf (Elt Ideal) ℓ) (ρ : Dev nD → PrngReg) (c : Dev nD)

/-- The disease rows after the first layer. -/
theorem dis_first : S1 m ρ c = disOutK (meanDD (A0 m c) (A5 m c) (A6 m c)) (A1 m c) (wsl (A2 m c) 0 0) (wsl (A3 m c) 0 0)
    (bsl (A4 m c) 0 0) := by
  refine (W2_arr m ρ c 5).trans ((Blocks0.final (V1 m ρ) c).trans ?_)
  unfold Blocks0.G Blocks0.biasRow
  rw [V1_v77 m ρ c, V1_v78 m ρ c, V1_v79 m ρ c, V1_v80 m ρ c, V1_v81 m ρ c, w1, w3]
  refine congrArg _ (funext fun q => ?_)
  rw [shapeCast_a_1a_apply, b5]

/-- The drug rows after the first layer. -/
theorem drug_first : D1 m ρ c = drugOutK (meanSD (A1 m c) (A7 m c) (A8 m c)) (meanDR (A0 m c) (A9 m c) (A10 m c)) (A0 m c)
    (wsl (A2 m c) 0 1) (wsl (A2 m c) 0 2) (fun i => wsl (A3 m c) 0 1 i + wsl (A3 m c) 0 2 i)
    (fun q => bsl (A4 m c) 0 1 q + bsl (A4 m c) 0 2 q) := by
  refine (W4_arr m ρ c 7).trans ((Blocks1.final (V3 m ρ) c).trans ?_)
  unfold Blocks1.G Blocks1.biasRow
  rw [V3_v83 m ρ c, V3_v84 m ρ c, V3_v85 m ρ c, V3_v86 m ρ c, V3_v87 m ρ c, V3_v88 m ρ c, V3_v89 m ρ c, w32, w63, w34, w65]
  refine congrArg₂ (drugOutK _ _ _ _ _) rfl (funext fun q => ?_)
  rw [shapeCast_a_1a_apply]
  show val_main_v36 (F := Ideal) (A4 m c) (ix1 q) + val_main_v67 (F := Ideal) (A4 m c) (ix1 q) = _
  rw [b36, b67]

/-- The disease rows after the second layer. -/
theorem dis_second : W6 m ρ c (Proc.devRef .tc main_v173)
    = disOutK (meanDD (D1 m ρ c) (A5 m c) (A6 m c)) (S1 m ρ c) (wsl (A2 m c) 1 0) (wsl (A3 m c) 1 0) (bsl (A4 m c) 1 0) := by
  refine (W6_arr m ρ c 5).trans ((Blocks2.final (V5 m ρ) c).trans ?_)
  unfold Blocks2.G Blocks2.biasRow
  rw [V5_v168 m ρ c, V5_v169 m ρ c, V5_v170 m ρ c, V5_v171 m ρ c, V5_v172 m ρ c, w99, w101]
  refine congrArg _ (funext fun q => ?_)
  rw [shapeCast_a_1a_apply, b103]

/-- The drug rows after the second layer. -/
theorem drug_second : W8 m ρ c (Proc.devRef .tc main_v181)
    = drugOutK (meanSD (S1 m ρ c) (A7 m c) (A8 m c)) (meanDR (D1 m ρ c) (A9 m c) (A10 m c)) (D1 m ρ c)
      (wsl (A2 m c) 1 1) (wsl (A2 m c) 1 2) (fun i => wsl (A3 m c) 1 1 i + wsl (A3 m c) 1 2 i)
      (fun q => bsl (A4 m c) 1 1 q + bsl (A4 m c) 1 2 q) := by
  refine (W8_arr m ρ c 7).trans ((Blocks3.final (V7 m ρ) c).trans ?_)
  unfold Blocks3.G Blocks3.biasRow
  rw [V7_v174 m ρ c, V7_v175 m ρ c, V7_v176 m ρ c, V7_v177 m ρ c, V7_v178 m ρ c, V7_v179 m ρ c, V7_v180 m ρ c, w130, w161, w132, w163]
  refine congrArg₂ (drugOutK _ _ _ _ _) rfl (funext fun q => ?_)
  rw [shapeCast_a_1a_apply]
  show val_main_v134 (F := Ideal) (A4 m c) (ix1 q) + val_main_v165 (F := Ideal) (A4 m c) (ix1 q) = _
  rw [b134, b165]

/-- Under the precondition the result array ends at the plain computation of the argument arrays. -/
theorem result_eq (hpre : Cert.Pre_KernelIdeal m) :
    W9 m ρ c (Proc.devRef .tc main_v182)
      = Cert.Forward.forward (A0 m c) (A1 m c) (A2 m c) (A3 m c) (A4 m c) (A5 m c) (A6 m c) (A7 m c) (A8 m c) (A9 m c) (A10 m c) := by
  obtain ⟨h0, h1, h2, h3, h4⟩ := Cert.FiniteArgs.real_args _ _ _ _ _ _ _ _ _ _ _ (hpre c)
  exact (W9_v182 m ρ c).trans (Cert.Algebra.stacked_eq _ _ _ _ _ _ _ _ _ _ _ h0 h1 h2 h3 h4 _ _ _ _
    (dis_first m ρ c) (drug_first m ρ c) (dis_second m ρ c) (drug_second m ρ c))

end Cert.KernelIdeal.KValue

end
-- ==== Proof.RefLayer0.lean ====
/-
  The plain program's first layer, stage by stage, as the layer functions of the arguments.

  Each neighbour mean is, operation for operation, the shared mean function. Each product stage read at (r, q) is the
  sum over k of its left operand at (r, k) times its weight matrix at (k, q). The disease rows are then
  max((mean · Wl + b) + x · Wr, 0) and the drug rows max(½ · (((m₁ · Wl₁ + b₁) + x · Wr₁) + ((m₂ · Wl₂ + b₂) + x · Wr₂)), 0),
  in exactly the grouping of the layer functions, so no law of arithmetic is used.
-/
import proofs.«165452_j57363583205826_1_alg».proof.Proof.RefSlices
import proofs.«165452_j57363583205826_1_alg».proof.Proof.Means

noncomputable section

open scoped BigOperators

namespace Cert.RefSide

open Idealize.ShloMosaic Idealize.ShloMosaic.ValueIdx Cert.ReferenceIdeal Cert.ReferenceIdeal.Read Cert.Layer Cert.Means

/-! ## The three neighbour means are the shared mean functions of the arguments -/

theorem m24 (x0 : Drug) (x5 x6 : EdgeVec) : val_main_v24 (F := Ideal) x0 x5 x6 = meanDD x0 x5 x6 := rfl
theorem m55 (x1 : Dis) (x7 x8 : EdgeVec) : val_main_v55 (F := Ideal) x1 x7 x8 = meanSD x1 x7 x8 := rfl
theorem m86 (x0 : Drug) (x9 x10 : EdgeVec) : val_main_v86 (F := Ideal) x0 x9 x10 = meanDR x0 x9 x10 := rfl

/-! ## The six products, each a row of its left operand against a column of its weight matrix -/

/-- The drug → disease mean times its weights, at (r, q). -/
theorem d25 (x0 : Drug) (x2 : W4) (x5 : EdgeVec) (x6 : EdgeVec) (r : Fin 25000) (q : Fin 256) :
    val_main_v25 (F := Ideal) x0 x2 x5 x6 (ix2 r q) = dot (n := 25000) (meanDD x0 x5 x6) (wsl x2 0 0) r q := by
  rw [val_main_v25_apply, m24, w1]
  unfold dot
  refine Finset.sum_congr rfl fun k _ => ?_
  rw [show lidx_main_v25 (ix2 r q) k = ix2 r k from
      funext fun a => by match a with | ⟨0, _⟩ => rfl | ⟨1, _⟩ => rfl,
    show ridx_main_v25 (ix2 r q) k = ix2 k q from
      funext fun a => by match a with | ⟨0, _⟩ => rfl | ⟨1, _⟩ => rfl]

/-- The disease rows times their root weights, at (r, q). -/
theorem d29 (x1 : Dis) (x3 : W4) (r : Fin 25000) (q : Fin 256) :
    val_main_v29 (F := Ideal) x1 x3 (ix2 r q) = dot (n := 25000) x1 (wsl x3 0 0) r q := by
  rw [val_main_v29_apply, w3]
  unfold dot
  refine Finset.sum_congr rfl fun k _ => ?_
  rw [show lidx_main_v29 (ix2 r q) k = ix2 r k from
      funext fun a => by match a with | ⟨0, _⟩ => rfl | ⟨1, _⟩ => rfl,
    show ridx_main_v29 (ix2 r q) k = ix2 k q from
      funext fun a => by match a with | ⟨0, _⟩ => rfl | ⟨1, _⟩ => rfl]

/-- The disease → drug mean times its weights, at (r, q). -/
theorem d56 (x1 : Dis) (x2 : W4) (x7 : EdgeVec) (x8 : EdgeVec) (r : Fin 50000) (q : Fin 256) :
    val_main_v56 (F := Ideal) x1 x2 x7 x8 (ix2 r q) = dot (n := 50000) (meanSD x1 x7 x8) (wsl x2 0 1) r q := by
  rw [val_main_v56_apply, m55, w32]
  unfold dot
  refine Finset.sum_congr rfl fun k _ => ?_
  rw [show lidx_main_v56 (ix2 r q) k = ix2 r k from
      funext fun a => by match a with | ⟨0, _⟩ => rfl | ⟨1, _⟩ => rfl,
    show ridx_main_v56 (ix2 r q) k = ix2 k q from
      funext fun a => by match a with | ⟨0, _⟩ => rfl | ⟨1, _⟩ => rfl]

/-- The drug rows times the root weights of relation 1, at (r, q). -/
theorem d60 (x0 : Drug) (x3 : W4) (r : Fin 50000) (q : Fin 256) :
    val_main_v60 (F := Ideal) x0 x3 (ix2 r q) = dot (n := 50000) x0 (wsl x3 0 1) r q := by
  rw [val_main_v60_apply, w34]
  unfold dot
  refine Finset.sum_congr rfl fun k _ => ?_
  rw [show lidx_main_v60 (ix2 r q) k = ix2 r k from
      funext fun a => by match a with | ⟨0, _⟩ => rfl | ⟨1, _⟩ => rfl,
    show ridx_main_v60 (ix2 r q) k = ix2 k q from
      funext fun a => by match a with | ⟨0, _⟩ => rfl | ⟨1, _⟩ => rfl]

/-- The drug → drug mean times its weights, at (r, q). -/
theorem d87 (x0 : Drug) (x2 : W4) (x9 : EdgeVec) (x10 : EdgeVec) (r : Fin 50000) (q : Fin 256) :
    val_main_v87 (F := Ideal) x0 x2 x9 x10 (ix2 r q) = dot (n := 50000) (meanDR x0 x9 x10) (wsl x2 0 2) r q := by
  rw [val_main_v87_apply, m86, w63]
  unfold dot
  refine Finset.sum_congr rfl fun k _ => ?_
  rw [show lidx_main_v87 (ix2 r q) k = ix2 r k from
      funext fun a => by match a with | ⟨0, _⟩ => rfl | ⟨1, _⟩ => rfl,
    show ridx_main_v87 (ix2 r q) k = ix2 k q from
      funext fun a => by match a with | ⟨0, _⟩ => rfl | ⟨1, _⟩ => rfl]

/-- The drug rows times the root weights of relation 2, at (r, q). -/
theorem d91 (x0 : Drug) (x3 : W4) (r : Fin 50000) (q : Fin 256) :
    val_main_v91 (F := Ideal) x0 x3 (ix2 r q) = dot (n := 50000) x0 (wsl x3 0 2) r q := by
  rw [val_main_v91_apply, w65]
  unfold dot
  refine Finset.sum_congr rfl fun k _ => ?_
  rw [show lidx_main_v91 (ix2 r q) k = ix2 r k from
      funext fun a => by match a with | ⟨0, _⟩ => rfl | ⟨1, _⟩ => rfl,
    show ridx_main_v91 (ix2 r q) k = ix2 k q from
      funext fun a => by match a with | ⟨0, _⟩ => rfl | ⟨1, _⟩ => rfl]

/-! ## The rows after the first layer -/

/-- The disease rows after the first layer: relu(mean · Wl + b + x · Wr) of the arguments. -/
theorem v97_eq (x0 : Drug) (x1 : Dis) (x2 x3 : W4) (x4 : B3) (x5 x6 : EdgeVec) :
    val_main_v97 (F := Ideal) x0 x1 x2 x3 x4 x5 x6
      = disOut (meanDD x0 x5 x6) x1 (wsl x2 0 0) (wsl x3 0 0) (bsl x4 0 0) := by
  funext i
  obtain ⟨r, q, rfl⟩ : ∃ (r : Fin 25000) (q : Fin 256), i = ix2 r q := ⟨i 0, i 1, eq_ix2 i⟩
  rw [val_main_v97_apply, val_main_v30_apply, val_main_v28_apply, d25, b27, d29, zero1, disOut_ix2]
  rfl

/-- The drug rows after the first layer: relu(½ · (the relation-1 term + the relation-2 term)) of the arguments. -/
theorem v96_eq (x0 : Drug) (x1 : Dis) (x2 x3 : W4) (x4 : B3) (x7 x8 x9 x10 : EdgeVec) :
    val_main_v96 (F := Ideal) x0 x1 x2 x3 x4 x7 x8 x9 x10
      = drugOut (meanSD x1 x7 x8) (meanDR x0 x9 x10) x0 (wsl x2 0 1) (wsl x2 0 2) (wsl x3 0 1) (wsl x3 0 2)
          (bsl x4 0 1) (bsl x4 0 2) := by
  funext i
  obtain ⟨r, q, rfl⟩ : ∃ (r : Fin 50000) (q : Fin 256), i = ix2 r q := ⟨i 0, i 1, eq_ix2 i⟩
  rw [val_main_v96_apply, val_main_v95_apply, val_main_v93_apply, val_main_v61_apply, val_main_v59_apply,
    val_main_v92_apply, val_main_v90_apply, d56, b58, d60, d87, b89, d91, half94, zero0, drugOut_ix2]
  rfl

end Cert.RefSide

end
-- ==== Proof.RefLayer1.lean ====
/-
  The plain program's second layer, stage by stage, as the layer functions of the FIRST layer's rows.

  The same reading as for the first layer, with the first layer's drug and disease stages in the place of the two
  feature arguments and the weights and biases of layer 1.
-/
import proofs.«165452_j57363583205826_1_alg».proof.Proof.RefSlices
import proofs.«165452_j57363583205826_1_alg».proof.Proof.Means

noncomputable section

open scoped BigOperators

namespace Cert.RefSide

open Idealize.ShloMosaic Idealize.ShloMosaic.ValueIdx Cert.ReferenceIdeal Cert.ReferenceIdeal.Read Cert.Layer Cert.Means

/-! ## The second layer's means are the shared mean functions of the first layer's rows -/

theorem m122 (x0 : Drug) (x1 : Dis) (x2 x3 : W4) (x4 : B3) (x5 x6 x7 x8 x9 x10 : EdgeVec) :
    val_main_v122 (F := Ideal) x0 x1 x2 x3 x4 x5 x6 x7 x8 x9 x10 = meanDD (val_main_v96 (F := Ideal) x0 x1 x2 x3 x4 x7 x8 x9 x10) x5 x6 := rfl
theorem m153 (x0 : Drug) (x1 : Dis) (x2 : W4) (x3 : W4) (x4 : B3) (x5 : EdgeVec) (x6 : EdgeVec) (x7 : EdgeVec) (x8 : EdgeVec) :
    val_main_v153 (F := Ideal) x0 x1 x2 x3 x4 x5 x6 x7 x8 = meanSD (val_main_v97 (F := Ideal) x0 x1 x2 x3 x4 x5 x6) x7 x8 := rfl
theorem m184 (x0 : Drug) (x1 : Dis) (x2 : W4) (x3 : W4) (x4 : B3) (x7 : EdgeVec) (x8 : EdgeVec) (x9 : EdgeVec) (x10 : EdgeVec) :
    val_main_v184 (F := Ideal) x0 x1 x2 x3 x4 x7 x8 x9 x10 = meanDR (val_main_v96 (F := Ideal) x0 x1 x2 x3 x4 x7 x8 x9 x10) x9 x10 := rfl

/-! ## The six products of the second layer -/

/-- The drug → disease mean of the first layer's drug rows times its weights, at (r, q). -/
theorem d123 (x0 : Drug) (x1 : Dis) (x2 : W4) (x3 : W4) (x4 : B3) (x5 : EdgeVec) (x6 : EdgeVec) (x7 : EdgeVec) (x8 : EdgeVec) (x9 : EdgeVec) (x10 : EdgeVec) (r : Fin 25000) (q : Fin 256) :
    val_main_v123 (F := Ideal) x0 x1 x2 x3 x4 x5 x6 x7 x8 x9 x10 (ix2 r q) = dot (n := 25000) (meanDD (val_main_v96 (F := Ideal) x0 x1 x2 x3 x4 x7 x8 x9 x10) x5 x6) (wsl x2 1 0) r q := by
  rw [val_main_v123_apply, m122, w99]
  unfold dot
  refine Finset.sum_congr rfl fun k _ => ?_
  rw [show lidx_main_v123 (ix2 r q) k = ix2 r k from
      funext fun a => by match a with | ⟨0, _⟩ => rfl | ⟨1, _⟩ => rfl,
    show ridx_main_v123 (ix2 r q) k = ix2 k q from
      funext fun a => by match a with | ⟨0, _⟩ => rfl | ⟨1, _⟩ => rfl]

/-- The first layer's disease rows times their root weights, at (r, q). -/
theorem d127 (x0 : Drug) (x1 : Dis) (x2 : W4) (x3 : W4) (x4 : B3) (x5 : EdgeVec) (x6 : EdgeVec) (r : Fin 25000) (q : Fin 256) :
    val_main_v127 (F := Ideal) x0 x1 x2 x3 x4 x5 x6 (ix2 r q) = dot (n := 25000) (val_main_v97 (F := Ideal) x0 x1 x2 x3 x4 x5 x6) (wsl x3 1 0) r q := by
  rw [val_main_v127_apply, w101]
  unfold dot
  refine Finset.sum_congr rfl fun k _ => ?_
  rw [show lidx_main_v127 (ix2 r q) k = ix2 r k from
      funext fun a => by match a with | ⟨0, _⟩ => rfl | ⟨1, _⟩ => rfl,
    show ridx_main_v127 (ix2 r q) k = ix2 k q from
      funext fun a => by match a with | ⟨0, _⟩ => rfl | ⟨1, _⟩ => rfl]

/-- The disease → drug mean of the first layer's disease rows times its weights, at (r, q). -/
theorem d154 (x0 : Drug) (x1 : Dis) (x2 : W4) (x3 : W4) (x4 : B3) (x5 : EdgeVec) (x6 : EdgeVec) (x7 : EdgeVec) (x8 : EdgeVec) (r : Fin 50000) (q : Fin 256) :
    val_main_v154 (F := Ideal) x0 x1 x2 x3 x4 x5 x6 x7 x8 (ix2 r q) = dot (n := 50000) (meanSD (val_main_v97 (F := Ideal) x0 x1 x2 x3 x4 x5 x6) x7 x8) (wsl x2 1 1) r q := by
  rw [val_main_v154_apply, m153, w130]
  unfold dot
  refine Finset.sum_congr rfl fun k _ => ?_
  rw [show lidx_main_v154 (ix2 r q) k = ix2 r k from
      funext fun a => by match a with | ⟨0, _⟩ => rfl | ⟨1, _⟩ => rfl,
    show ridx_main_v154 (ix2 r q) k = ix2 k q from
      funext fun a => by match a with | ⟨0, _⟩ => rfl | ⟨1, _⟩ => rfl]

/-- The first layer's drug rows times the root weights of relation 1, at (r, q). -/
theorem d158 (x0 : Drug) (x1 : Dis) (x2 : W4) (x3 : W4) (x4 : B3) (x7 : EdgeVec) (x8 : EdgeVec) (x9 : EdgeVec) (x10 : EdgeVec) (r : Fin 50000) (q : Fin 256) :
    val_main_v158 (F := Ideal) x0 x1 x2 x3 x4 x7 x8 x9 x10 (ix2 r q) = dot (n := 50000) (val_main_v96 (F := Ideal) x0 x1 x2 x3 x4 x7 x8 x9 x10) (wsl x3 1 1) r q := by
  rw [val_main_v158_apply, w132]
  unfold dot
  refine Finset.sum_congr rfl fun k _ => ?_
  rw [show lidx_main_v158 (ix2 r q) k = ix2 r k from
      funext fun a => by match a with | ⟨0, _⟩ => rfl | ⟨1, _⟩ => rfl,
    show ridx_main_v158 (ix2 r q) k = ix2 k q from
      funext fun a => by match a with | ⟨0, _⟩ => rfl | ⟨1, _⟩ => rfl]

/-- The drug → drug mean of the first layer's drug rows times its weights, at (r, q). -/
theorem d185 (x0 : Drug) (x1 : Dis) (x2 : W4) (x3 : W4) (x4 : B3) (x7 : EdgeVec) (x8 : EdgeVec) (x9 : EdgeVec) (x10 : EdgeVec) (r : Fin 50000) (q : Fin 256) :
    val_main_v185 (F := Ideal) x0 x1 x2 x3 x4 x7 x8 x9 x10 (ix2 r q) = dot (n := 50000) (meanDR (val_main_v96 (F := Ideal) x0 x1 x2 x3 x4 x7 x8 x9 x10) x9 x10) (wsl x2 1 2) r q := by
  rw [val_main_v185_apply, m184, w161]
  unfold dot
  refine Finset.sum_congr rfl fun k _ => ?_
  rw [show lidx_main_v185 (ix2 r q) k = ix2 r k from
      funext fun a => by match a with | ⟨0, _⟩ => rfl | ⟨1, _⟩ => rfl,
    show ridx_main_v185 (ix2 r q) k = ix2 k q from
      funext fun a => by match a with | ⟨0, _⟩ => rfl | ⟨1, _⟩ => rfl]

/-- The first layer's drug rows times the root weights of relation 2, at (r, q). -/
theorem d189 (x0 : Drug) (x1 : Dis) (x2 : W4) (x3 : W4) (x4 : B3) (x7 : EdgeVec) (x8 : EdgeVec) (x9 : EdgeVec) (x10 : EdgeVec) (r : Fin 50000) (q : Fin 256) :
    val_main_v189 (F := Ideal) x0 x1 x2 x3 x4 x7 x8 x9 x10 (ix2 r q) = dot (n := 50000) (val_main_v96 (F := Ideal) x0 x1 x2 x3 x4 x7 x8 x9 x10) (wsl x3 1 2) r q := by
  rw [val_main_v189_apply, w163]
  unfold dot
  refine Finset.sum_congr rfl fun k _ => ?_
  rw [show lidx_main_v189 (ix2 r q) k = ix2 r k from
      funext fun a => by match a with | ⟨0, _⟩ => rfl | ⟨1, _⟩ => rfl,
    show ridx_main_v189 (ix2 r q) k = ix2 k q from
      funext fun a => by match a with | ⟨0, _⟩ => rfl | ⟨1, _⟩ => rfl]

/-! ## The rows after the second layer, from the rows after the first -/

/-- The disease rows after the second layer. -/
theorem v195_eq (x0 : Drug) (x1 : Dis) (x2 x3 : W4) (x4 : B3) (x5 x6 x7 x8 x9 x10 : EdgeVec) :
    val_main_v195 (F := Ideal) x0 x1 x2 x3 x4 x5 x6 x7 x8 x9 x10
      = disOut (meanDD (val_main_v96 (F := Ideal) x0 x1 x2 x3 x4 x7 x8 x9 x10) x5 x6) (val_main_v97 (F := Ideal) x0 x1 x2 x3 x4 x5 x6) (wsl x2 1 0) (wsl x3 1 0) (bsl x4 1 0) := by
  funext i
  obtain ⟨r, q, rfl⟩ : ∃ (r : Fin 25000) (q : Fin 256), i = ix2 r q := ⟨i 0, i 1, eq_ix2 i⟩
  rw [val_main_v195_apply, val_main_v128_apply, val_main_v126_apply, d123, b125, d127, zero3, disOut_ix2]
  rfl

/-- The drug rows after the second layer. -/
theorem v194_eq (x0 : Drug) (x1 : Dis) (x2 x3 : W4) (x4 : B3) (x5 x6 x7 x8 x9 x10 : EdgeVec) :
    val_main_v194 (F := Ideal) x0 x1 x2 x3 x4 x5 x6 x7 x8 x9 x10
      = drugOut (meanSD (val_main_v97 (F := Ideal) x0 x1 x2 x3 x4 x5 x6) x7 x8) (meanDR (val_main_v96 (F := Ideal) x0 x1 x2 x3 x4 x7 x8 x9 x10) x9 x10) (val_main_v96 (F := Ideal) x0 x1 x2 x3 x4 x7 x8 x9 x10)
          (wsl x2 1 1) (wsl x2 1 2) (wsl x3 1 1) (wsl x3 1 2) (bsl x4 1 1) (bsl x4 1 2) := by
  funext i
  obtain ⟨r, q, rfl⟩ : ∃ (r : Fin 50000) (q : Fin 256), i = ix2 r q := ⟨i 0, i 1, eq_ix2 i⟩
  rw [val_main_v194_apply, val_main_v193_apply, val_main_v191_apply, val_main_v159_apply, val_main_v157_apply,
    val_main_v190_apply, val_main_v188_apply, d154, b156, d158, d185, b187, d189, half192, zero2, drugOut_ix2]
  rfl

end Cert.RefSide

end
-- ==== Proof.RefResult.lean ====
/-
  The plain program's result is the two-layer forward function of its eleven arguments.

  The last stage stacks the second layer's drug rows on its disease rows. The second layer's rows are the layer
  functions of the first layer's rows, and those the layer functions of the arguments; substituting the one into the
  other gives the forward function, term for term.
-/
import proofs.«165452_j57363583205826_1_alg».proof.Proof.RefLayer0
import proofs.«165452_j57363583205826_1_alg».proof.Proof.RefLayer1
import proofs.«165452_j57363583205826_1_alg».proof.Proof.Forward

noncomputable section

namespace Cert.RefSide

open Idealize.ShloMosaic Idealize.SL.Sem Cert.ReferenceIdeal Cert.ReferenceIdeal.Read Cert.Layer Cert.Means Cert.Forward

/-- The last stage, the second layer's drug rows stacked on its disease rows, is the forward function of the arguments. -/
theorem val196_eq (x0 : Drug) (x1 : Dis) (x2 x3 : W4) (x4 : B3) (x5 x6 x7 x8 x9 x10 : EdgeVec) :
    val_main_v196 (F := Ideal) x0 x1 x2 x3 x4 x5 x6 x7 x8 x9 x10 = forward x0 x1 x2 x3 x4 x5 x6 x7 x8 x9 x10 := by
  unfold val_main_v196 forward drug1 dis1 drugLayer disLayer
  rw [v194_eq, v195_eq, v96_eq, v97_eq]

/-- The plain program's result is the forward function of its eleven arguments. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v196 (F := Ideal) m c
      = Cert.Forward.forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (val_main_v196_eq (F := Ideal) m c).trans (val196_eq _ _ _ _ _ _ _ _ _ _ _)

end Cert.RefSide

end
-- ==== Proof.lean ====
/-
  A two-layer graph network over drug and disease nodes with three edge relations, computed two ways.

  The plain program computes, per layer, for each relation the mean of the source rows over the incoming edges, a
  product with a neighbour weight matrix, a bias and a product of the destination rows with a root weight matrix;
  the disease rows become the maximum with zero of their one relation's value, the drug rows the maximum with zero of
  one half of the sum of their two relations' values. The fused program computes the same means on the host and the
  products inside four kernels — one per node type and layer — in which the two root weight matrices of the drug rows
  arrive already added, as do the two biases, and the products are added before the bias.

  At the ideal values (floats are extended reals, a change of float format is the identity, a matrix product is the
  exact sum) the two results agree entry by entry: the disease rows by regrouping a sum; the drug rows by
      ∑ₖ x(r,k) · (Wr₁(k,c) + Wr₂(k,c)) = ∑ₖ x(r,k) · Wr₁(k,c) + ∑ₖ x(r,k) · Wr₂(k,c),
  distributivity, which holds because the rows x and the weights are real numbers: in the first layer by the
  precondition (every float input finite), in the second because the first layer's drug rows are sums, products,
  quotients by a count at least one and maxima of real numbers. The frames are the programs' runs with the values
  forgotten; no operation was rewritten in idealizing the fused program, so nothing is owed for that.
-/
import proofs.«165452_j57363583205826_1_alg».proof.Defs
import proofs.«165452_j57363583205826_1_alg».proof.Proof.Gen.Kernel
import proofs.«165452_j57363583205826_1_alg».proof.Proof.Gen.Kernel.Skeleton
import proofs.«165452_j57363583205826_1_alg».proof.Proof.Gen.Kernel.Launch
import proofs.«165452_j57363583205826_1_alg».proof.Proof.Gen.Kernel.Points
import proofs.«165452_j57363583205826_1_alg».proof.Proof.Gen.Kernel.Frame
import proofs.«165452_j57363583205826_1_alg».proof.Proof.Gen.KernelIdeal
import proofs.«165452_j57363583205826_1_alg».proof.Proof.Gen.KernelIdeal.Skeleton
import proofs.«165452_j57363583205826_1_alg».proof.Proof.Gen.KernelIdeal.Launch
import proofs.«165452_j57363583205826_1_alg».proof.Proof.Gen.KernelIdeal.Points
import proofs.«165452_j57363583205826_1_alg».proof.Proof.Gen.KernelIdeal.Frame
import proofs.«165452_j57363583205826_1_alg».proof.Proof.Gen.ReferenceIdeal
import proofs.«165452_j57363583205826_1_alg».proof.Proof.Gen.Pre_finite_inputs
import proofs.«165452_j57363583205826_1_alg».proof.Proof.Gen.ReferenceIdeal.Run
import proofs.«165452_j57363583205826_1_alg».proof.Proof.Gen.ReferenceIdeal.Read
import proofs.«165452_j57363583205826_1_alg».proof.Proof.KRun
import proofs.«165452_j57363583205826_1_alg».proof.Proof.KValue
import proofs.«165452_j57363583205826_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The plain program's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end, from memories agreeing on the arguments, with the plain computation of the arguments in their
    result arrays: the fused one by the walk through its regions under the precondition, the plain one by its run
    read layer by layer. -/
theorem algebraic : Cert.algebraic_KernelIdeal_ReferenceIdeal := by
  intro m ρ m' ρ' hpre hagree
  refine ⟨fun c => Cert.Forward.forward
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KValue.result_eq m ρ c hpre), (h c).2⟩)
      (Cert.KernelIdeal.RunValue.run m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.RefSide.result_eq m' c, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
